-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x80x80x80 : Shape := ⟨5, ![2, 64, 80, 80, 80]⟩
abbrev S_ : Shape := ⟨0, ![]⟩

class Facts : Prop where
  bcast_S_S2x64x80x80x80 : S_.BroadcastsInDim S2x64x80x80x80 (![] : Fin 0 → Fin S2x64x80x80x80.rank)
  reducesTo_S2x64x80x80x80_S_d0_1_2_3_4 : S2x64x80x80x80.ReducesTo [0, 1, 2, 3, 4] S_
  h_S_ : 0 < S_.numel

variable [Facts]

def fn {F : FTy → Type} [FloatOps F] (main_arg0 : FVec F S2x64x80x80x80 .f32) (main_arg1 : FVec F S2x64x80x80x80 .f32) : IVec S_ 1 :=
  let main_v0 : FVec F S2x64x80x80x80 .f32 := Host.absf main_arg0
  let main_cst : FVec F S_ .f32 := constant S_ .f32 0x7F800000#32
  let main_v1 : FVec F S2x64x80x80x80 .f32 := broadcastInDim S2x64x80x80x80 ![] bcast_S_S2x64x80x80x80 main_cst
  let main_v2 : IVec S2x64x80x80x80 1 := cmpf .olt main_v0 main_v1
  let main_c : IVec S_ 1 := constantI S_ 1 1#1
  let main_v3 : IVec S_ 1 := (fun x v => Host.reduce IntOp.andi x v reducesTo_S2x64x80x80x80_S_d0_1_2_3_4 h_S_) main_v2 main_c
  let main_v4 : FVec F S2x64x80x80x80 .f32 := Host.absf main_arg1
  let main_cst_0 : FVec F S_ .f32 := constant S_ .f32 0x7F800000#32
  let main_v5 : FVec F S2x64x80x80x80 .f32 := broadcastInDim S2x64x80x80x80 ![] bcast_S_S2x64x80x80x80 main_cst_0
  let main_v6 : IVec S2x64x80x80x80 1 := cmpf .olt main_v4 main_v5
  let main_c_1 : IVec S_ 1 := constantI S_ 1 1#1
  let main_v7 : IVec S_ 1 := (fun x v => Host.reduce IntOp.andi x v reducesTo_S2x64x80x80x80_S_d0_1_2_3_4 h_S_) main_v6 main_c_1
  let main_v8 : IVec S_ 1 := andi main_v3 main_v7
  main_v8
-- ==== Kernel.lean ====
abbrev S2x64x80x80x80 : Shape := ⟨5, ![2, 64, 80, 80, 80]⟩
abbrev S_ : Shape := ⟨0, ![]⟩
abbrev S2x64x82x82x128 : Shape := ⟨5, ![2, 64, 82, 82, 128]⟩
abbrev S2x27x80x80x80 : Shape := ⟨5, ![2, 27, 80, 80, 80]⟩
abbrev S1x64x1x80x80 : Shape := ⟨5, ![1, 64, 1, 80, 80]⟩
abbrev S1x27x1x80x80 : Shape := ⟨5, ![1, 27, 1, 80, 80]⟩
abbrev S2x64x3x82x128 : Shape := ⟨5, ![2, 64, 3, 82, 128]⟩
abbrev S2 : Shape := ⟨1, ![2]⟩
abbrev S1 : Shape := ⟨1, ![1]⟩
abbrev S1x64x3x82x128 : Shape := ⟨5, ![1, 64, 3, 82, 128]⟩
abbrev S64x3x82x128 : Shape := ⟨4, ![64, 3, 82, 128]⟩
abbrev S64x1x80x80 : Shape := ⟨4, ![64, 1, 80, 80]⟩
abbrev S1x80x80 : Shape := ⟨3, ![1, 80, 80]⟩
abbrev S1x1x1x80x80 : Shape := ⟨5, ![1, 1, 1, 80, 80]⟩

abbrev nBuf : Space → Nat
  | .hbm => 6
  | .vmem => 5
  | .smem => 0
  | _ => 0

abbrev bufTy : (tb : Table) → Fin (tcTables nBuf tb) → BufTy
  | .hbm, ⟨0, _⟩ => ⟨S2x64x80x80x80, .f32⟩
  | .hbm, ⟨1, _⟩ => ⟨S2x64x80x80x80, .f32⟩
  | .hbm, ⟨2, _⟩ => ⟨S_, .i32⟩
  | .hbm, ⟨3, _⟩ => ⟨S_, .f32⟩
  | .hbm, ⟨4, _⟩ => ⟨S2x64x82x82x128, .f32⟩
  | .hbm, ⟨5, _⟩ => ⟨S2x27x80x80x80, .f32⟩
  | .local _ .vmem, ⟨0, _⟩ => ⟨S1x64x1x80x80, .f32⟩
  | .local _ .vmem, ⟨1, _⟩ => ⟨S1x64x1x80x80, .f32⟩
  | .local _ .vmem, ⟨2, _⟩ => ⟨S1x27x1x80x80, .f32⟩
  | .local _ .vmem, ⟨3, _⟩ => ⟨S1x27x1x80x80, .f32⟩
  | .local _ .vmem, ⟨4, _⟩ => ⟨S2x64x3x82x128, .f32⟩
  | _, _ => ⟨S2x64x80x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 80], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c1_i32_185 : BitVec 32 := 1#32
  let v246 : BitVec 32 := Scalar.muli arg1 c1_i32_185
  v246
def k0_off1 (i : grid0.Coords) : Fin 5 → Nat :=
  let arg0 : BitVec 32 := BitVec.ofNat 32 (i 0).val
  let c0_i32_192 : BitVec 32 := 0#32
  let arg1 : BitVec 32 := BitVec.ofNat 32 (i 1).val
  let c1_i32_185 : BitVec 32 := 1#32
  let v246 : BitVec 32 := Scalar.muli arg1 c1_i32_185
  let v247 : BitVec 32 := v246
  let c0_i32_193 : BitVec 32 := 0#32
  let c0_i32_194 : BitVec 32 := 0#32
  ![arg0.toNat, 0, v247.toNat, 0, 0]
def k0_mult2 (i : grid0.Coords) : BitVec 32 :=
  let arg1 : BitVec 32 := BitVec.ofNat 32 (i 1).val
  let c1_i32_5 : BitVec 32 := 1#32
  let v13 : BitVec 32 := Scalar.muli arg1 c1_i32_5
  v13
def k0_off2 (i : grid0.Coords) : Fin 1 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off3 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  let c0_i32_8 : BitVec 32 := 0#32
  let c0_i32_9 : BitVec 32 := 0#32
  ![v12.toNat, 0, 0, 0, 0]
def k0_off4 (i : grid0.Coords) : Fin 5 → Nat :=
  let arg0 : BitVec 32 := BitVec.ofNat 32 (i 0).val
  let c0_i32_10 : BitVec 32 := 0#32
  let arg1 : BitVec 32 := BitVec.ofNat 32 (i 1).val
  let c1_i32_5 : BitVec 32 := 1#32
  let v13 : BitVec 32 := Scalar.muli arg1 c1_i32_5
  let v14 : BitVec 32 := v13
  let c0_i32_11 : BitVec 32 := 0#32
  let c0_i32_12 : BitVec 32 := 0#32
  ![arg0.toNat, 0, v14.toNat, 0, 0]
def k0_cond2 (i : grid0.Coords) : BitVec 1 :=
  let arg1 : BitVec 32 := BitVec.ofNat 32 (i 1).val
  let c1_i32_13 : BitVec 32 := 1#32
  let v21 : BitVec 32 := Scalar.addi arg1 c1_i32_13
  let c80_i32 : BitVec 32 := 80#32
  let v22 : BitVec 1 := Scalar.cmpi .slt v21 c80_i32
  let v23 : BitVec 32 := Scalar.extui v22
  let c0_i32_14 : BitVec 32 := 0#32
  let v24 : BitVec 1 := Scalar.cmpi .ne v23 c0_i32_14
  v24

def k0_mult3 (i : grid0.Coords) : BitVec 32 :=
  let arg1 : BitVec 32 := BitVec.ofNat 32 (i 1).val
  let c1_i32_186 : BitVec 32 := 1#32
  let v247 : BitVec 32 := Scalar.addi arg1 c1_i32_186
  let c1_i32_187 : BitVec 32 := 1#32
  let v248 : BitVec 32 := Scalar.muli v247 c1_i32_187
  v248
def k0_off5 (i : grid0.Coords) : Fin 1 → Nat :=
  let c1_i32_185 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v246 : BitVec 32 := Scalar.subi c1_i32_185 v12
  ![v246.toNat]
def k0_off6 (i : grid0.Coords) : Fin 5 → Nat :=
  let c1_i32_185 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v246 : BitVec 32 := Scalar.subi c1_i32_185 v12
  let c0_i32_188 : BitVec 32 := 0#32
  let c0_i32_189 : BitVec 32 := 0#32
  let c0_i32_190 : BitVec 32 := 0#32
  let c0_i32_191 : BitVec 32 := 0#32
  ![v246.toNat, 0, 0, 0, 0]
def k0_off7 (i : grid0.Coords) : Fin 5 → Nat :=
  let arg0 : BitVec 32 := BitVec.ofNat 32 (i 0).val
  let c0_i32_192 : BitVec 32 := 0#32
  let arg1 : BitVec 32 := BitVec.ofNat 32 (i 1).val
  let c1_i32_186 : BitVec 32 := 1#32
  let v247 : BitVec 32 := Scalar.addi arg1 c1_i32_186
  let c1_i32_187 : BitVec 32 := 1#32
  let v248 : BitVec 32 := Scalar.muli v247 c1_i32_187
  let v249 : BitVec 32 := v248
  let c0_i32_193 : BitVec 32 := 0#32
  let c0_i32_194 : BitVec 32 := 0#32
  ![arg0.toNat, 0, v249.toNat, 0, 0]
def k0_off8 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v27 : Index := Scalar.indexCast v12
  let c0_19 : Index := 0#32
  let c0_20 : Index := 0#32
  let c0_21 : Index := 0#32
  let c0_22 : Index := 0#32
  ![v27.toNat, 0, 0, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x64x1x80x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x27x1x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S2x64x80x80x80_S2x64x82x82x128_000_000_110_110_1470 : S2x64x80x80x80.Pads (![0, 0, 1, 1, 1] : Fin 5 → Nat) ![0, 0, 1, 1, 47] ![0, 0, 0, 0, 0] S2x64x82x82x128
  h_S_ : 0 < S_.numel
  inb_S2_S1_0 : ∀ a, (![0] : Fin 1 → Nat) a + S1.size a ≤ S2.size a
  squeezes_S1_S_ : S1.Squeezes S_
  inb_S2x64x3x82x128_S1x64x3x82x128_0_0_0_0_0 : ∀ a, (![0, 0, 0, 0, 0] : Fin 5 → Nat) a + S1x64x3x82x128.size a ≤ S2x64x3x82x128.size a
  squeezes_S1x64x3x82x128_S64x3x82x128 : S1x64x3x82x128.Squeezes S64x3x82x128
  inb_S1x64x1x80x80_S1x64x1x80x80_0_0_0_0_0 : ∀ a, (![0, 0, 0, 0, 0] : Fin 5 → Nat) a + S1x64x1x80x80.size a ≤ S1x64x1x80x80.size a
  h_S1x64x1x80x80 : 0 < S1x64x1x80x80.numel
  shapeCasts_S1x64x1x80x80_S64x1x80x80 : S1x64x1x80x80.ShapeCasts S64x1x80x80
  h_S1x64x3x82x128 : 0 < S1x64x3x82x128.numel
  shapeCasts_S1x64x3x82x128_S64x3x82x128 : S1x64x3x82x128.ShapeCasts S64x3x82x128
  slices_S64x3x82x128_o0_0_0_0_S64x1x80x80 : S64x3x82x128.Slices ![0, 0, 0, 0] S64x1x80x80
  reduces_S64x1x80x80_S1x80x80 : S64x1x80x80.Reduces [0] S1x80x80
  inb_S1x27x1x80x80_S1x1x1x80x80_0_0_0_0_0 : ∀ a, (![0, 0, 0, 0, 0] : Fin 5 → Nat) a + S1x1x1x80x80.size a ≤ S1x27x1x80x80.size a
  h_S1x1x1x80x80 : 0 < S1x1x1x80x80.numel
  shapeCasts_S1x1x1x80x80_S1x80x80 : S1x1x1x80x80.ShapeCasts S1x80x80
  shapeCasts_S1x80x80_S1x1x1x80x80 : S1x80x80.ShapeCasts S1x1x1x80x80
  slices_S64x3x82x128_o0_0_0_1_S64x1x80x80 : S64x3x82x128.Slices ![0, 0, 0, 1] S64x1x80x80
  inb_S1x27x1x80x80_S1x1x1x80x80_0_1_0_0_0 : ∀ a, (![0, 1, 0, 0, 0] : Fin 5 → Nat) a + S1x1x1x80x80.size a ≤ S1x27x1x80x80.size a
  slices_S64x3x82x128_o0_0_0_2_S64x1x80x80 : S64x3x82x128.Slices ![0, 0, 0, 2] S64x1x80x80
  inb_S1x27x1x80x80_S1x1x1x80x80_0_2_0_0_0 : ∀ a, (![0, 2, 0, 0, 0] : Fin 5 → Nat) a + S1x1x1x80x80.size a ≤ S1x27x1x80x80.size a
  slices_S64x3x82x128_o0_0_1_0_S64x1x80x80 : S64x3x82x128.Slices ![0, 0, 1, 0] S64x1x80x80
  inb_S1x27x1x80x80_S1x1x1x80x80_0_3_0_0_0 : ∀ a, (![0, 3, 0, 0, 0] : Fin 5 → Nat) a + S1x1x1x80x80.size a ≤ S1x27x1x80x80.size a
  slices_S64x3x82x128_o0_0_1_1_S64x1x80x80 : S64x3x82x128.Slices ![0, 0, 1, 1] S64x1x80x80
  inb_S1x27x1x80x80_S1x1x1x80x80_0_4_0_0_0 : ∀ a, (![0, 4, 0, 0, 0] : Fin 5 → Nat) a + S1x1x1x80x80.size a ≤ S1x27x1x80x80.size a
  slices_S64x3x82x128_o0_0_1_2_S64x1x80x80 : S64x3x82x128.Slices ![0, 0, 1, 2] S64x1x80x80
  inb_S1x27x1x80x80_S1x1x1x80x80_0_5_0_0_0 : ∀ a, (![0, 5, 0, 0, 0] : Fin 5 → Nat) a + S1x1x1x80x80.size a ≤ S1x27x1x80x80.size a
  slices_S64x3x82x128_o0_0_2_0_S64x1x80x80 : S64x3x82x128.Slices ![0, 0, 2, 0] S64x1x80x80
  inb_S1x27x1x80x80_S1x1x1x80x80_0_6_0_0_0 : ∀ a, (![0, 6, 0, 0, 0] : Fin 5 → Nat) a + S1x1x1x80x80.size a ≤ S1x27x1x80x80.size a
  slices_S64x3x82x128_o0_0_2_1_S64x1x80x80 : S64x3x82x128.Slices ![0, 0, 2, 1] S64x1x80x80
  inb_S1x27x1x80x80_S1x1x1x80x80_0_7_0_0_0 : ∀ a, (![0, 7, 0, 0, 0] : Fin 5 → Nat) a + S1x1x1x80x80.size a ≤ S1x27x1x80x80.size a
  slices_S64x3x82x128_o0_0_2_2_S64x1x80x80 : S64x3x82x128.Slices ![0, 0, 2, 2] S64x1x80x80
  inb_S1x27x1x80x80_S1x1x1x80x80_0_8_0_0_0 : ∀ a, (![0, 8, 0, 0, 0] : Fin 5 → Nat) a + S1x1x1x80x80.size a ≤ S1x27x1x80x80.size a
  slices_S64x3x82x128_o0_1_0_0_S64x1x80x80 : S64x3x82x128.Slices ![0, 1, 0, 0] S64x1x80x80
  inb_S1x27x1x80x80_S1x1x1x80x80_0_9_0_0_0 : ∀ a, (![0, 9, 0, 0, 0] : Fin 5 → Nat) a + S1x1x1x80x80.size a ≤ S1x27x1x80x80.size a
  slices_S64x3x82x128_o0_1_0_1_S64x1x80x80 : S64x3x82x128.Slices ![0, 1, 0, 1] S64x1x80x80
  inb_S1x27x1x80x80_S1x1x1x80x80_0_10_0_0_0 : ∀ a, (![0, 10, 0, 0, 0] : Fin 5 → Nat) a + S1x1x1x80x80.size a ≤ S1x27x1x80x80.size a
  slices_S64x3x82x128_o0_1_0_2_S64x1x80x80 : S64x3x82x128.Slices ![0, 1, 0, 2] S64x1x80x80
  inb_S1x27x1x80x80_S1x1x1x80x80_0_11_0_0_0 : ∀ a, (![0, 11, 0, 0, 0] : Fin 5 → Nat) a + S1x1x1x80x80.size a ≤ S1x27x1x80x80.size a
  slices_S64x3x82x128_o0_1_1_0_S64x1x80x80 : S64x3x82x128.Slices ![0, 1, 1, 0] S64x1x80x80
  inb_S1x27x1x80x80_S1x1x1x80x80_0_12_0_0_0 : ∀ a, (![0, 12, 0, 0, 0] : Fin 5 → Nat) a + S1x1x1x80x80.size a ≤ S1x27x1x80x80.size a
  slices_S64x3x82x128_o0_1_1_1_S64x1x80x80 : S64x3x82x128.Slices ![0, 1, 1, 1] S64x1x80x80
  inb_S1x27x1x80x80_S1x1x1x80x80_0_13_0_0_0 : ∀ a, (![0, 13, 0, 0, 0] : Fin 5 → Nat) a + S1x1x1x80x80.size a ≤ S1x27x1x80x80.size a
  slices_S64x3x82x128_o0_1_1_2_S64x1x80x80 : S64x3x82x128.Slices ![0, 1, 1, 2] S64x1x80x80
  inb_S1x27x1x80x80_S1x1x1x80x80_0_14_0_0_0 : ∀ a, (![0, 14, 0, 0, 0] : Fin 5 → Nat) a + S1x1x1x80x80.size a ≤ S1x27x1x80x80.size a
  slices_S64x3x82x128_o0_1_2_0_S64x1x80x80 : S64x3x82x128.Slices ![0, 1, 2, 0] S64x1x80x80
  inb_S1x27x1x80x80_S1x1x1x80x80_0_15_0_0_0 : ∀ a, (![0, 15, 0, 0, 0] : Fin 5 → Nat) a + S1x1x1x80x80.size a ≤ S1x27x1x80x80.size a
  slices_S64x3x82x128_o0_1_2_1_S64x1x80x80 : S64x3x82x128.Slices ![0, 1, 2, 1] S64x1x80x80
  inb_S1x27x1x80x80_S1x1x1x80x80_0_16_0_0_0 : ∀ a, (![0, 16, 0, 0, 0] : Fin 5 → Nat) a + S1x1x1x80x80.size a ≤ S1x27x1x80x80.size a
  slices_S64x3x82x128_o0_1_2_2_S64x1x80x80 : S64x3x82x128.Slices ![0, 1, 2, 2] S64x1x80x80
  inb_S1x27x1x80x80_S1x1x1x80x80_0_17_0_0_0 : ∀ a, (![0, 17, 0, 0, 0] : Fin 5 → Nat) a + S1x1x1x80x80.size a ≤ S1x27x1x80x80.size a
  slices_S64x3x82x128_o0_2_0_0_S64x1x80x80 : S64x3x82x128.Slices ![0, 2, 0, 0] S64x1x80x80
  inb_S1x27x1x80x80_S1x1x1x80x80_0_18_0_0_0 : ∀ a, (![0, 18, 0, 0, 0] : Fin 5 → Nat) a + S1x1x1x80x80.size a ≤ S1x27x1x80x80.size a
  slices_S64x3x82x128_o0_2_0_1_S64x1x80x80 : S64x3x82x128.Slices ![0, 2, 0, 1] S64x1x80x80
  inb_S1x27x1x80x80_S1x1x1x80x80_0_19_0_0_0 : ∀ a, (![0, 19, 0, 0, 0] : Fin 5 → Nat) a + S1x1x1x80x80.size a ≤ S1x27x1x80x80.size a
  slices_S64x3x82x128_o0_2_0_2_S64x1x80x80 : S64x3x82x128.Slices ![0, 2, 0, 2] S64x1x80x80
  inb_S1x27x1x80x80_S1x1x1x80x80_0_20_0_0_0 : ∀ a, (![0, 20, 0, 0, 0] : Fin 5 → Nat) a + S1x1x1x80x80.size a ≤ S1x27x1x80x80.size a
  slices_S64x3x82x128_o0_2_1_0_S64x1x80x80 : S64x3x82x128.Slices ![0, 2, 1, 0] S64x1x80x80
  inb_S1x27x1x80x80_S1x1x1x80x80_0_21_0_0_0 : ∀ a, (![0, 21, 0, 0, 0] : Fin 5 → Nat) a + S1x1x1x80x80.size a ≤ S1x27x1x80x80.size a
  slices_S64x3x82x128_o0_2_1_1_S64x1x80x80 : S64x3x82x128.Slices ![0, 2, 1, 1] S64x1x80x80
  inb_S1x27x1x80x80_S1x1x1x80x80_0_22_0_0_0 : ∀ a, (![0, 22, 0, 0, 0] : Fin 5 → Nat) a + S1x1x1x80x80.size a ≤ S1x27x1x80x80.size a
  slices_S64x3x82x128_o0_2_1_2_S64x1x80x80 : S64x3x82x128.Slices ![0, 2, 1, 2] S64x1x80x80
  inb_S1x27x1x80x80_S1x1x1x80x80_0_23_0_0_0 : ∀ a, (![0, 23, 0, 0, 0] : Fin 5 → Nat) a + S1x1x1x80x80.size a ≤ S1x27x1x80x80.size a
  slices_S64x3x82x128_o0_2_2_0_S64x1x80x80 : S64x3x82x128.Slices ![0, 2, 2, 0] S64x1x80x80
  inb_S1x27x1x80x80_S1x1x1x80x80_0_24_0_0_0 : ∀ a, (![0, 24, 0, 0, 0] : Fin 5 → Nat) a + S1x1x1x80x80.size a ≤ S1x27x1x80x80.size a
  slices_S64x3x82x128_o0_2_2_1_S64x1x80x80 : S64x3x82x128.Slices ![0, 2, 2, 1] S64x1x80x80
  inb_S1x27x1x80x80_S1x1x1x80x80_0_25_0_0_0 : ∀ a, (![0, 25, 0, 0, 0] : Fin 5 → Nat) a + S1x1x1x80x80.size a ≤ S1x27x1x80x80.size a
  slices_S64x3x82x128_o0_2_2_2_S64x1x80x80 : S64x3x82x128.Slices ![0, 2, 2, 2] S64x1x80x80
  inb_S1x27x1x80x80_S1x1x1x80x80_0_26_0_0_0 : ∀ a, (![0, 26, 0, 0, 0] : Fin 5 → Nat) a + S1x1x1x80x80.size a ≤ S1x27x1x80x80.size a
  hcc0_scratch1 : 4 + S2.numel ≤ 6
  hrank0 : 0 < grid0.rank
  k0_mult1_dvd : ∀ i : grid0.Coords, ∀ (k0_h1 : k0_cond1 i = 1#1), 1 ∣ (k0_mult1 i).toNat
  k0_off1_inb : ∀ i : grid0.Coords, ∀ (k0_h1 : k0_cond1 i = 1#1), ∀ a, (k0_off1 i) a + S1x64x3x82x128.size a ≤ S2x64x82x82x128.size a
  k0_mult2_dvd : ∀ i : grid0.Coords, 1 ∣ (k0_mult2 i).toNat
  k0_off2_inb : ∀ i : grid0.Coords, ∀ a, (k0_off2 i) a + S1.size a ≤ S2.size a
  k0_off3_inb : ∀ i : grid0.Coords, ∀ a, (k0_off3 i) a + S1x64x3x82x128.size a ≤ S2x64x3x82x128.size a
  k0_off4_inb : ∀ i : grid0.Coords, ∀ a, (k0_off4 i) a + S1x64x3x82x128.size a ≤ S2x64x82x82x128.size a
  k0_mult3_dvd : ∀ i : grid0.Coords, ∀ (k0_h2 : k0_cond2 i = 1#1), 1 ∣ (k0_mult3 i).toNat
  k0_off5_inb : ∀ i : grid0.Coords, ∀ (k0_h2 : k0_cond2 i = 1#1), ∀ a, (k0_off5 i) a + S1.size a ≤ S2.size a
  k0_off6_inb : ∀ i : grid0.Coords, ∀ (k0_h2 : k0_cond2 i = 1#1), ∀ a, (k0_off6 i) a + S1x64x3x82x128.size a ≤ S2x64x3x82x128.size a
  k0_off7_inb : ∀ i : grid0.Coords, ∀ (k0_h2 : k0_cond2 i = 1#1), ∀ a, (k0_off7 i) a + S1x64x3x82x128.size a ≤ S2x64x82x82x128.size a
  k0_off8_inb : ∀ i : grid0.Coords, ∀ a, (k0_off8 i) a + S1x64x3x82x128.size a ≤ S2x64x3x82x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1x80x80.size a ≤ S2x64x80x80x80.size a
  hwx0_0 : ∀ i : grid0.Coords, EltTy.bits .f32 = 32 ∨ (Rect.block (s := S2x64x80x80x80) S1x64x1x80x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x27x1x80x80.size a ≤ S2x27x80x80x80.size a
  hwx0_1 : ∀ i : grid0.Coords, EltTy.bits .f32 = 32 ∨ (Rect.block (s := S2x27x80x80x80) S1x27x1x80x80.size (cc0_transform_2 i) (hinb0_1 i)).WholeWords (EltTy.packing .f32)

variable [Facts₀]

abbrev cc0_scratch1 : DmaSems sig S2 := SemArray.consecutive 4 S2 hcc0_scratch1

abbrev win0_0 : Pipeline.Window sig grid0 :=
  Pipeline.Window.ofSpec (Memref.whole main_arg0) S1x64x1x80x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x27x1x80x80.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x64x80x80x80 : Shape := ⟨5, ![2, 64, 80, 80, 80]⟩
abbrev S_ : Shape := ⟨0, ![]⟩
abbrev S2x64x82x82x82 : Shape := ⟨5, ![2, 64, 82, 82, 82]⟩
abbrev S2x80x80x80 : Shape := ⟨4, ![2, 80, 80, 80]⟩
abbrev S2x1x80x80x80 : Shape := ⟨5, ![2, 1, 80, 80, 80]⟩
abbrev S2x16x80x80x80 : Shape := ⟨5, ![2, 16, 80, 80, 80]⟩
abbrev S2x11x80x80x80 : Shape := ⟨5, ![2, 11, 80, 80, 80]⟩
abbrev S2x27x80x80x80 : Shape := ⟨5, ![2, 27, 80, 80, 80]⟩

abbrev nBuf : Space → Nat
  | .hbm => 146
  | .vmem => 0
  | .smem => 0
  | _ => 0

abbrev hbmTy0_0 (i : Nat) : BufTy := match i % 128 with
  | 0 => ⟨S2x64x80x80x80, .f32⟩
  | 1 => ⟨S2x64x80x80x80, .f32⟩
  | 2 => ⟨S_, .i32⟩
  | 3 => ⟨S_, .f32⟩
  | 4 => ⟨S2x64x82x82x82, .f32⟩
  | 5 => ⟨S2x64x80x80x80, .f32⟩
  | 6 => ⟨S2x64x80x80x80, .f32⟩
  | 7 => ⟨S_, .f32⟩
  | 8 => ⟨S2x80x80x80, .f32⟩
  | 9 => ⟨S2x64x80x80x80, .f32⟩
  | 10 => ⟨S2x64x80x80x80, .f32⟩
  | 11 => ⟨S_, .f32⟩
  | 12 => ⟨S2x80x80x80, .f32⟩
  | 13 => ⟨S2x64x80x80x80, .f32⟩
  | 14 => ⟨S2x64x80x80x80, .f32⟩
  | 15 => ⟨S_, .f32⟩
  | 16 => ⟨S2x80x80x80, .f32⟩
  | 17 => ⟨S2x64x80x80x80, .f32⟩
  | 18 => ⟨S2x64x80x80x80, .f32⟩
  | 19 => ⟨S_, .f32⟩
  | 20 => ⟨S2x80x80x80, .f32⟩
  | 21 => ⟨S2x64x80x80x80, .f32⟩
  | 22 => ⟨S2x64x80x80x80, .f32⟩
  | 23 => ⟨S_, .f32⟩
  | 24 => ⟨S2x80x80x80, .f32⟩
  | 25 => ⟨S2x64x80x80x80, .f32⟩
  | 26 => ⟨S2x64x80x80x80, .f32⟩
  | 27 => ⟨S_, .f32⟩
  | 28 => ⟨S2x80x80x80, .f32⟩
  | 29 => ⟨S2x64x80x80x80, .f32⟩
  | 30 => ⟨S2x64x80x80x80, .f32⟩
  | 31 => ⟨S_, .f32⟩
  | 32 => ⟨S2x80x80x80, .f32⟩
  | 33 => ⟨S2x64x80x80x80, .f32⟩
  | 34 => ⟨S2x64x80x80x80, .f32⟩
  | 35 => ⟨S_, .f32⟩
  | 36 => ⟨S2x80x80x80, .f32⟩
  | 37 => ⟨S2x64x80x80x80, .f32⟩
  | 38 => ⟨S2x64x80x80x80, .f32⟩
  | 39 => ⟨S_, .f32⟩
  | 40 => ⟨S2x80x80x80, .f32⟩
  | 41 => ⟨S2x64x80x80x80, .f32⟩
  | 42 => ⟨S2x64x80x80x80, .f32⟩
  | 43 => ⟨S_, .f32⟩
  | 44 => ⟨S2x80x80x80, .f32⟩
  | 45 => ⟨S2x64x80x80x80, .f32⟩
  | 46 => ⟨S2x64x80x80x80, .f32⟩
  | 47 => ⟨S_, .f32⟩
  | 48 => ⟨S2x80x80x80, .f32⟩
  | 49 => ⟨S2x64x80x80x80, .f32⟩
  | 50 => ⟨S2x64x80x80x80, .f32⟩
  | 51 => ⟨S_, .f32⟩
  | 52 => ⟨S2x80x80x80, .f32⟩
  | 53 => ⟨S2x64x80x80x80, .f32⟩
  | 54 => ⟨S2x64x80x80x80, .f32⟩
  | 55 => ⟨S_, .f32⟩
  | 56 => ⟨S2x80x80x80, .f32⟩
  | 57 => ⟨S2x64x80x80x80, .f32⟩
  | 58 => ⟨S2x64x80x80x80, .f32⟩
  | 59 => ⟨S_, .f32⟩
  | 60 => ⟨S2x80x80x80, .f32⟩
  | 61 => ⟨S2x64x80x80x80, .f32⟩
  | 62 => ⟨S2x64x80x80x80, .f32⟩
  | 63 => ⟨S_, .f32⟩
  | 64 => ⟨S2x80x80x80, .f32⟩
  | 65 => ⟨S2x64x80x80x80, .f32⟩
  | 66 => ⟨S2x64x80x80x80, .f32⟩
  | 67 => ⟨S_, .f32⟩
  | 68 => ⟨S2x80x80x80, .f32⟩
  | 69 => ⟨S2x64x80x80x80, .f32⟩
  | 70 => ⟨S2x64x80x80x80, .f32⟩
  | 71 => ⟨S_, .f32⟩
  | 72 => ⟨S2x80x80x80, .f32⟩
  | 73 => ⟨S2x64x80x80x80, .f32⟩
  | 74 => ⟨S2x64x80x80x80, .f32⟩
  | 75 => ⟨S_, .f32⟩
  | 76 => ⟨S2x80x80x80, .f32⟩
  | 77 => ⟨S2x64x80x80x80, .f32⟩
  | 78 => ⟨S2x64x80x80x80, .f32⟩
  | 79 => ⟨S_, .f32⟩
  | 80 => ⟨S2x80x80x80, .f32⟩
  | 81 => ⟨S2x64x80x80x80, .f32⟩
  | 82 => ⟨S2x64x80x80x80, .f32⟩
  | 83 => ⟨S_, .f32⟩
  | 84 => ⟨S2x80x80x80, .f32⟩
  | 85 => ⟨S2x64x80x80x80, .f32⟩
  | 86 => ⟨S2x64x80x80x80, .f32⟩
  | 87 => ⟨S_, .f32⟩
  | 88 => ⟨S2x80x80x80, .f32⟩
  | 89 => ⟨S2x64x80x80x80, .f32⟩
  | 90 => ⟨S2x64x80x80x80, .f32⟩
  | 91 => ⟨S_, .f32⟩
  | 92 => ⟨S2x80x80x80, .f32⟩
  | 93 => ⟨S2x64x80x80x80, .f32⟩
  | 94 => ⟨S2x64x80x80x80, .f32⟩
  | 95 => ⟨S_, .f32⟩
  | 96 => ⟨S2x80x80x80, .f32⟩
  | 97 => ⟨S2x64x80x80x80, .f32⟩
  | 98 => ⟨S2x64x80x80x80, .f32⟩
  | 99 => ⟨S_, .f32⟩
  | 100 => ⟨S2x80x80x80, .f32⟩
  | 101 => ⟨S2x64x80x80x80, .f32⟩
  | 102 => ⟨S2x64x80x80x80, .f32⟩
  | 103 => ⟨S_, .f32⟩
  | 104 => ⟨S2x80x80x80, .f32⟩
  | 105 => ⟨S2x64x80x80x80, .f32⟩
  | 106 => ⟨S2x64x80x80x80, .f32⟩
  | 107 => ⟨S_, .f32⟩
  | 108 => ⟨S2x80x80x80, .f32⟩
  | 109 => ⟨S2x64x80x80x80, .f32⟩
  | 110 => ⟨S2x64x80x80x80, .f32⟩
  | 111 => ⟨S_, .f32⟩
  | 112 => ⟨S2x80x80x80, .f32⟩
  | 113 => ⟨S2x1x80x80x80, .f32⟩
  | 114 => ⟨S2x1x80x80x80, .f32⟩
  | 115 => ⟨S2x1x80x80x80, .f32⟩
  | 116 => ⟨S2x1x80x80x80, .f32⟩
  | 117 => ⟨S2x1x80x80x80, .f32⟩
  | 118 => ⟨S2x1x80x80x80, .f32⟩
  | 119 => ⟨S2x1x80x80x80, .f32⟩
  | 120 => ⟨S2x1x80x80x80, .f32⟩
  | 121 => ⟨S2x1x80x80x80, .f32⟩
  | 122 => ⟨S2x1x80x80x80, .f32⟩
  | 123 => ⟨S2x1x80x80x80, .f32⟩
  | 124 => ⟨S2x1x80x80x80, .f32⟩
  | 125 => ⟨S2x1x80x80x80, .f32⟩
  | 126 => ⟨S2x1x80x80x80, .f32⟩
  | 127 => ⟨S2x1x80x80x80, .f32⟩
  | _ => ⟨S2x64x80x80x80, .f32⟩

abbrev hbmTy0_1 (i : Nat) : BufTy := match i % 128 with
  | 0 => ⟨S2x1x80x80x80, .f32⟩
  | 1 => ⟨S2x1x80x80x80, .f32⟩
  | 2 => ⟨S2x1x80x80x80, .f32⟩
  | 3 => ⟨S2x1x80x80x80, .f32⟩
  | 4 => ⟨S2x1x80x80x80, .f32⟩
  | 5 => ⟨S2x1x80x80x80, .f32⟩
  | 6 => ⟨S2x1x80x80x80, .f32⟩
  | 7 => ⟨S2x1x80x80x80, .f32⟩
  | 8 => ⟨S2x1x80x80x80, .f32⟩
  | 9 => ⟨S2x1x80x80x80, .f32⟩
  | 10 => ⟨S2x1x80x80x80, .f32⟩
  | 11 => ⟨S2x1x80x80x80, .f32⟩
  | 12 => ⟨S2x16x80x80x80, .f32⟩
  | 13 => ⟨S2x11x80x80x80, .f32⟩
  | 14 => ⟨S2x27x80x80x80, .f32⟩
  | 15 => ⟨S_, .f32⟩
  | 16 => ⟨S2x27x80x80x80, .f32⟩
  | 17 => ⟨S2x27x80x80x80, .f32⟩
  | _ => ⟨S2x64x80x80x80, .f32⟩

abbrev hbmTy (i : Nat) : BufTy := match i / 128 with
  | 0 => hbmTy0_0 i
  | 1 => hbmTy0_1 i
  | _ => ⟨S2x64x80x80x80, .f32⟩

abbrev bufTy : (tb : Table) → Fin (tcTables nBuf tb) → BufTy
  | .hbm, ⟨i, _⟩ => hbmTy i
  | _, _ => ⟨S2x64x80x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_25 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_26 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]

class Facts₀ : Prop where
  pads_S2x64x80x80x80_S2x64x82x82x82_000_000_110_110_110 : S2x64x80x80x80.Pads (![0, 0, 1, 1, 1] : Fin 5 → Nat) ![0, 0, 1, 1, 1] ![0, 0, 0, 0, 0] S2x64x82x82x82
  h_S_ : 0 < S_.numel
  slices_S2x64x82x82x82_S2x64x80x80x80_0_0_0_0_0 : S2x64x82x82x82.Slices ![0, 0, 0, 0, 0] S2x64x80x80x80
  reducesTo_S2x64x80x80x80_S2x80x80x80_d1 : S2x64x80x80x80.ReducesTo [1] S2x80x80x80
  slices_S2x64x82x82x82_S2x64x80x80x80_0_0_0_0_1 : S2x64x82x82x82.Slices ![0, 0, 0, 0, 1] S2x64x80x80x80
  slices_S2x64x82x82x82_S2x64x80x80x80_0_0_0_0_2 : S2x64x82x82x82.Slices ![0, 0, 0, 0, 2] S2x64x80x80x80
  slices_S2x64x82x82x82_S2x64x80x80x80_0_0_0_1_0 : S2x64x82x82x82.Slices ![0, 0, 0, 1, 0] S2x64x80x80x80
  slices_S2x64x82x82x82_S2x64x80x80x80_0_0_0_1_1 : S2x64x82x82x82.Slices ![0, 0, 0, 1, 1] S2x64x80x80x80
  slices_S2x64x82x82x82_S2x64x80x80x80_0_0_0_1_2 : S2x64x82x82x82.Slices ![0, 0, 0, 1, 2] S2x64x80x80x80
  slices_S2x64x82x82x82_S2x64x80x80x80_0_0_0_2_0 : S2x64x82x82x82.Slices ![0, 0, 0, 2, 0] S2x64x80x80x80
  slices_S2x64x82x82x82_S2x64x80x80x80_0_0_0_2_1 : S2x64x82x82x82.Slices ![0, 0, 0, 2, 1] S2x64x80x80x80
  slices_S2x64x82x82x82_S2x64x80x80x80_0_0_0_2_2 : S2x64x82x82x82.Slices ![0, 0, 0, 2, 2] S2x64x80x80x80
  slices_S2x64x82x82x82_S2x64x80x80x80_0_0_1_0_0 : S2x64x82x82x82.Slices ![0, 0, 1, 0, 0] S2x64x80x80x80
  slices_S2x64x82x82x82_S2x64x80x80x80_0_0_1_0_1 : S2x64x82x82x82.Slices ![0, 0, 1, 0, 1] S2x64x80x80x80
  slices_S2x64x82x82x82_S2x64x80x80x80_0_0_1_0_2 : S2x64x82x82x82.Slices ![0, 0, 1, 0, 2] S2x64x80x80x80
  slices_S2x64x82x82x82_S2x64x80x80x80_0_0_1_1_0 : S2x64x82x82x82.Slices ![0, 0, 1, 1, 0] S2x64x80x80x80
  slices_S2x64x82x82x82_S2x64x80x80x80_0_0_1_1_1 : S2x64x82x82x82.Slices ![0, 0, 1, 1, 1] S2x64x80x80x80
  slices_S2x64x82x82x82_S2x64x80x80x80_0_0_1_1_2 : S2x64x82x82x82.Slices ![0, 0, 1, 1, 2] S2x64x80x80x80
  slices_S2x64x82x82x82_S2x64x80x80x80_0_0_1_2_0 : S2x64x82x82x82.Slices ![0, 0, 1, 2, 0] S2x64x80x80x80
  slices_S2x64x82x82x82_S2x64x80x80x80_0_0_1_2_1 : S2x64x82x82x82.Slices ![0, 0, 1, 2, 1] S2x64x80x80x80
  slices_S2x64x82x82x82_S2x64x80x80x80_0_0_1_2_2 : S2x64x82x82x82.Slices ![0, 0, 1, 2, 2] S2x64x80x80x80
  slices_S2x64x82x82x82_S2x64x80x80x80_0_0_2_0_0 : S2x64x82x82x82.Slices ![0, 0, 2, 0, 0] S2x64x80x80x80
  slices_S2x64x82x82x82_S2x64x80x80x80_0_0_2_0_1 : S2x64x82x82x82.Slices ![0, 0, 2, 0, 1] S2x64x80x80x80
  slices_S2x64x82x82x82_S2x64x80x80x80_0_0_2_0_2 : S2x64x82x82x82.Slices ![0, 0, 2, 0, 2] S2x64x80x80x80
  slices_S2x64x82x82x82_S2x64x80x80x80_0_0_2_1_0 : S2x64x82x82x82.Slices ![0, 0, 2, 1, 0] S2x64x80x80x80
  slices_S2x64x82x82x82_S2x64x80x80x80_0_0_2_1_1 : S2x64x82x82x82.Slices ![0, 0, 2, 1, 1] S2x64x80x80x80
  slices_S2x64x82x82x82_S2x64x80x80x80_0_0_2_1_2 : S2x64x82x82x82.Slices ![0, 0, 2, 1, 2] S2x64x80x80x80
  slices_S2x64x82x82x82_S2x64x80x80x80_0_0_2_2_0 : S2x64x82x82x82.Slices ![0, 0, 2, 2, 0] S2x64x80x80x80
  slices_S2x64x82x82x82_S2x64x80x80x80_0_0_2_2_1 : S2x64x82x82x82.Slices ![0, 0, 2, 2, 1] S2x64x80x80x80
  slices_S2x64x82x82x82_S2x64x80x80x80_0_0_2_2_2 : S2x64x82x82x82.Slices ![0, 0, 2, 2, 2] S2x64x80x80x80
  bcast_S2x80x80x80_S2x1x80x80x80_0_2_3_4 : S2x80x80x80.BroadcastsInDim S2x1x80x80x80 (![0, 2, 3, 4] : Fin 4 → Fin S2x1x80x80x80.rank)
  concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x16x80x80x80_d1 : Shape.Concatenates [S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80] S2x16x80x80x80 1
  concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x11x80x80x80_d1 : Shape.Concatenates [S2x1x80x80x80, S2x1x80x80x80, S2x1x80x80x80, S2x1x80x80x80, S2x1x80x80x80, S2x1x80x80x80, S2x1x80x80x80, S2x1x80x80x80, S2x1x80x80x80, S2x1x80x80x80, S2x1x80x80x80] S2x11x80x80x80 1
  concatenates_S2x16x80x80x80_S2x11x80x80x80_S2x27x80x80x80_d1 : Shape.Concatenates [S2x16x80x80x80, S2x11x80x80x80] S2x27x80x80x80 1
  bcast_S_S2x27x80x80x80 : S_.BroadcastsInDim S2x27x80x80x80 (![] : Fin 0 → Fin S2x27x80x80x80.rank)

variable [Facts₀]

class Facts : Prop extends Facts₀ where

variable [Facts]
-- ==== Proof.BitsRing.lean ====
/-
  The kernel streams the padded second operand through a two-slot buffer by its own transfers: at the
  first depth of a batch element it starts the copy of its own three-plane window into slot 0; at every
  depth it waits for the window of that depth (slot depth mod 2) and, unless the depth is the last,
  starts the next depth's window into the other slot. A transfer started at one grid point is therefore
  waited for at the next one, and the region invariant has to carry it across.

  This module states what the three kinds of point (first depth, inner depth, last depth) share: the
  launch facts restated for a region whose body owns transfers, the two branch conditions in closed
  form over the 160 points, the slots, cells and source windows under one name each, the invariant
  before a point, how the launch hands the buffer, the cells and the padded array to the invariant and
  takes them back, and the equations that rename what the body spells through its offset chains.
-/
import proofs.«155575_j81647328297400_2_alg».proof.Proof.Gen.Kernel.Frame
import proofs.«155575_j81647328297400_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Corr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region, for a body that owns transfers -/

/-- The host lines before the region (the zero constant, its conversion, the padding) then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The first operand's staging buffer holds its block at every point, fetched there or not. -/
theorem xBefore_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run to the library's frame post, read at the two arguments, is the frame claim's post. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The two branch conditions over the grid -/

/-- The first branch: the depth coordinate is zero. -/
abbrev isFirst (i : grid0.Coords) : Prop := k0_cond1 i = 1#1
/-- Over the 160 points (point = 80 · batch + depth) it holds where the depth is zero. -/
theorem isFirst_iff : ∀ t : Fin cfg0.N, isFirst (grid0.coords t) ↔ t.val % 80 = 0 :=
  (by decide +kernel : ∀ t : Fin grid0.N, isFirst (grid0.coords t) ↔ t.val % 80 = 0)

/-- The second branch: a next depth exists. -/
abbrev hasNext (i : grid0.Coords) : Prop := k0_cond2 i = 1#1
/-- It holds at every depth but the last, 79. -/
theorem hasNext_iff : ∀ t : Fin cfg0.N, hasNext (grid0.coords t) ↔ t.val % 80 < 79 :=
  (by decide +kernel : ∀ t : Fin grid0.N, hasNext (grid0.coords t) ↔ t.val % 80 < 79)

/-! ## The memrefs the body is called with -/

abbrev VOut : View sig .tc .vmem S1x27x1x80x80 .f32 := (Memref.whole cc0_stg1_0 : Memref sig .tc .vmem S1x27x1x80x80 .f32).view
abbrev xMem (t : Fin cfg0.N) : Memref sig .tc .vmem S1x64x1x80x80 .f32 := win0_0.stage (cfg0.slots t 0)
abbrev xWhole (t : Fin cfg0.N) : (xMem t).IsWhole := hstage0_0 ((cfg0.slots t 0).cast nbuf0_0)
abbrev oMem (t : Fin cfg0.N) : Memref sig .tc .vmem S1x27x1x80x80 .f32 := win0_1.stage (cfg0.slots t 1)
abbrev oWhole (t : Fin cfg0.N) : (oMem t).IsWhole := hstage0_1 ((cfg0.slots t 1).cast nbuf0_1)
/-- The two-slot buffer, and the padded operand left where the host put it. -/
abbrev ringM : Memref sig .tc .vmem S2x64x3x82x128 .f32 := Memref.whole cc0_scratch0
abbrev padM : Memref sig .tc .hbm S2x64x82x82x128 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own two transfer semaphores. -/
abbrev osem : Fin 2 → SemLoc sig := fun j => (![SemLoc.dma 4, SemLoc.dma 5] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
/-- The array the body's transfers read: the padded operand, no window's array. -/
def H0 : Finset (Ref sig .tc) := {main_v0}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c padM (V m c main_v0)) := by
  rw [BI.bigSep_eq_bigSepL_of_eq [main_v0] (by decide) (by decide)]; rfl

/-- What the launch hands such a body and takes back: the buffer at anything, the generator register, the
    two cells at zero, the padded array at its contents. -/
theorem PhiD_eq (c : Dev nD) :
    (Pipeline.ΦD osem spec0 H0 (V m) c : sProp 𝕄)
      = iprop(iprop((∃ d, owns (c : Thread nD τ) ringM fullShare d)) ∗ (∃ r, prngReg c r) ∗ iprop(semVal ((c : Thread nD τ), SemLoc.dma 4) 0 ∗ semVal ((c : Thread nD τ), SemLoc.dma 5) 0) ∗ iprop(hbPt c padM (V m c main_v0))) := by
  rw [Pipeline.ΦD_eq, scopedRest0_eq, ownSems_eq, hbmPts_eq]; simp only [ringM, owns_whole]; try rfl

/-! ## Slots, cells and source windows by name -/

theorem inb_slot (s : Fin 2) : ∀ a, (![s.val, 0, 0, 0, 0] : Fin 5 → Nat) a + S1x64x3x82x128.size a ≤ S2x64x3x82x128.size a := by
  have := s.isLt; intro a; fin_cases a <;> simp <;> omega
theorem inb_src (b : Fin 160) : ∀ a, (![b.val / 80, 0, b.val % 80, 0, 0] : Fin 5 → Nat) a + S1x64x3x82x128.size a ≤ S2x64x82x82x128.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot s of the buffer: all channels, three planes, the padded rows and columns. -/
def rslot (s : Fin 2) : Memref sig .tc .vmem S64x3x82x128 .f32 :=
  (ringM.slice (Rect.unit (s := S2x64x3x82x128) ![s.val, 0, 0, 0, 0] S1x64x3x82x128.size (inb_slot s)) (fun _ => rfl)).squeeze S64x3x82x128 squeezes_S1x64x3x82x128_S64x3x82x128
/-- The window point b waits for: batch b / 80, all channels, padded planes b % 80 … b % 80 + 2. -/
def srcB (b : Fin 160) : Memref sig .tc .hbm S64x3x82x128 .f32 :=
  (padM.slice (Rect.unit (s := S2x64x82x82x128) ![b.val / 80, 0, b.val % 80, 0, 0] S1x64x3x82x128.size (inb_src b)) (fun _ => rfl)).squeeze S64x3x82x128 squeezes_S1x64x3x82x128_S64x3x82x128
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section Families
variable (c : Dev nD) (W : HbBuf (F := F) c padM)
/-- The padded array is lent by share, one read share per slot: consecutive windows overlap in two planes, and
    each transfer borrows from its own slot's copy. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 160) : sProp 𝕄 := (srcB b).view.loc (c : Thread nD τ) ↦[(srcB b).view.set]{qs s} W
def restP (s : Fin 2) (b : Fin 160) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
/-- Slot s once window b landed in it whole. -/
abbrev landed (s : Fin 2) (b : Fin 160) (f : HbBuf (F := F) c (rslot s)) : HbBuf (F := F) c (rslot s) :=
  (rslot s).view.writes (Elt F) f [⟨Rect.whole S64x3x82x128, ReadAs.same.apply ((srcB b).view.read (Elt F) W)⟩]
abbrev flightP (s : Fin 2) (b : Fin 160) (f : HbBuf (F := F) c (rslot s)) : sProp 𝕄 :=
  Transfers.Flight countersEmb (c : Thread nD τ) (cellR s) default ((rslot s).view.amount (cellR s))
    iprop(slotP c s (landed c W s b f) ∗ srcP c W s b)
/-- A slot at rest carries its copy of the padded array whole; a transfer in flight, the rest of the copy it borrowed from. -/
abbrev slotW (s : Fin 2) (f : HbBuf (F := F) c (rslot s)) : sProp 𝕄 := iprop(slotP c s f ∗ wholeP c W s)
abbrev flightW (s : Fin 2) (b : Fin 160) (f : HbBuf (F := F) c (rslot s)) : sProp 𝕄 := iprop(flightP c W s b f ∗ restP c W s b)
/-- THE INVARIANT before point k: at the first depth of a batch element (k a multiple of 80, the end of the grid
    included) both slots are at rest; at any other depth the window of point k is in flight into slot k mod 2 and the
    other slot is at rest. -/
def ringAt (k : ℕ) : sProp 𝕄 :=
  if k % 80 = 0 then iprop(Ring.free (cellP c) (slotW c W) (Ring.sl 2 k) ∗ Ring.free (cellP c) (slotW c W) (Ring.sl 2 (k + 1)))
  else iprop(Ring.inflight (flightW c W) (Ring.sl 2 k) (Ring.bk 160 k) ∗ Ring.free (cellP c) (slotW c W) (Ring.sl 2 (k + 1)))
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end Families

/-! ### The slots are disjoint and make up the buffer -/

abbrev slotSet (s : Fin 2) : Finset S2x64x3x82x128.Idx := (Rect.unit (s := S2x64x3x82x128) ![s.val, 0, 0, 0, 0] S1x64x3x82x128.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x64x3x82x128) (0 : Fin 5) 1 (fun s : Fin 2 => (![s.val, 0, 0, 0, 0] : Fin 5 → Nat)) S1x64x3x82x128.size inb_slot (fun s => by simp) rfl s s' h
theorem slots_cover : Finset.univ.biUnion slotSet = Finset.univ :=
  Ring.lead_cover (s := S2x64x3x82x128) (0 : Fin 5) 1 (fun s : Fin 2 => (![s.val, 0, 0, 0, 0] : Fin 5 → Nat)) S1x64x3x82x128.size inb_slot (fun s => by simp)
    (fun s a ha => by fin_cases a <;> first | exact absurd rfl ha | rfl) rfl (fun a ha => by fin_cases a <;> first | exact absurd rfl ha | rfl) rfl

section InOut
variable (c : Dev nD) (W : HbBuf (F := F) c padM)
theorem slotP_eq (s : Fin 2) (f) : slotP (F := F) c s f = (((c : Thread nD τ).loc cc0_scratch0) ↦[slotSet s]{fullShare} f : sProp 𝕄) := by
  unfold slotP; rw [slotSet_eq]; rfl
/-- A slot's copy of the padded array, whole, is window b's elements and the rest, for any b. -/
theorem src_split (s : Fin 2) (b : Fin 160) : wholeP (F := F) c W s ⊣⊢ iprop(srcP c W s b ∗ restP c W s b) := by
  unfold restP; exact pointsTo_split_subset (Finset.subset_univ _)
/-- The padded array at the full share is the two copies. -/
theorem whole_split : (hbPt c padM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) ringM fullShare d) ⊢ (iprop((∃ f, slotP (F := F) c 0 f) ∗ ∃ f, slotP (F := F) c 1 f) : sProp 𝕄) := by
  simp only [ringM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) ringM fullShare d) := by
  simp only [ringM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Into the invariant: the launch's pieces are the invariant before point 0 (both slots at rest). -/
theorem ring_in (c : Dev nD) :
    iprop((∃ d, owns (c : Thread nD τ) ringM fullShare d) ∗ (semVal ((c : Thread nD τ), SemLoc.dma 4) 0 ∗ semVal ((c : Thread nD τ), SemLoc.dma 5) 0) ∗ hbPt c padM (V m c main_v0))
      ⊢ ringAt c (V m c main_v0) 0 := by
  unfold ringAt; rw [if_pos (by decide)]
  rw [show Ring.sl 2 0 = (0 : Fin 2) from rfl, show Ring.sl 2 (0 + 1) = (1 : Fin 2) from rfl]
  simp only [Ring.free, cellP_0, cellP_1]
  iintro ⟨HS, Hc, HW⟩
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- Out of it: after the last point (160, a multiple of 80) both slots are at rest again. -/
theorem ring_out (c : Dev nD) :
    ringAt c (V m c main_v0) 160
      ⊢ iprop((∃ d, owns (c : Thread nD τ) ringM fullShare d) ∗ (semVal ((c : Thread nD τ), SemLoc.dma 4) 0 ∗ semVal ((c : Thread nD τ), SemLoc.dma 5) 0) ∗ hbPt c padM (V m c main_v0)) := by
  unfold ringAt; rw [if_pos (by decide)]
  rw [show Ring.sl 2 160 = (0 : Fin 2) from rfl, show Ring.sl 2 (160 + 1) = (1 : Fin 2) from rfl]
  simp only [Ring.free, cellP_0, cellP_1]
  iintro ⟨⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ### What the body spells through its offset chains, under these names -/

section Names
omit [FloatOps F]
set_option synthInstance.maxSize 4096 in
theorem off_first_slot : ∀ t : Fin grid0.N, isFirst (grid0.coords t) → (![0, 0, 0, 0, 0] : Fin 5 → Nat) = ![(Ring.sl 2 t.val).val, 0, 0, 0, 0] := by decide +kernel
@[sl_canon] theorem name_first_slot (t : Fin grid0.N) (h0 : isFirst (grid0.coords t)) :
    (ringM.slice (Rect.unit (s := S2x64x3x82x128) ![0, 0, 0, 0, 0] S1x64x3x82x128.size inb_S2x64x3x82x128_S1x64x3x82x128_0_0_0_0_0) (fun _ => rfl)).squeeze S64x3x82x128 squeezes_S1x64x3x82x128_S64x3x82x128 = rslot (Ring.sl 2 t.val) :=
  congrArg (fun M : Memref sig .tc .vmem S1x64x3x82x128 .f32 => M.squeeze S64x3x82x128 squeezes_S1x64x3x82x128_S64x3x82x128) (Memref.slice_unit_congr _ (off_first_slot t h0) _ _ (fun _ => rfl) (fun _ => rfl))
set_option synthInstance.maxSize 4096 in
theorem off_first_cell : ∀ t : Fin grid0.N, isFirst (grid0.coords t) → (![0] : Fin 1 → Nat) = ![(Ring.sl 2 t.val).val] := by decide +kernel
@[sl_canon] theorem name_first_cell (t : Fin grid0.N) (h0 : isFirst (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_first_cell t h0) _ _)
set_option synthInstance.maxSize 4096 in
theorem off_first_src : ∀ t : Fin grid0.N, k0_off1 (grid0.coords t) = ![(Ring.bk 160 t.val).val / 80, 0, (Ring.bk 160 t.val).val % 80, 0, 0] := by decide +kernel
@[sl_canon] theorem name_first_src (t : Fin grid0.N) (h0 : isFirst (grid0.coords t)) :
    (padM.slice (Rect.unit (s := S2x64x82x82x128) (k0_off1 (grid0.coords t)) S1x64x3x82x128.size (k0_off1_inb (grid0.coords t) h0)) (fun _ => rfl)).squeeze S64x3x82x128 squeezes_S1x64x3x82x128_S64x3x82x128 = srcB (Ring.bk 160 t.val) :=
  congrArg (fun M : Memref sig .tc .hbm S1x64x3x82x128 .f32 => M.squeeze S64x3x82x128 squeezes_S1x64x3x82x128_S64x3x82x128) (Memref.slice_unit_congr _ (off_first_src t) _ _ (fun _ => rfl) (fun _ => rfl))
set_option synthInstance.maxSize 4096 in
theorem off_wait_cell : ∀ t : Fin grid0.N, k0_off2 (grid0.coords t) = ![(Ring.sl 2 t.val).val] := by decide +kernel
@[sl_canon] theorem name_wait_cell (t : Fin grid0.N) :
    (cc0_scratch1.slice (Rect.unit (s := S2) (k0_off2 (grid0.coords t)) S1.size (k0_off2_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
set_option synthInstance.maxSize 4096 in
theorem off_wait_slot : ∀ t : Fin grid0.N, k0_off3 (grid0.coords t) = ![(Ring.sl 2 t.val).val, 0, 0, 0, 0] := by decide +kernel
@[sl_canon] theorem name_wait_slot (t : Fin grid0.N) :
    (ringM.slice (Rect.unit (s := S2x64x3x82x128) (k0_off3 (grid0.coords t)) S1x64x3x82x128.size (k0_off3_inb (grid0.coords t))) (fun _ => rfl)).squeeze S64x3x82x128 squeezes_S1x64x3x82x128_S64x3x82x128 = rslot (Ring.sl 2 t.val) :=
  congrArg (fun M : Memref sig .tc .vmem S1x64x3x82x128 .f32 => M.squeeze S64x3x82x128 squeezes_S1x64x3x82x128_S64x3x82x128) (Memref.slice_unit_congr _ (off_wait_slot t) _ _ (fun _ => rfl) (fun _ => rfl))
set_option synthInstance.maxSize 4096 in
theorem off_wait_src : ∀ t : Fin grid0.N, k0_off4 (grid0.coords t) = ![(Ring.bk 160 t.val).val / 80, 0, (Ring.bk 160 t.val).val % 80, 0, 0] := by decide +kernel
@[sl_canon] theorem name_wait_src (t : Fin grid0.N) :
    (padM.slice (Rect.unit (s := S2x64x82x82x128) (k0_off4 (grid0.coords t)) S1x64x3x82x128.size (k0_off4_inb (grid0.coords t))) (fun _ => rfl)).squeeze S64x3x82x128 squeezes_S1x64x3x82x128_S64x3x82x128 = srcB (Ring.bk 160 t.val) :=
  congrArg (fun M : Memref sig .tc .hbm S1x64x3x82x128 .f32 => M.squeeze S64x3x82x128 squeezes_S1x64x3x82x128_S64x3x82x128) (Memref.slice_unit_congr _ (off_wait_src t) _ _ (fun _ => rfl) (fun _ => rfl))
set_option synthInstance.maxSize 4096 in
theorem off_next_cell : ∀ t : Fin grid0.N, k0_off5 (grid0.coords t) = ![(Ring.sl 2 (t.val + 1)).val] := by decide +kernel
@[sl_canon] theorem name_next_cell (t : Fin grid0.N) (h1 : hasNext (grid0.coords t)) :
    (cc0_scratch1.slice (Rect.unit (s := S2) (k0_off5 (grid0.coords t)) S1.size (k0_off5_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t) _ _)
set_option synthInstance.maxSize 4096 in
theorem off_next_slot : ∀ t : Fin grid0.N, k0_off6 (grid0.coords t) = ![(Ring.sl 2 (t.val + 1)).val, 0, 0, 0, 0] := by decide +kernel
@[sl_canon] theorem name_next_slot (t : Fin grid0.N) (h1 : hasNext (grid0.coords t)) :
    (ringM.slice (Rect.unit (s := S2x64x3x82x128) (k0_off6 (grid0.coords t)) S1x64x3x82x128.size (k0_off6_inb (grid0.coords t) h1)) (fun _ => rfl)).squeeze S64x3x82x128 squeezes_S1x64x3x82x128_S64x3x82x128 = rslot (Ring.sl 2 (t.val + 1)) :=
  congrArg (fun M : Memref sig .tc .vmem S1x64x3x82x128 .f32 => M.squeeze S64x3x82x128 squeezes_S1x64x3x82x128_S64x3x82x128) (Memref.slice_unit_congr _ (off_next_slot t) _ _ (fun _ => rfl) (fun _ => rfl))
set_option synthInstance.maxSize 4096 in
theorem off_next_src : ∀ t : Fin grid0.N, hasNext (grid0.coords t) → k0_off7 (grid0.coords t) = ![(Ring.bk 160 (t.val + 1)).val / 80, 0, (Ring.bk 160 (t.val + 1)).val % 80, 0, 0] := by decide +kernel
@[sl_canon] theorem name_next_src (t : Fin grid0.N) (h1 : hasNext (grid0.coords t)) :
    (padM.slice (Rect.unit (s := S2x64x82x82x128) (k0_off7 (grid0.coords t)) S1x64x3x82x128.size (k0_off7_inb (grid0.coords t) h1)) (fun _ => rfl)).squeeze S64x3x82x128 squeezes_S1x64x3x82x128_S64x3x82x128 = srcB (Ring.bk 160 (t.val + 1)) :=
  congrArg (fun M : Memref sig .tc .hbm S1x64x3x82x128 .f32 => M.squeeze S64x3x82x128 squeezes_S1x64x3x82x128_S64x3x82x128) (Memref.slice_unit_congr _ (off_next_src t h1) _ _ (fun _ => rfl) (fun _ => rfl))
set_option synthInstance.maxSize 4096 in
theorem off_load : ∀ t : Fin grid0.N, k0_off8 (grid0.coords t) = ![(Ring.sl 2 t.val).val, 0, 0, 0, 0] := by decide +kernel
/-- The body's load of the buffer is at the slot it just waited for. -/
instance (priority := high) closedOff_load (t : Fin grid0.N) : ClosedOff (k0_off8 (grid0.coords t)) := ⟨![(Ring.sl 2 t.val).val, 0, 0, 0, 0], off_load t⟩
end Names

end Cert.Kernel.Corr

end
-- ==== Proof.BitsRunA.lean ====
/-
  The body at a point of FIRST depth (both branches taken): both slots are at rest; the body starts this depth's
  window into slot (point mod 2), waits for it, starts the next depth's window into the other slot, and
  computes from the landed slot. The 27 stores it leaves in the output block are found by running it.
-/
import proofs.«155575_j81647328297400_2_alg».proof.Proof.BitsRing

set_option maxRecDepth 16384

noncomputable section

namespace Cert.Kernel.Corr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything and both slots at rest it runs to the continuation holding the block as it was, the output
    buffer with those pieces written, the next window in flight and this depth's window kept in its slot. -/
noncomputable def runFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.free (cellP c) (slotW c fh0) (Ring.sl 2 t.val) ∗ Ring.free (cellP c) (slotW c fh0) (Ring.sl 2 (t.val + 1)) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.inflight (flightW c fh0) (Ring.sl 2 (t.val + 1)) (Ring.bk 160 (t.val + 1)) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (isFirst (grid0.coords t)) := ⟨hc0⟩
    haveI : Fact (hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hcanon0 := name_first_slot t hc0
    have hcanon1 := name_first_cell t hc0
    have hcanon2 := name_first_src t hc0
    unfold owns Ring.free Ring.inflight Ring.kept
    iintro ⟨⟨%f0, %hf0, H0⟩, ⟨%d1, %f1, -, H1⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src_split c fh0 (Ring.sl 2 t.val) (Ring.bk 160 t.val)).1 $$ Hw0_0_0
    icases Hsp0_0_0 with ⟨Hh0_0_0, Hr0_0_0⟩
    ihave Hsp0_0_1 := (src_split c fh0 (Ring.sl 2 (t.val + 1)) (Ring.bk 160 (t.val + 1))).1 $$ Hw0_0_1
    icases Hsp0_0_1 with ⟨Hh0_0_1, Hr0_0_1⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src_split c fh0 (Ring.sl 2 t.val) (Ring.bk 160 t.val)).2; isplitl [Hh0_0_0]; · iexact Hh0_0_0
      iexact Hr0_0_0
    iexists _; iexact HW

end Cert.Kernel.Corr

end
-- ==== Proof.BitsRunB.lean ====
/-
  The body at a point of INNER depth (first branch not taken, second taken): this depth's window is in flight
  into slot (point mod 2), started by the point before, and the other slot is at rest; the body waits for the
  window, starts the next depth's into the other slot, and computes from the landed slot.
-/
import proofs.«155575_j81647328297400_2_alg».proof.Proof.BitsRunA

set_option maxRecDepth 16384

noncomputable section

namespace Cert.Kernel.Corr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything, this depth's window in flight and the other slot at rest it runs to the continuation
    holding the block as it was, the output buffer with those pieces written, the next window in flight and this
    depth's window kept in its slot. -/
noncomputable def runInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.inflight (flightW c fh0) (Ring.sl 2 t.val) (Ring.bk 160 t.val) ∗ Ring.free (cellP c) (slotW c fh0) (Ring.sl 2 (t.val + 1)) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.inflight (flightW c fh0) (Ring.sl 2 (t.val + 1)) (Ring.bk 160 (t.val + 1)) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (¬isFirst (grid0.coords t)) := ⟨hc0⟩
    haveI : Fact (hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight Ring.kept
    iintro ⟨⟨%f0, %hf0, H0⟩, ⟨%d1, %f1, -, H1⟩, ⟨%ff0_0, Hf0_0, Hrf0_0⟩, ⟨Hc0_0_1, ⟨%fs0_0_1, Hs0_0_1, Hw0_0_1⟩⟩, HW, Hk⟩
    ihave Hsp0_0_1 := (src_split c fh0 (Ring.sl 2 (t.val + 1)) (Ring.bk 160 (t.val + 1))).1 $$ Hw0_0_1
    icases Hsp0_0_1 with ⟨Hh0_0_1, Hr0_0_1⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 160 t.val)).2; isplitl [Hf0_0_src]; · iexact Hf0_0_src
      iexact Hrf0_0
    iexists _; iexact HW

end Cert.Kernel.Corr

end
-- ==== Proof.BitsRunC.lean ====
/-
  The body at a point of LAST depth (neither branch taken): this depth's window is in flight into slot
  (point mod 2); the body waits for it, starts nothing, and computes from the landed slot. The other slot is not
  touched.
-/
import proofs.«155575_j81647328297400_2_alg».proof.Proof.BitsRunB

set_option maxRecDepth 16384

noncomputable section

namespace Cert.Kernel.Corr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything and this depth's window in flight it runs to the continuation holding the block as it was,
    the output buffer with those pieces written and this depth's window kept in its slot. -/
noncomputable def runLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.inflight (flightW c fh0) (Ring.sl 2 t.val) (Ring.bk 160 t.val) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (¬isFirst (grid0.coords t)) := ⟨hc0⟩
    haveI : Fact (¬hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff0_0, Hf0_0, Hrf0_0⟩, HW, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 160 t.val)).2; isplitl [Hf0_0_src]; · iexact Hf0_0_src
      iexact Hrf0_0
    iexists _; iexact HW

end Cert.Kernel.Corr

end
-- ==== Proof.BitsFrame.lean ====
/-
  The frame of the kernel, assembled: what the output block holds after each point (the case's 27 stores read
  back), the region invariant (the generator register beside the two slots' state before the point), the body
  at any point by cases on the depth (first, inner, last), the launch's hand-over in both directions, the run
  and the frame claim. The invariant passes a transfer from the point that starts it to the point that waits
  for it; at the last depth of a batch element nothing is started, so the next batch element finds both slots
  at rest, as the first one did.
-/
import proofs.«155575_j81647328297400_2_alg».proof.Proof.BitsRunC

set_option maxRecDepth 16384

noncomputable section

namespace Cert.Kernel.Corr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The 27 stores of a first-depth point tile the output block. -/
theorem coverFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) (y : S1x27x1x80x80.Idx) :
    ∃ pc ∈ (runFirst c t arg2 harg2 arg4 harg4 hc0 hc1 x0 fh0).1, y ∈ pc.1.set :=
  View.cover_of_tiledL (runFirst c t arg2 harg2 arg4 harg4 hc0 hc1 x0 fh0).1 S1x1x1x80x80.size (by sl_kernel_rfl) y
/-- What a first-depth point leaves in the output block. -/
def outFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) : Vec F S1x27x1x80x80 .f32 :=
  VOut.read (Elt F) (VOut.writes (Elt F) VOut.junk (runFirst c t arg2 harg2 arg4 harg4 hc0 hc1 x0 fh0).1)

theorem coverInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) (y : S1x27x1x80x80.Idx) :
    ∃ pc ∈ (runInner c t arg2 harg2 arg4 harg4 hc0 hc1 x0 fh0).1, y ∈ pc.1.set :=
  View.cover_of_tiledL (runInner c t arg2 harg2 arg4 harg4 hc0 hc1 x0 fh0).1 S1x1x1x80x80.size (by sl_kernel_rfl) y
def outInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) : Vec F S1x27x1x80x80 .f32 :=
  VOut.read (Elt F) (VOut.writes (Elt F) VOut.junk (runInner c t arg2 harg2 arg4 harg4 hc0 hc1 x0 fh0).1)

theorem coverLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) (y : S1x27x1x80x80.Idx) :
    ∃ pc ∈ (runLast c t arg2 harg2 arg4 harg4 hc0 hc1 x0 fh0).1, y ∈ pc.1.set :=
  View.cover_of_tiledL (runLast c t arg2 harg2 arg4 harg4 hc0 hc1 x0 fh0).1 S1x1x1x80x80.size (by sl_kernel_rfl) y
def outLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) : Vec F S1x27x1x80x80 .f32 :=
  VOut.read (Elt F) (VOut.writes (Elt F) VOut.junk (runLast c t arg2 harg2 arg4 harg4 hc0 hc1 x0 fh0).1)

/-! ## What the output block holds after each point -/

/-- The case the depth selects, run at the point's memrefs, the first operand's block and the padded array. -/
def outsAt (c : Dev nD) (n : ℕ) (hn : n < cfg0.N) : Vec F S1x27x1x80x80 .f32 :=
  if h0 : n % 80 = 0 then
    outFirst c ⟨n, hn⟩ (xMem ⟨n, hn⟩) (xWhole ⟨n, hn⟩) (oMem ⟨n, hn⟩) (oWhole ⟨n, hn⟩) ((isFirst_iff ⟨n, hn⟩).mpr h0) ((hasNext_iff ⟨n, hn⟩).mpr (by show n % 80 < 79; omega)) (iblk m c 0 ⟨n, hn⟩) (V m c main_v0)
  else if h1 : n % 80 < 79 then
    outInner c ⟨n, hn⟩ (xMem ⟨n, hn⟩) (xWhole ⟨n, hn⟩) (oMem ⟨n, hn⟩) (oWhole ⟨n, hn⟩) (fun h => h0 ((isFirst_iff ⟨n, hn⟩).mp h)) ((hasNext_iff ⟨n, hn⟩).mpr h1) (iblk m c 0 ⟨n, hn⟩) (V m c main_v0)
  else
    outLast c ⟨n, hn⟩ (xMem ⟨n, hn⟩) (xWhole ⟨n, hn⟩) (oMem ⟨n, hn⟩) (oWhole ⟨n, hn⟩) (fun h => h0 ((isFirst_iff ⟨n, hn⟩).mp h)) (fun h => h1 ((hasNext_iff ⟨n, hn⟩).mp h)) (iblk m c 0 ⟨n, hn⟩) (V m c main_v0)

theorem outsAt_first (c : Dev nD) (t : Fin cfg0.N) (h0 : t.val % 80 = 0) (h1 : t.val % 80 < 79) :
    outsAt m c t.val t.isLt = outFirst c t (xMem t) (xWhole t) (oMem t) (oWhole t) ((isFirst_iff t).mpr h0) ((hasNext_iff t).mpr h1) (iblk m c 0 t) (V m c main_v0) := by
  unfold outsAt; exact dif_pos h0
theorem outsAt_inner (c : Dev nD) (t : Fin cfg0.N) (h0 : ¬t.val % 80 = 0) (h1 : t.val % 80 < 79) :
    outsAt m c t.val t.isLt = outInner c t (xMem t) (xWhole t) (oMem t) (oWhole t) (fun h => h0 ((isFirst_iff t).mp h)) ((hasNext_iff t).mpr h1) (iblk m c 0 t) (V m c main_v0) := by
  unfold outsAt; exact (dif_neg h0).trans (dif_pos h1)
theorem outsAt_last (c : Dev nD) (t : Fin cfg0.N) (h0 : ¬t.val % 80 = 0) (h1 : ¬t.val % 80 < 79) :
    outsAt m c t.val t.isLt = outLast c t (xMem t) (xWhole t) (oMem t) (oWhole t) (fun h => h0 ((isFirst_iff t).mp h)) (fun h => h1 ((hasNext_iff t).mp h)) (iblk m c 0 t) (V m c main_v0) := by
  unfold outsAt; exact (dif_neg h0).trans (dif_neg h1)

/-! ## The proof data -/

/-- The region invariant before point k. -/
def PhiR (c : Dev nD) (k : ℕ) : sProp 𝕄 := iprop((∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t.val t.isLt)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_x (c : Dev nD) (t : Fin cfg0.N) : (dats m 0 c).after 0 t = iblk m c 0 t := by dsimp only [dats]
theorem after_o (c : Dev nD) (t : Fin cfg0.N) : (dats m 0 c).after 1 t = (outsAt m c t.val t.isLt) := by dsimp only [dats]
theorem xBefore (c : Dev nD) (t : Fin cfg0.N) (d) : (dats m 0 c).before 0 t d = iblk m c 0 t :=
  xBefore_of m (dats m 0 c) (A_eq m c 0) (after_x m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (oMem t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (xMem t) fullShare ((dats m 0 c).after 0 t)
    ∗ owns (c : Thread nD τ) (oMem t) fullShare ((dats m 0 c).after 1 t))

set_option maxHeartbeats 1200000 in
/-- The body at any point, by the depth: the invariant before the point is the pieces that case's run takes, and what
    the run hands back is the invariant before the next point — a window kept in its slot after its wait is a slot at
    rest once what it holds is forgotten, and slot (k + 2) mod 2 is slot k mod 2. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [xBefore]
  rw [after_x, after_o]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hN : t.val < 160 := lt_of_lt_of_eq t.isLt (show cfg0.N = 160 from N_0)
  have hsl : Ring.sl 2 (t.val + 1 + 1) = Ring.sl 2 t.val := Ring.sl_add 2 t.val
  by_cases h0 : t.val % 80 = 0
  · have h1 : t.val % 80 < 79 := by omega
    rw [outsAt_first m c t h0 h1]
    unfold outFirst
    rw [if_pos h0, if_neg (show ¬(t.val + 1) % 80 = 0 by omega), hsl]
    iintro ⟨⟨Hg, ⟨Hfr0, Hfr1⟩⟩, ⟨%W, -, HW⟩, ⟨%d0, H0⟩, ⟨%d1, H1⟩⟩
    iapply ((runFirst c t _ _ _ _ ((isFirst_iff t).mpr h0) ((hasNext_iff t).mpr h1) (iblk m c 0 t) (V m c main_v0)).2 W _)
    isplitl [H0]; · iexact H0
    isplitl [H1]; · iexists _; iexact H1
    isplitl [Hfr0]; · iexact Hfr0
    isplitl [Hfr1]; · iexact Hfr1
    isplitl [HW]; · iexact HW
    iintro ⟨H0, ⟨%e1, H1⟩, Hfl', Hkp', ⟨%W', HW'⟩⟩
    isplitl [Hg Hfl' Hkp']
    · isplitl [Hg]; · iexact Hg
      isplitl [Hfl']; · iexact Hfl'
      iapply (Ring.free_of_kept (cellP c) (slotW c (V m c main_v0)) (landed c (V m c main_v0)) (Ring.sl 2 t.val) (Ring.bk 160 t.val)); iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (coverFirst c _ _ _ _ _ _ _ _ _)
  · by_cases h1 : t.val % 80 < 79
    · rw [outsAt_inner m c t h0 h1]
      unfold outInner
      rw [if_neg h0, if_neg (show ¬(t.val + 1) % 80 = 0 by omega), hsl]
      iintro ⟨⟨Hg, ⟨Hfl, Hfr1⟩⟩, ⟨%W, -, HW⟩, ⟨%d0, H0⟩, ⟨%d1, H1⟩⟩
      iapply ((runInner c t _ _ _ _ (fun h => h0 ((isFirst_iff t).mp h)) ((hasNext_iff t).mpr h1) (iblk m c 0 t) (V m c main_v0)).2 W _)
      isplitl [H0]; · iexact H0
      isplitl [H1]; · iexists _; iexact H1
      isplitl [Hfl]; · iexact Hfl
      isplitl [Hfr1]; · iexact Hfr1
      isplitl [HW]; · iexact HW
      iintro ⟨H0, ⟨%e1, H1⟩, Hfl', Hkp', ⟨%W', HW'⟩⟩
      isplitl [Hg Hfl' Hkp']
      · isplitl [Hg]; · iexact Hg
        isplitl [Hfl']; · iexact Hfl'
        iapply (Ring.free_of_kept (cellP c) (slotW c (V m c main_v0)) (landed c (V m c main_v0)) (Ring.sl 2 t.val) (Ring.bk 160 t.val)); iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverInner c _ _ _ _ _ _ _ _ _)
    · rw [outsAt_last m c t h0 h1]
      unfold outLast
      rw [if_neg h0, if_pos (show (t.val + 1) % 80 = 0 by omega), hsl]
      iintro ⟨⟨Hg, ⟨Hfl, Hfr1⟩⟩, ⟨%W, -, HW⟩, ⟨%d0, H0⟩, ⟨%d1, H1⟩⟩
      iapply ((runLast c t _ _ _ _ (fun h => h0 ((isFirst_iff t).mp h)) (fun h => h1 ((hasNext_iff t).mp h)) (iblk m c 0 t) (V m c main_v0)).2 W _)
      isplitl [H0]; · iexact H0
      isplitl [H1]; · iexists _; iexact H1
      isplitl [Hfl]; · iexact Hfl
      isplitl [HW]; · iexact HW
      iintro ⟨H0, ⟨%e1, H1⟩, Hkp', ⟨%W', HW'⟩⟩
      isplitl [Hg Hfr1 Hkp']
      · isplitl [Hg]; · iexact Hg
        isplitl [Hfr1]; · iexact Hfr1
        iapply (Ring.free_of_kept (cellP c) (slotW c (V m c main_v0)) (landed c (V m c main_v0)) (Ring.sl 2 t.val) (Ring.bk 160 t.val)); iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverLast c _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem spec0 H0 (V m) c ⊢ (dats m 0 c).Φ 0 := by
  rw [PhiD_eq, show (dats m 0 c).Φ 0 = PhiR m c 0 from rfl]
  unfold PhiR
  iintro ⟨HR, Hg, ⟨Hq0, Hq1⟩, Hh⟩
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 160 by rw [N_0]]
  iintro ⟨Hg, HR⟩
  ihave HX := (ring_out (F := F) m c) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The run and the frame -/

set_option backward.isDefEq.respectTransparency.types false in
/-- Every weakly fair execution of the program terminates, nothing faulting, every array of the region at what the
    library computes from the proof data and every other buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.Kernel.Corr

end
-- ==== Proof.IdealRing.lean ====
/-
  The kernel streams the padded second operand through a two-slot buffer by its own transfers: at the
  first depth of a batch element it starts the copy of its own three-plane window into slot 0; at every
  depth it waits for the window of that depth (slot depth mod 2) and, unless the depth is the last,
  starts the next depth's window into the other slot. A transfer started at one grid point is therefore
  waited for at the next one, and the region invariant has to carry it across.

  This module states what the three kinds of point (first depth, inner depth, last depth) share: the
  launch facts restated for a region whose body owns transfers, the two branch conditions in closed
  form over the 160 points, the slots, cells and source windows under one name each, the invariant
  before a point, how the launch hands the buffer, the cells and the padded array to the invariant and
  takes them back, and the equations that rename what the body spells through its offset chains.
-/
import proofs.«155575_j81647328297400_2_alg».proof.Proof.Gen.KernelIdeal.Frame
import proofs.«155575_j81647328297400_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Corr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region, for a body that owns transfers -/

/-- The host lines before the region (the zero constant, its conversion, the padding) then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The first operand's staging buffer holds its block at every point, fetched there or not. -/
theorem xBefore_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run to the library's frame post, read at the two arguments, is the frame claim's post. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The two branch conditions over the grid -/

/-- The first branch: the depth coordinate is zero. -/
abbrev isFirst (i : grid0.Coords) : Prop := k0_cond1 i = 1#1
/-- Over the 160 points (point = 80 · batch + depth) it holds where the depth is zero. -/
theorem isFirst_iff : ∀ t : Fin cfg0.N, isFirst (grid0.coords t) ↔ t.val % 80 = 0 :=
  (by decide +kernel : ∀ t : Fin grid0.N, isFirst (grid0.coords t) ↔ t.val % 80 = 0)

/-- The second branch: a next depth exists. -/
abbrev hasNext (i : grid0.Coords) : Prop := k0_cond2 i = 1#1
/-- It holds at every depth but the last, 79. -/
theorem hasNext_iff : ∀ t : Fin cfg0.N, hasNext (grid0.coords t) ↔ t.val % 80 < 79 :=
  (by decide +kernel : ∀ t : Fin grid0.N, hasNext (grid0.coords t) ↔ t.val % 80 < 79)

/-! ## The memrefs the body is called with -/

abbrev VOut : View sig .tc .vmem S1x27x1x80x80 .f32 := (Memref.whole cc0_stg1_0 : Memref sig .tc .vmem S1x27x1x80x80 .f32).view
abbrev xMem (t : Fin cfg0.N) : Memref sig .tc .vmem S1x64x1x80x80 .f32 := win0_0.stage (cfg0.slots t 0)
abbrev xWhole (t : Fin cfg0.N) : (xMem t).IsWhole := hstage0_0 ((cfg0.slots t 0).cast nbuf0_0)
abbrev oMem (t : Fin cfg0.N) : Memref sig .tc .vmem S1x27x1x80x80 .f32 := win0_1.stage (cfg0.slots t 1)
abbrev oWhole (t : Fin cfg0.N) : (oMem t).IsWhole := hstage0_1 ((cfg0.slots t 1).cast nbuf0_1)
/-- The two-slot buffer, and the padded operand left where the host put it. -/
abbrev ringM : Memref sig .tc .vmem S2x64x3x82x128 .f32 := Memref.whole cc0_scratch0
abbrev padM : Memref sig .tc .hbm S2x64x82x82x128 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own two transfer semaphores. -/
abbrev osem : Fin 2 → SemLoc sig := fun j => (![SemLoc.dma 4, SemLoc.dma 5] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
/-- The array the body's transfers read: the padded operand, no window's array. -/
def H0 : Finset (Ref sig .tc) := {main_v0}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c padM (V m c main_v0)) := by
  rw [BI.bigSep_eq_bigSepL_of_eq [main_v0] (by decide) (by decide)]; rfl

/-- What the launch hands such a body and takes back: the buffer at anything, the generator register, the
    two cells at zero, the padded array at its contents. -/
theorem PhiD_eq (c : Dev nD) :
    (Pipeline.ΦD osem spec0 H0 (V m) c : sProp 𝕄)
      = iprop(iprop((∃ d, owns (c : Thread nD τ) ringM fullShare d)) ∗ (∃ r, prngReg c r) ∗ iprop(semVal ((c : Thread nD τ), SemLoc.dma 4) 0 ∗ semVal ((c : Thread nD τ), SemLoc.dma 5) 0) ∗ iprop(hbPt c padM (V m c main_v0))) := by
  rw [Pipeline.ΦD_eq, scopedRest0_eq, ownSems_eq, hbmPts_eq]; simp only [ringM, owns_whole]; try rfl

/-! ## Slots, cells and source windows by name -/

theorem inb_slot (s : Fin 2) : ∀ a, (![s.val, 0, 0, 0, 0] : Fin 5 → Nat) a + S1x64x3x82x128.size a ≤ S2x64x3x82x128.size a := by
  have := s.isLt; intro a; fin_cases a <;> simp <;> omega
theorem inb_src (b : Fin 160) : ∀ a, (![b.val / 80, 0, b.val % 80, 0, 0] : Fin 5 → Nat) a + S1x64x3x82x128.size a ≤ S2x64x82x82x128.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot s of the buffer: all channels, three planes, the padded rows and columns. -/
def rslot (s : Fin 2) : Memref sig .tc .vmem S64x3x82x128 .f32 :=
  (ringM.slice (Rect.unit (s := S2x64x3x82x128) ![s.val, 0, 0, 0, 0] S1x64x3x82x128.size (inb_slot s)) (fun _ => rfl)).squeeze S64x3x82x128 squeezes_S1x64x3x82x128_S64x3x82x128
/-- The window point b waits for: batch b / 80, all channels, padded planes b % 80 … b % 80 + 2. -/
def srcB (b : Fin 160) : Memref sig .tc .hbm S64x3x82x128 .f32 :=
  (padM.slice (Rect.unit (s := S2x64x82x82x128) ![b.val / 80, 0, b.val % 80, 0, 0] S1x64x3x82x128.size (inb_src b)) (fun _ => rfl)).squeeze S64x3x82x128 squeezes_S1x64x3x82x128_S64x3x82x128
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section Families
variable (c : Dev nD) (W : HbBuf (F := F) c padM)
/-- The padded array is lent by share, one read share per slot: consecutive windows overlap in two planes, and
    each transfer borrows from its own slot's copy. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 160) : sProp 𝕄 := (srcB b).view.loc (c : Thread nD τ) ↦[(srcB b).view.set]{qs s} W
def restP (s : Fin 2) (b : Fin 160) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
/-- Slot s once window b landed in it whole. -/
abbrev landed (s : Fin 2) (b : Fin 160) (f : HbBuf (F := F) c (rslot s)) : HbBuf (F := F) c (rslot s) :=
  (rslot s).view.writes (Elt F) f [⟨Rect.whole S64x3x82x128, ReadAs.same.apply ((srcB b).view.read (Elt F) W)⟩]
abbrev flightP (s : Fin 2) (b : Fin 160) (f : HbBuf (F := F) c (rslot s)) : sProp 𝕄 :=
  Transfers.Flight countersEmb (c : Thread nD τ) (cellR s) default ((rslot s).view.amount (cellR s))
    iprop(slotP c s (landed c W s b f) ∗ srcP c W s b)
/-- A slot at rest carries its copy of the padded array whole; a transfer in flight, the rest of the copy it borrowed from. -/
abbrev slotW (s : Fin 2) (f : HbBuf (F := F) c (rslot s)) : sProp 𝕄 := iprop(slotP c s f ∗ wholeP c W s)
abbrev flightW (s : Fin 2) (b : Fin 160) (f : HbBuf (F := F) c (rslot s)) : sProp 𝕄 := iprop(flightP c W s b f ∗ restP c W s b)
/-- THE INVARIANT before point k: at the first depth of a batch element (k a multiple of 80, the end of the grid
    included) both slots are at rest; at any other depth the window of point k is in flight into slot k mod 2 and the
    other slot is at rest. -/
def ringAt (k : ℕ) : sProp 𝕄 :=
  if k % 80 = 0 then iprop(Ring.free (cellP c) (slotW c W) (Ring.sl 2 k) ∗ Ring.free (cellP c) (slotW c W) (Ring.sl 2 (k + 1)))
  else iprop(Ring.inflight (flightW c W) (Ring.sl 2 k) (Ring.bk 160 k) ∗ Ring.free (cellP c) (slotW c W) (Ring.sl 2 (k + 1)))
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end Families

/-! ### The slots are disjoint and make up the buffer -/

abbrev slotSet (s : Fin 2) : Finset S2x64x3x82x128.Idx := (Rect.unit (s := S2x64x3x82x128) ![s.val, 0, 0, 0, 0] S1x64x3x82x128.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x64x3x82x128) (0 : Fin 5) 1 (fun s : Fin 2 => (![s.val, 0, 0, 0, 0] : Fin 5 → Nat)) S1x64x3x82x128.size inb_slot (fun s => by simp) rfl s s' h
theorem slots_cover : Finset.univ.biUnion slotSet = Finset.univ :=
  Ring.lead_cover (s := S2x64x3x82x128) (0 : Fin 5) 1 (fun s : Fin 2 => (![s.val, 0, 0, 0, 0] : Fin 5 → Nat)) S1x64x3x82x128.size inb_slot (fun s => by simp)
    (fun s a ha => by fin_cases a <;> first | exact absurd rfl ha | rfl) rfl (fun a ha => by fin_cases a <;> first | exact absurd rfl ha | rfl) rfl

section InOut
variable (c : Dev nD) (W : HbBuf (F := F) c padM)
theorem slotP_eq (s : Fin 2) (f) : slotP (F := F) c s f = (((c : Thread nD τ).loc cc0_scratch0) ↦[slotSet s]{fullShare} f : sProp 𝕄) := by
  unfold slotP; rw [slotSet_eq]; rfl
/-- A slot's copy of the padded array, whole, is window b's elements and the rest, for any b. -/
theorem src_split (s : Fin 2) (b : Fin 160) : wholeP (F := F) c W s ⊣⊢ iprop(srcP c W s b ∗ restP c W s b) := by
  unfold restP; exact pointsTo_split_subset (Finset.subset_univ _)
/-- The padded array at the full share is the two copies. -/
theorem whole_split : (hbPt c padM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) ringM fullShare d) ⊢ (iprop((∃ f, slotP (F := F) c 0 f) ∗ ∃ f, slotP (F := F) c 1 f) : sProp 𝕄) := by
  simp only [ringM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) ringM fullShare d) := by
  simp only [ringM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Into the invariant: the launch's pieces are the invariant before point 0 (both slots at rest). -/
theorem ring_in (c : Dev nD) :
    iprop((∃ d, owns (c : Thread nD τ) ringM fullShare d) ∗ (semVal ((c : Thread nD τ), SemLoc.dma 4) 0 ∗ semVal ((c : Thread nD τ), SemLoc.dma 5) 0) ∗ hbPt c padM (V m c main_v0))
      ⊢ ringAt c (V m c main_v0) 0 := by
  unfold ringAt; rw [if_pos (by decide)]
  rw [show Ring.sl 2 0 = (0 : Fin 2) from rfl, show Ring.sl 2 (0 + 1) = (1 : Fin 2) from rfl]
  simp only [Ring.free, cellP_0, cellP_1]
  iintro ⟨HS, Hc, HW⟩
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- Out of it: after the last point (160, a multiple of 80) both slots are at rest again. -/
theorem ring_out (c : Dev nD) :
    ringAt c (V m c main_v0) 160
      ⊢ iprop((∃ d, owns (c : Thread nD τ) ringM fullShare d) ∗ (semVal ((c : Thread nD τ), SemLoc.dma 4) 0 ∗ semVal ((c : Thread nD τ), SemLoc.dma 5) 0) ∗ hbPt c padM (V m c main_v0)) := by
  unfold ringAt; rw [if_pos (by decide)]
  rw [show Ring.sl 2 160 = (0 : Fin 2) from rfl, show Ring.sl 2 (160 + 1) = (1 : Fin 2) from rfl]
  simp only [Ring.free, cellP_0, cellP_1]
  iintro ⟨⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ### What the body spells through its offset chains, under these names -/

section Names
omit [FloatOps F]
set_option synthInstance.maxSize 4096 in
theorem off_first_slot : ∀ t : Fin grid0.N, isFirst (grid0.coords t) → (![0, 0, 0, 0, 0] : Fin 5 → Nat) = ![(Ring.sl 2 t.val).val, 0, 0, 0, 0] := by decide +kernel
@[sl_canon] theorem name_first_slot (t : Fin grid0.N) (h0 : isFirst (grid0.coords t)) :
    (ringM.slice (Rect.unit (s := S2x64x3x82x128) ![0, 0, 0, 0, 0] S1x64x3x82x128.size inb_S2x64x3x82x128_S1x64x3x82x128_0_0_0_0_0) (fun _ => rfl)).squeeze S64x3x82x128 squeezes_S1x64x3x82x128_S64x3x82x128 = rslot (Ring.sl 2 t.val) :=
  congrArg (fun M : Memref sig .tc .vmem S1x64x3x82x128 .f32 => M.squeeze S64x3x82x128 squeezes_S1x64x3x82x128_S64x3x82x128) (Memref.slice_unit_congr _ (off_first_slot t h0) _ _ (fun _ => rfl) (fun _ => rfl))
set_option synthInstance.maxSize 4096 in
theorem off_first_cell : ∀ t : Fin grid0.N, isFirst (grid0.coords t) → (![0] : Fin 1 → Nat) = ![(Ring.sl 2 t.val).val] := by decide +kernel
@[sl_canon] theorem name_first_cell (t : Fin grid0.N) (h0 : isFirst (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_first_cell t h0) _ _)
set_option synthInstance.maxSize 4096 in
theorem off_first_src : ∀ t : Fin grid0.N, k0_off1 (grid0.coords t) = ![(Ring.bk 160 t.val).val / 80, 0, (Ring.bk 160 t.val).val % 80, 0, 0] := by decide +kernel
@[sl_canon] theorem name_first_src (t : Fin grid0.N) (h0 : isFirst (grid0.coords t)) :
    (padM.slice (Rect.unit (s := S2x64x82x82x128) (k0_off1 (grid0.coords t)) S1x64x3x82x128.size (k0_off1_inb (grid0.coords t) h0)) (fun _ => rfl)).squeeze S64x3x82x128 squeezes_S1x64x3x82x128_S64x3x82x128 = srcB (Ring.bk 160 t.val) :=
  congrArg (fun M : Memref sig .tc .hbm S1x64x3x82x128 .f32 => M.squeeze S64x3x82x128 squeezes_S1x64x3x82x128_S64x3x82x128) (Memref.slice_unit_congr _ (off_first_src t) _ _ (fun _ => rfl) (fun _ => rfl))
set_option synthInstance.maxSize 4096 in
theorem off_wait_cell : ∀ t : Fin grid0.N, k0_off2 (grid0.coords t) = ![(Ring.sl 2 t.val).val] := by decide +kernel
@[sl_canon] theorem name_wait_cell (t : Fin grid0.N) :
    (cc0_scratch1.slice (Rect.unit (s := S2) (k0_off2 (grid0.coords t)) S1.size (k0_off2_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
set_option synthInstance.maxSize 4096 in
theorem off_wait_slot : ∀ t : Fin grid0.N, k0_off3 (grid0.coords t) = ![(Ring.sl 2 t.val).val, 0, 0, 0, 0] := by decide +kernel
@[sl_canon] theorem name_wait_slot (t : Fin grid0.N) :
    (ringM.slice (Rect.unit (s := S2x64x3x82x128) (k0_off3 (grid0.coords t)) S1x64x3x82x128.size (k0_off3_inb (grid0.coords t))) (fun _ => rfl)).squeeze S64x3x82x128 squeezes_S1x64x3x82x128_S64x3x82x128 = rslot (Ring.sl 2 t.val) :=
  congrArg (fun M : Memref sig .tc .vmem S1x64x3x82x128 .f32 => M.squeeze S64x3x82x128 squeezes_S1x64x3x82x128_S64x3x82x128) (Memref.slice_unit_congr _ (off_wait_slot t) _ _ (fun _ => rfl) (fun _ => rfl))
set_option synthInstance.maxSize 4096 in
theorem off_wait_src : ∀ t : Fin grid0.N, k0_off4 (grid0.coords t) = ![(Ring.bk 160 t.val).val / 80, 0, (Ring.bk 160 t.val).val % 80, 0, 0] := by decide +kernel
@[sl_canon] theorem name_wait_src (t : Fin grid0.N) :
    (padM.slice (Rect.unit (s := S2x64x82x82x128) (k0_off4 (grid0.coords t)) S1x64x3x82x128.size (k0_off4_inb (grid0.coords t))) (fun _ => rfl)).squeeze S64x3x82x128 squeezes_S1x64x3x82x128_S64x3x82x128 = srcB (Ring.bk 160 t.val) :=
  congrArg (fun M : Memref sig .tc .hbm S1x64x3x82x128 .f32 => M.squeeze S64x3x82x128 squeezes_S1x64x3x82x128_S64x3x82x128) (Memref.slice_unit_congr _ (off_wait_src t) _ _ (fun _ => rfl) (fun _ => rfl))
set_option synthInstance.maxSize 4096 in
theorem off_next_cell : ∀ t : Fin grid0.N, k0_off5 (grid0.coords t) = ![(Ring.sl 2 (t.val + 1)).val] := by decide +kernel
@[sl_canon] theorem name_next_cell (t : Fin grid0.N) (h1 : hasNext (grid0.coords t)) :
    (cc0_scratch1.slice (Rect.unit (s := S2) (k0_off5 (grid0.coords t)) S1.size (k0_off5_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t) _ _)
set_option synthInstance.maxSize 4096 in
theorem off_next_slot : ∀ t : Fin grid0.N, k0_off6 (grid0.coords t) = ![(Ring.sl 2 (t.val + 1)).val, 0, 0, 0, 0] := by decide +kernel
@[sl_canon] theorem name_next_slot (t : Fin grid0.N) (h1 : hasNext (grid0.coords t)) :
    (ringM.slice (Rect.unit (s := S2x64x3x82x128) (k0_off6 (grid0.coords t)) S1x64x3x82x128.size (k0_off6_inb (grid0.coords t) h1)) (fun _ => rfl)).squeeze S64x3x82x128 squeezes_S1x64x3x82x128_S64x3x82x128 = rslot (Ring.sl 2 (t.val + 1)) :=
  congrArg (fun M : Memref sig .tc .vmem S1x64x3x82x128 .f32 => M.squeeze S64x3x82x128 squeezes_S1x64x3x82x128_S64x3x82x128) (Memref.slice_unit_congr _ (off_next_slot t) _ _ (fun _ => rfl) (fun _ => rfl))
set_option synthInstance.maxSize 4096 in
theorem off_next_src : ∀ t : Fin grid0.N, hasNext (grid0.coords t) → k0_off7 (grid0.coords t) = ![(Ring.bk 160 (t.val + 1)).val / 80, 0, (Ring.bk 160 (t.val + 1)).val % 80, 0, 0] := by decide +kernel
@[sl_canon] theorem name_next_src (t : Fin grid0.N) (h1 : hasNext (grid0.coords t)) :
    (padM.slice (Rect.unit (s := S2x64x82x82x128) (k0_off7 (grid0.coords t)) S1x64x3x82x128.size (k0_off7_inb (grid0.coords t) h1)) (fun _ => rfl)).squeeze S64x3x82x128 squeezes_S1x64x3x82x128_S64x3x82x128 = srcB (Ring.bk 160 (t.val + 1)) :=
  congrArg (fun M : Memref sig .tc .hbm S1x64x3x82x128 .f32 => M.squeeze S64x3x82x128 squeezes_S1x64x3x82x128_S64x3x82x128) (Memref.slice_unit_congr _ (off_next_src t h1) _ _ (fun _ => rfl) (fun _ => rfl))
set_option synthInstance.maxSize 4096 in
theorem off_load : ∀ t : Fin grid0.N, k0_off8 (grid0.coords t) = ![(Ring.sl 2 t.val).val, 0, 0, 0, 0] := by decide +kernel
/-- The body's load of the buffer is at the slot it just waited for. -/
instance (priority := high) closedOff_load (t : Fin grid0.N) : ClosedOff (k0_off8 (grid0.coords t)) := ⟨![(Ring.sl 2 t.val).val, 0, 0, 0, 0], off_load t⟩
end Names

end Cert.KernelIdeal.Corr

end
-- ==== Proof.IdealRunA.lean ====
/-
  The body at a point of FIRST depth (both branches taken): both slots are at rest; the body starts this depth's
  window into slot (point mod 2), waits for it, starts the next depth's window into the other slot, and
  computes from the landed slot. The 27 stores it leaves in the output block are found by running it.
-/
import proofs.«155575_j81647328297400_2_alg».proof.Proof.IdealRing

set_option maxRecDepth 16384

noncomputable section

namespace Cert.KernelIdeal.Corr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything and both slots at rest it runs to the continuation holding the block as it was, the output
    buffer with those pieces written, the next window in flight and this depth's window kept in its slot. -/
noncomputable def runFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.free (cellP c) (slotW c fh0) (Ring.sl 2 t.val) ∗ Ring.free (cellP c) (slotW c fh0) (Ring.sl 2 (t.val + 1)) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.inflight (flightW c fh0) (Ring.sl 2 (t.val + 1)) (Ring.bk 160 (t.val + 1)) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (isFirst (grid0.coords t)) := ⟨hc0⟩
    haveI : Fact (hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hcanon0 := name_first_slot t hc0
    have hcanon1 := name_first_cell t hc0
    have hcanon2 := name_first_src t hc0
    unfold owns Ring.free Ring.inflight Ring.kept
    iintro ⟨⟨%f0, %hf0, H0⟩, ⟨%d1, %f1, -, H1⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src_split c fh0 (Ring.sl 2 t.val) (Ring.bk 160 t.val)).1 $$ Hw0_0_0
    icases Hsp0_0_0 with ⟨Hh0_0_0, Hr0_0_0⟩
    ihave Hsp0_0_1 := (src_split c fh0 (Ring.sl 2 (t.val + 1)) (Ring.bk 160 (t.val + 1))).1 $$ Hw0_0_1
    icases Hsp0_0_1 with ⟨Hh0_0_1, Hr0_0_1⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src_split c fh0 (Ring.sl 2 t.val) (Ring.bk 160 t.val)).2; isplitl [Hh0_0_0]; · iexact Hh0_0_0
      iexact Hr0_0_0
    iexists _; iexact HW

end Cert.KernelIdeal.Corr

end
-- ==== Proof.IdealRunB.lean ====
/-
  The body at a point of INNER depth (first branch not taken, second taken): this depth's window is in flight
  into slot (point mod 2), started by the point before, and the other slot is at rest; the body waits for the
  window, starts the next depth's into the other slot, and computes from the landed slot.
-/
import proofs.«155575_j81647328297400_2_alg».proof.Proof.IdealRunA

set_option maxRecDepth 16384

noncomputable section

namespace Cert.KernelIdeal.Corr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything, this depth's window in flight and the other slot at rest it runs to the continuation
    holding the block as it was, the output buffer with those pieces written, the next window in flight and this
    depth's window kept in its slot. -/
noncomputable def runInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.inflight (flightW c fh0) (Ring.sl 2 t.val) (Ring.bk 160 t.val) ∗ Ring.free (cellP c) (slotW c fh0) (Ring.sl 2 (t.val + 1)) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.inflight (flightW c fh0) (Ring.sl 2 (t.val + 1)) (Ring.bk 160 (t.val + 1)) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (¬isFirst (grid0.coords t)) := ⟨hc0⟩
    haveI : Fact (hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight Ring.kept
    iintro ⟨⟨%f0, %hf0, H0⟩, ⟨%d1, %f1, -, H1⟩, ⟨%ff0_0, Hf0_0, Hrf0_0⟩, ⟨Hc0_0_1, ⟨%fs0_0_1, Hs0_0_1, Hw0_0_1⟩⟩, HW, Hk⟩
    ihave Hsp0_0_1 := (src_split c fh0 (Ring.sl 2 (t.val + 1)) (Ring.bk 160 (t.val + 1))).1 $$ Hw0_0_1
    icases Hsp0_0_1 with ⟨Hh0_0_1, Hr0_0_1⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 160 t.val)).2; isplitl [Hf0_0_src]; · iexact Hf0_0_src
      iexact Hrf0_0
    iexists _; iexact HW

end Cert.KernelIdeal.Corr

end
-- ==== Proof.IdealRunC.lean ====
/-
  The body at a point of LAST depth (neither branch taken): this depth's window is in flight into slot
  (point mod 2); the body waits for it, starts nothing, and computes from the landed slot. The other slot is not
  touched.
-/
import proofs.«155575_j81647328297400_2_alg».proof.Proof.IdealRunB

set_option maxRecDepth 16384

noncomputable section

namespace Cert.KernelIdeal.Corr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's 27 stores as pieces (last first), with the proof that from the first operand's block, the output
    buffer at anything and this depth's window in flight it runs to the continuation holding the block as it was,
    the output buffer with those pieces written and this depth's window kept in its slot. -/
noncomputable def runLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) :
    { L1 : List (View.Piece (Elt F) S1x27x1x80x80 .f32) //
      ∀ (W : Waits sig Unit) (K : PUnit → sProp 𝕄),
        iprop(owns (c : Thread nD τ) arg2 fullShare x0 ∗ (∃ d, owns (c : Thread nD τ) arg4 fullShare d) ∗ Ring.inflight (flightW c fh0) (Ring.sl 2 t.val) (Ring.bk 160 t.val) ∗ owes (c : Thread nD τ) 0 W
            ∗ (iprop(owns (c : Thread nD τ) arg2 fullShare x0 ∗ (∃ f, arg4.view.loc (c : Thread nD τ) ↦[arg4.view.set]{fullShare} arg4.view.writes (Elt F) f L1) ∗ Ring.kept (cellP c) (slotW c fh0) (landed c fh0) (Ring.sl 2 t.val) (Ring.bk 160 t.val) ∗ (∃ W', owes (c : Thread nD τ) 0 W')) -∗ K ⟨⟩))
          ⊢ wp frame (wpE (defs₀ (F := F)) Variants.none c none) Set.univ (cc0__corr_kernel (grid0.coords t) arg2 harg2 (Memref.whole main_v0) (Memref.isWhole_whole _) arg4 harg4 ringM (Memref.isWhole_whole _) cc0_scratch1) K } := by
  refine ⟨?_, fun W K => ?run⟩
  case run =>
    haveI : Fact (¬isFirst (grid0.coords t)) := ⟨hc0⟩
    haveI : Fact (¬hasNext (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff0_0, Hf0_0, Hrf0_0⟩, HW, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]; · iexists _; iexact H1
    isplitl [Hf0_0 Hf0_0_dst Hf0_0_src Hrf0_0]
    · isplitl [Hf0_0]; · iexact Hf0_0
      iexists _; isplitl [Hf0_0_dst]; · iexact Hf0_0_dst
      iapply (src_split c fh0 (Ring.sl 2 t.val) (Ring.bk 160 t.val)).2; isplitl [Hf0_0_src]; · iexact Hf0_0_src
      iexact Hrf0_0
    iexists _; iexact HW

end Cert.KernelIdeal.Corr

end
-- ==== Proof.IdealFrame.lean ====
/-
  The frame of the kernel, assembled: what the output block holds after each point (the case's 27 stores read
  back), the region invariant (the generator register beside the two slots' state before the point), the body
  at any point by cases on the depth (first, inner, last), the launch's hand-over in both directions, the run
  and the frame claim. The invariant passes a transfer from the point that starts it to the point that waits
  for it; at the last depth of a batch element nothing is started, so the next batch element finds both slots
  at rest, as the first one did.
-/
import proofs.«155575_j81647328297400_2_alg».proof.Proof.IdealRunC

set_option maxRecDepth 16384

noncomputable section

namespace Cert.KernelIdeal.Corr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The 27 stores of a first-depth point tile the output block. -/
theorem coverFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) (y : S1x27x1x80x80.Idx) :
    ∃ pc ∈ (runFirst c t arg2 harg2 arg4 harg4 hc0 hc1 x0 fh0).1, y ∈ pc.1.set :=
  View.cover_of_tiledL (runFirst c t arg2 harg2 arg4 harg4 hc0 hc1 x0 fh0).1 S1x1x1x80x80.size (by sl_kernel_rfl) y
/-- What a first-depth point leaves in the output block. -/
def outFirst (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : isFirst (grid0.coords t)) (hc1 : hasNext (grid0.coords t))
    (x0 : Vec F S1x64x1x80x80 .f32) (fh0 : HbBuf (F := F) c padM) : Vec F S1x27x1x80x80 .f32 :=
  VOut.read (Elt F) (VOut.writes (Elt F) VOut.junk (runFirst c t arg2 harg2 arg4 harg4 hc0 hc1 x0 fh0).1)

theorem coverInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) (y : S1x27x1x80x80.Idx) :
    ∃ pc ∈ (runInner c t arg2 harg2 arg4 harg4 hc0 hc1 x0 fh0).1, y ∈ pc.1.set :=
  View.cover_of_tiledL (runInner c t arg2 harg2 arg4 harg4 hc0 hc1 x0 fh0).1 S1x1x1x80x80.size (by sl_kernel_rfl) y
def outInner (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : hasNext (grid0.coords t))
    (x0 : Vec F S1x64x1x80x80 .f32) (fh0 : HbBuf (F := F) c padM) : Vec F S1x27x1x80x80 .f32 :=
  VOut.read (Elt F) (VOut.writes (Elt F) VOut.junk (runInner c t arg2 harg2 arg4 harg4 hc0 hc1 x0 fh0).1)

theorem coverLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) (y : S1x27x1x80x80.Idx) :
    ∃ pc ∈ (runLast c t arg2 harg2 arg4 harg4 hc0 hc1 x0 fh0).1, y ∈ pc.1.set :=
  View.cover_of_tiledL (runLast c t arg2 harg2 arg4 harg4 hc0 hc1 x0 fh0).1 S1x1x1x80x80.size (by sl_kernel_rfl) y
def outLast (c : Dev nD) (t : Fin cfg0.N) (arg2 : Memref sig .tc .vmem S1x64x1x80x80 .f32) (harg2 : arg2.IsWhole) (arg4 : Memref sig .tc .vmem S1x27x1x80x80 .f32) (harg4 : arg4.IsWhole) (hc0 : ¬isFirst (grid0.coords t)) (hc1 : ¬hasNext (grid0.coords t))
    (x0 : Vec F S1x64x1x80x80 .f32) (fh0 : HbBuf (F := F) c padM) : Vec F S1x27x1x80x80 .f32 :=
  VOut.read (Elt F) (VOut.writes (Elt F) VOut.junk (runLast c t arg2 harg2 arg4 harg4 hc0 hc1 x0 fh0).1)

/-! ## What the output block holds after each point -/

/-- The case the depth selects, run at the point's memrefs, the first operand's block and the padded array. -/
def outsAt (c : Dev nD) (n : ℕ) (hn : n < cfg0.N) : Vec F S1x27x1x80x80 .f32 :=
  if h0 : n % 80 = 0 then
    outFirst c ⟨n, hn⟩ (xMem ⟨n, hn⟩) (xWhole ⟨n, hn⟩) (oMem ⟨n, hn⟩) (oWhole ⟨n, hn⟩) ((isFirst_iff ⟨n, hn⟩).mpr h0) ((hasNext_iff ⟨n, hn⟩).mpr (by show n % 80 < 79; omega)) (iblk m c 0 ⟨n, hn⟩) (V m c main_v0)
  else if h1 : n % 80 < 79 then
    outInner c ⟨n, hn⟩ (xMem ⟨n, hn⟩) (xWhole ⟨n, hn⟩) (oMem ⟨n, hn⟩) (oWhole ⟨n, hn⟩) (fun h => h0 ((isFirst_iff ⟨n, hn⟩).mp h)) ((hasNext_iff ⟨n, hn⟩).mpr h1) (iblk m c 0 ⟨n, hn⟩) (V m c main_v0)
  else
    outLast c ⟨n, hn⟩ (xMem ⟨n, hn⟩) (xWhole ⟨n, hn⟩) (oMem ⟨n, hn⟩) (oWhole ⟨n, hn⟩) (fun h => h0 ((isFirst_iff ⟨n, hn⟩).mp h)) (fun h => h1 ((hasNext_iff ⟨n, hn⟩).mp h)) (iblk m c 0 ⟨n, hn⟩) (V m c main_v0)

theorem outsAt_first (c : Dev nD) (t : Fin cfg0.N) (h0 : t.val % 80 = 0) (h1 : t.val % 80 < 79) :
    outsAt m c t.val t.isLt = outFirst c t (xMem t) (xWhole t) (oMem t) (oWhole t) ((isFirst_iff t).mpr h0) ((hasNext_iff t).mpr h1) (iblk m c 0 t) (V m c main_v0) := by
  unfold outsAt; exact dif_pos h0
theorem outsAt_inner (c : Dev nD) (t : Fin cfg0.N) (h0 : ¬t.val % 80 = 0) (h1 : t.val % 80 < 79) :
    outsAt m c t.val t.isLt = outInner c t (xMem t) (xWhole t) (oMem t) (oWhole t) (fun h => h0 ((isFirst_iff t).mp h)) ((hasNext_iff t).mpr h1) (iblk m c 0 t) (V m c main_v0) := by
  unfold outsAt; exact (dif_neg h0).trans (dif_pos h1)
theorem outsAt_last (c : Dev nD) (t : Fin cfg0.N) (h0 : ¬t.val % 80 = 0) (h1 : ¬t.val % 80 < 79) :
    outsAt m c t.val t.isLt = outLast c t (xMem t) (xWhole t) (oMem t) (oWhole t) (fun h => h0 ((isFirst_iff t).mp h)) (fun h => h1 ((hasNext_iff t).mp h)) (iblk m c 0 t) (V m c main_v0) := by
  unfold outsAt; exact (dif_neg h0).trans (dif_neg h1)

/-! ## The proof data -/

/-- The region invariant before point k. -/
def PhiR (c : Dev nD) (k : ℕ) : sProp 𝕄 := iprop((∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t.val t.isLt)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_x (c : Dev nD) (t : Fin cfg0.N) : (dats m 0 c).after 0 t = iblk m c 0 t := by dsimp only [dats]
theorem after_o (c : Dev nD) (t : Fin cfg0.N) : (dats m 0 c).after 1 t = (outsAt m c t.val t.isLt) := by dsimp only [dats]
theorem xBefore (c : Dev nD) (t : Fin cfg0.N) (d) : (dats m 0 c).before 0 t d = iblk m c 0 t :=
  xBefore_of m (dats m 0 c) (A_eq m c 0) (after_x m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (oMem t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (xMem t) fullShare ((dats m 0 c).after 0 t)
    ∗ owns (c : Thread nD τ) (oMem t) fullShare ((dats m 0 c).after 1 t))

set_option maxHeartbeats 1200000 in
/-- The body at any point, by the depth: the invariant before the point is the pieces that case's run takes, and what
    the run hands back is the invariant before the next point — a window kept in its slot after its wait is a slot at
    rest once what it holds is forgotten, and slot (k + 2) mod 2 is slot k mod 2. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [xBefore]
  rw [after_x, after_o]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hN : t.val < 160 := lt_of_lt_of_eq t.isLt (show cfg0.N = 160 from N_0)
  have hsl : Ring.sl 2 (t.val + 1 + 1) = Ring.sl 2 t.val := Ring.sl_add 2 t.val
  by_cases h0 : t.val % 80 = 0
  · have h1 : t.val % 80 < 79 := by omega
    rw [outsAt_first m c t h0 h1]
    unfold outFirst
    rw [if_pos h0, if_neg (show ¬(t.val + 1) % 80 = 0 by omega), hsl]
    iintro ⟨⟨Hg, ⟨Hfr0, Hfr1⟩⟩, ⟨%W, -, HW⟩, ⟨%d0, H0⟩, ⟨%d1, H1⟩⟩
    iapply ((runFirst c t _ _ _ _ ((isFirst_iff t).mpr h0) ((hasNext_iff t).mpr h1) (iblk m c 0 t) (V m c main_v0)).2 W _)
    isplitl [H0]; · iexact H0
    isplitl [H1]; · iexists _; iexact H1
    isplitl [Hfr0]; · iexact Hfr0
    isplitl [Hfr1]; · iexact Hfr1
    isplitl [HW]; · iexact HW
    iintro ⟨H0, ⟨%e1, H1⟩, Hfl', Hkp', ⟨%W', HW'⟩⟩
    isplitl [Hg Hfl' Hkp']
    · isplitl [Hg]; · iexact Hg
      isplitl [Hfl']; · iexact Hfl'
      iapply (Ring.free_of_kept (cellP c) (slotW c (V m c main_v0)) (landed c (V m c main_v0)) (Ring.sl 2 t.val) (Ring.bk 160 t.val)); iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (coverFirst c _ _ _ _ _ _ _ _ _)
  · by_cases h1 : t.val % 80 < 79
    · rw [outsAt_inner m c t h0 h1]
      unfold outInner
      rw [if_neg h0, if_neg (show ¬(t.val + 1) % 80 = 0 by omega), hsl]
      iintro ⟨⟨Hg, ⟨Hfl, Hfr1⟩⟩, ⟨%W, -, HW⟩, ⟨%d0, H0⟩, ⟨%d1, H1⟩⟩
      iapply ((runInner c t _ _ _ _ (fun h => h0 ((isFirst_iff t).mp h)) ((hasNext_iff t).mpr h1) (iblk m c 0 t) (V m c main_v0)).2 W _)
      isplitl [H0]; · iexact H0
      isplitl [H1]; · iexists _; iexact H1
      isplitl [Hfl]; · iexact Hfl
      isplitl [Hfr1]; · iexact Hfr1
      isplitl [HW]; · iexact HW
      iintro ⟨H0, ⟨%e1, H1⟩, Hfl', Hkp', ⟨%W', HW'⟩⟩
      isplitl [Hg Hfl' Hkp']
      · isplitl [Hg]; · iexact Hg
        isplitl [Hfl']; · iexact Hfl'
        iapply (Ring.free_of_kept (cellP c) (slotW c (V m c main_v0)) (landed c (V m c main_v0)) (Ring.sl 2 t.val) (Ring.bk 160 t.val)); iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverInner c _ _ _ _ _ _ _ _ _)
    · rw [outsAt_last m c t h0 h1]
      unfold outLast
      rw [if_neg h0, if_pos (show (t.val + 1) % 80 = 0 by omega), hsl]
      iintro ⟨⟨Hg, ⟨Hfl, Hfr1⟩⟩, ⟨%W, -, HW⟩, ⟨%d0, H0⟩, ⟨%d1, H1⟩⟩
      iapply ((runLast c t _ _ _ _ (fun h => h0 ((isFirst_iff t).mp h)) (fun h => h1 ((hasNext_iff t).mp h)) (iblk m c 0 t) (V m c main_v0)).2 W _)
      isplitl [H0]; · iexact H0
      isplitl [H1]; · iexists _; iexact H1
      isplitl [Hfl]; · iexact Hfl
      isplitl [HW]; · iexact HW
      iintro ⟨H0, ⟨%e1, H1⟩, Hkp', ⟨%W', HW'⟩⟩
      isplitl [Hg Hfr1 Hkp']
      · isplitl [Hg]; · iexact Hg
        isplitl [Hfr1]; · iexact Hfr1
        iapply (Ring.free_of_kept (cellP c) (slotW c (V m c main_v0)) (landed c (V m c main_v0)) (Ring.sl 2 t.val) (Ring.bk 160 t.val)); iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverLast c _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem spec0 H0 (V m) c ⊢ (dats m 0 c).Φ 0 := by
  rw [PhiD_eq, show (dats m 0 c).Φ 0 = PhiR m c 0 from rfl]
  unfold PhiR
  iintro ⟨HR, Hg, ⟨Hq0, Hq1⟩, Hh⟩
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 160 by rw [N_0]]
  iintro ⟨Hg, HR⟩
  ihave HX := (ring_out (F := F) m c) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The run and the frame -/

set_option backward.isDefEq.respectTransparency.types false in
/-- Every weakly fair execution of the program terminates, nothing faulting, every array of the region at what the
    library computes from the proof data and every other buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.KernelIdeal.Corr

end
-- ==== Proof.CorrSpec.lean ====
/-
  The windowed channel correlation, as one function of the two arguments.

  For x, y of shape [2, 64, 80, 80, 80] (batch, channel, depth, row, column) the result at
  (b, o, d, h, w), o = 9·dz + 3·dy + dx with dz, dy, dx in {0, 1, 2}, is
      ( Σ over channels c of  x[b, c, d, h, w] · ȳ[b, c, d + dz, h + dy, w + dx] ) · s
  where ȳ is y with a border of width one of the value z on each of the three spatial axes, read at padded
  coordinates (so ȳ[b, c, D, H, W] = y[b, c, D − 1, H − 1, W − 1] when 1 ≤ D, H, W ≤ 80, and z elsewhere), and
  s is the scale. Both programs compute this: neither reads a column of the padding beyond 81, so how far the
  columns are padded on the right (to 82 or to 128) does not matter.

  This module states the function, reads a padded array at an index (for both paddings), and reads at an index
  the one arithmetic term every one of the 27 stores of a grid point has: a slice of the three-plane window at
  offsets (0, dz, dy, dx), times the first operand's block, summed over channels, times the scale.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

namespace Cert.Corr

open Idealize.ShloMosaic Idealize.ShloMosaic.ValueIdx

abbrev SX : Shape := ⟨5, ![2, 64, 80, 80, 80]⟩
abbrev SO : Shape := ⟨5, ![2, 27, 80, 80, 80]⟩
abbrev SP82 : Shape := ⟨5, ![2, 64, 82, 82, 82]⟩
abbrev SP128 : Shape := ⟨5, ![2, 64, 82, 82, 128]⟩
abbrev SB : Shape := ⟨4, ![64, 1, 80, 80]⟩
abbrev SW : Shape := ⟨4, ![64, 3, 82, 128]⟩
abbrev SR : Shape := ⟨3, ![1, 80, 80]⟩
abbrev SS : Shape := ⟨5, ![1, 1, 1, 80, 80]⟩

/-- The border value both programs pad with (the integer zero converted to a float), and the scale (the word of 1/8). -/
abbrev zPad : EReal := FloatOps.sitofp (F := Ideal) .f32 (0#32 : BitVec 32)
abbrev scale : EReal := Ideal.ofBits .f32 0x3E000000#32

/-- y with its border of z, at padded coordinates (D, H, W). -/
def ypad (y : SX.Idx → EReal) (z : EReal) (b : Fin 2) (c : Fin 64) (D H Wd : ℕ) : EReal :=
  if h : (1 ≤ D ∧ D ≤ 80) ∧ (1 ≤ H ∧ H ≤ 80) ∧ (1 ≤ Wd ∧ Wd ≤ 80) then
    y (ix5 b c ⟨D - 1, by omega⟩ ⟨H - 1, by omega⟩ ⟨Wd - 1, by omega⟩)
  else z

theorem ypad_congr (y : SX.Idx → EReal) (z : EReal) {b b' : Fin 2} {c c' : Fin 64} {D D' H H' Wd Wd' : ℕ}
    (hb : b = b') (hc : c = c') (hD : D = D') (hH : H = H') (hW : Wd = Wd') :
    ypad y z b c D H Wd = ypad y z b' c' D' H' Wd' := by
  subst hb hc hD hH hW; rfl

/-- The correlation volume. -/
def corr (x y : SX.Idx → EReal) (z s : EReal) : SO.Idx → EReal := fun i =>
  (∑ c : Fin 64, x (ix5 (i 0) c (i 2) (i 3) (i 4))
      * ypad y z (i 0) c ((i 2).val + (i 1).val / 9) ((i 3).val + (i 1).val / 3 % 3) ((i 4).val + (i 1).val % 3)) * s

/-- The array padded by one on the three spatial axes (to 82 columns), read at an index. -/
theorem pad82_apply (y : SX.Idx → EReal) {u : Shape} (v : u.Idx → EReal)
    (h : SX.Pads ![0, 0, 1, 1, 1] ![0, 0, 1, 1, 1] ![0, 0, 0, 0, 0] SP82) (hu : 0 < u.numel) (j : SP82.Idx) :
    pad SP82 ![0, 0, 1, 1, 1] ![0, 0, 1, 1, 1] ![0, 0, 0, 0, 0] y v h hu j
      = ypad y (v (Shape.Idx.first hu)) (j 0) (j 1) (j 2).val (j 3).val (j 4).val := by
  unfold ypad
  by_cases hin : (1 ≤ (j 2).val ∧ (j 2).val ≤ 80) ∧ (1 ≤ (j 3).val ∧ (j 3).val ≤ 80) ∧ (1 ≤ (j 4).val ∧ (j 4).val ≤ 80)
  · rw [dif_pos hin]
    refine pad_apply_of_inside _ _ _ y v h hu j _ (fun a => ?_)
    match a with
    | ⟨0, _⟩ => show (j 0).val = 0 + (j 0).val * (0 + 1); omega
    | ⟨1, _⟩ => show (j 1).val = 0 + (j 1).val * (0 + 1); omega
    | ⟨2, _⟩ => show (j 2).val = 1 + ((j 2).val - 1) * (0 + 1); omega
    | ⟨3, _⟩ => show (j 3).val = 1 + ((j 3).val - 1) * (0 + 1); omega
    | ⟨4, _⟩ => show (j 4).val = 1 + ((j 4).val - 1) * (0 + 1); omega
  · rw [dif_neg hin]
    by_cases h2 : 1 ≤ (j 2).val ∧ (j 2).val ≤ 80
    · by_cases h3 : 1 ≤ (j 3).val ∧ (j 3).val ≤ 80
      · refine pad_apply_of_not_inside _ _ _ y v h hu j 4 (fun hh => hin ⟨h2, h3, ?_⟩)
        have h1 : 1 ≤ (j 4).val := hh.1
        have h5 : ((j 4).val - 1) / (0 + 1) < 80 := hh.2.2
        rw [Nat.zero_add, Nat.div_one] at h5
        omega
      · refine pad_apply_of_not_inside _ _ _ y v h hu j 3 (fun hh => h3 ?_)
        have h1 : 1 ≤ (j 3).val := hh.1
        have h5 : ((j 3).val - 1) / (0 + 1) < 80 := hh.2.2
        rw [Nat.zero_add, Nat.div_one] at h5
        omega
    · refine pad_apply_of_not_inside _ _ _ y v h hu j 2 (fun hh => h2 ?_)
      have h1 : 1 ≤ (j 2).val := hh.1
      have h5 : ((j 2).val - 1) / (0 + 1) < 80 := hh.2.2
      rw [Nat.zero_add, Nat.div_one] at h5
      omega

/-- The array padded to 128 columns, read at an index: the same function of the coordinates. -/
theorem pad128_apply (y : SX.Idx → EReal) {u : Shape} (v : u.Idx → EReal)
    (h : SX.Pads ![0, 0, 1, 1, 1] ![0, 0, 1, 1, 47] ![0, 0, 0, 0, 0] SP128) (hu : 0 < u.numel) (j : SP128.Idx) :
    pad SP128 ![0, 0, 1, 1, 1] ![0, 0, 1, 1, 47] ![0, 0, 0, 0, 0] y v h hu j
      = ypad y (v (Shape.Idx.first hu)) (j 0) (j 1) (j 2).val (j 3).val (j 4).val := by
  unfold ypad
  by_cases hin : (1 ≤ (j 2).val ∧ (j 2).val ≤ 80) ∧ (1 ≤ (j 3).val ∧ (j 3).val ≤ 80) ∧ (1 ≤ (j 4).val ∧ (j 4).val ≤ 80)
  · rw [dif_pos hin]
    refine pad_apply_of_inside _ _ _ y v h hu j _ (fun a => ?_)
    match a with
    | ⟨0, _⟩ => show (j 0).val = 0 + (j 0).val * (0 + 1); omega
    | ⟨1, _⟩ => show (j 1).val = 0 + (j 1).val * (0 + 1); omega
    | ⟨2, _⟩ => show (j 2).val = 1 + ((j 2).val - 1) * (0 + 1); omega
    | ⟨3, _⟩ => show (j 3).val = 1 + ((j 3).val - 1) * (0 + 1); omega
    | ⟨4, _⟩ => show (j 4).val = 1 + ((j 4).val - 1) * (0 + 1); omega
  · rw [dif_neg hin]
    by_cases h2 : 1 ≤ (j 2).val ∧ (j 2).val ≤ 80
    · by_cases h3 : 1 ≤ (j 3).val ∧ (j 3).val ≤ 80
      · refine pad_apply_of_not_inside _ _ _ y v h hu j 4 (fun hh => hin ⟨h2, h3, ?_⟩)
        have h1 : 1 ≤ (j 4).val := hh.1
        have h5 : ((j 4).val - 1) / (0 + 1) < 80 := hh.2.2
        rw [Nat.zero_add, Nat.div_one] at h5
        omega
      · refine pad_apply_of_not_inside _ _ _ y v h hu j 3 (fun hh => h3 ?_)
        have h1 : 1 ≤ (j 3).val := hh.1
        have h5 : ((j 3).val - 1) / (0 + 1) < 80 := hh.2.2
        rw [Nat.zero_add, Nat.div_one] at h5
        omega
    · refine pad_apply_of_not_inside _ _ _ y v h hu j 2 (fun hh => h2 ?_)
      have h1 : 1 ≤ (j 2).val := hh.1
      have h5 : ((j 2).val - 1) / (0 + 1) < 80 := hh.2.2
      rw [Nat.zero_add, Nat.div_one] at h5
      omega

/-- One store's value at (0, 0, 0, h, w): the channel sum of the first operand's block times the window's slice at
    the store's offsets, times the scale. -/
theorem corrTerm_apply (off : Fin 4 → ℕ) (hs : SW.Slices off SB) (hr : SB.Reduces [0] SR) (hc : SR.ShapeCasts SS)
    (xv : FVec Ideal SB .f32) (sv : FVec Ideal SW .f32) (sc : Ideal .f32) (x : SS.Idx) :
    shapeCast SS (mulf (multiReduction (F := Ideal) .add [0] SR (mulf xv (extractStridedSlice SB off sv hs)) 0x00000000#32 hr (.inl rfl) rfl) (broadcast SR sc)) hc x
      = (∑ c : Fin 64, xv (ix4 c 0 (x 3) (x 4)) * extractStridedSlice SB off sv hs (ix4 c 0 (x 3) (x 4))) * sc := by
  have h0 : (x 0).val = 0 := by have := (x 0).isLt; have e : SS.size 0 = 1 := rfl; omega
  have h1 : (x 1).val = 0 := by have := (x 1).isLt; have e : SS.size 1 = 1 := rfl; omega
  have h2 : (x 2).val = 0 := by have := (x 2).isLt; have e : SS.size 2 = 1 := rfl; omega
  rw [shapeCast_apply _ hc x (ix3 0 (x 3) (x 4)) (by
    rw [Shape.rowMajor_val_three, Shape.rowMajor_val_five]
    show ((0 * 80 + (x 3).val) * 80 + (x 4).val) = (((((x 0).val * 1 + (x 1).val) * 1 + (x 2).val) * 80 + (x 3).val) * 80 + (x 4).val)
    rw [h0, h1, h2])]
  show (multiReduction (F := Ideal) .add [0] SR (mulf xv (extractStridedSlice SB off sv hs)) 0x00000000#32 hr (.inl rfl) rfl (ix3 0 (x 3) (x 4))) * sc = _
  refine congrArg (· * sc) ?_
  refine (Ideal.multiReduction_add_single (mulf xv (extractStridedSlice SB off sv hs)) 0x00000000#32 hr (.inl rfl) rfl (ix3 0 (x 3) (x 4))).trans ?_
  refine Finset.sum_congr rfl fun c _ => ?_
  have e : hr.lift (ix3 (0 : Fin 1) (x 3) (x 4)) c = ix4 c 0 (x 3) (x 4) :=
    funext fun a => Fin.ext (by match a with | ⟨0, _⟩ => rfl | ⟨1, _⟩ => rfl | ⟨2, _⟩ => rfl | ⟨3, _⟩ => rfl)
  rw [e]
  rfl

end Cert.Corr

end
-- ==== Proof.IdealValue.lean ====
/-
  What the kernel's output array holds after the run, at the ideal instance: at every index the windowed channel
  correlation of the two arguments.

  A grid point (batch b, depth d) stores 27 rows into its output block, row o = 9·dz + 3·dy + dx holding, at (h, w),
  the channel sum of the first operand's block at (c, h, w) times the landed window at (c, dz, h + dy, w + dx), times
  the scale. The landed window is the three padded planes d, d + 1, d + 2 of batch b of the padded second operand
  — what the transfer the point waited for copied into its slot — and the padded operand is the host's padding of
  the second argument. So the block is the correlation volume read through the block's place in the output array;
  the 160 blocks cover the array.
-/
import proofs.«155575_j81647328297400_2_alg».proof.Proof.IdealFrame
import proofs.«155575_j81647328297400_2_alg».proof.Proof.CorrSpec
import Idealize.ShloMosaic.Lib.Pipeline.Value
import Idealize.ShloMosaic.Lib.StableHlo.Run

set_option maxRecDepth 16384

noncomputable section

namespace Cert.KernelIdeal.CorrValue

open Cert.KernelIdeal Cert.KernelIdeal.Gen Cert.KernelIdeal.Corr Cert.Corr
open Idealize.ShloMosaic Idealize.ShloMosaic.TcCoe Idealize.ShloMosaic.Tactic Idealize.SL.Sem Idealize.ShloMosaic.ValueIdx
open Idealize.ShloMosaic.Pipeline (Dat)

theorem hz : (![0, 0, 0, 0, 0] : Fin 5 → Nat) = fun _ => 0 := funext fun a => by fin_cases a <;> rfl

/-! ## One point's block as a function of the first operand's block and the landed window -/

/-- Row o = 9·dz + 3·dy + dx of the block at (h, w). -/
def blockVal (xb : FVec Ideal S1x64x1x80x80 .f32) (sv : FVec Ideal S64x3x82x128 .f32) : S1x27x1x80x80.Idx → EReal := fun i =>
  (∑ c : Fin 64, xb (ix5 0 c 0 (i 3) (i 4))
      * sv (ix4 c ⟨(i 1).val / 9, by have h : (i 1).val < 27 := (i 1).isLt; omega⟩
          ⟨(i 1).val / 3 % 3 + (i 3).val, by have h : (i 3).val < 80 := (i 3).isLt; omega⟩
          ⟨(i 1).val % 3 + (i 4).val, by have h : (i 4).val < 80 := (i 4).isLt; omega⟩)) * Ideal.ofBits .f32 0x3E000000#32

/-- A store's payload — the first operand's block cast to [64, 1, 80, 80], the window's slice at the offsets
    (0, o / 9, o / 3 % 3, o % 3), the channel sum, the scale, cast to the store's shape — is the block function at the
    store's row o. -/
theorem piece_agree (o : Fin 27) (inb : ∀ a, (![0, o.val, 0, 0, 0] : Fin 5 → Nat) a + (![1, 1, 1, 80, 80] : Fin 5 → Nat) a ≤ S1x27x1x80x80.size a)
    (off : Fin 4 → ℕ) (hs : S64x3x82x128.Slices off S64x1x80x80) (hr : S64x1x80x80.Reduces [0] S1x80x80) (hc : S1x80x80.ShapeCasts S1x1x1x80x80)
    (hx : S1x64x1x80x80.ShapeCasts S64x1x80x80)
    (xb : FVec Ideal S1x64x1x80x80 .f32) (sv : FVec Ideal S64x3x82x128 .f32) (sc : Ideal .f32)
    (hoff : off = ![0, o.val / 9, o.val / 3 % 3, o.val % 3]) (hsc : sc = Ideal.ofBits .f32 0x3E000000#32)
    (x : (Rect.unit (s := S1x27x1x80x80) ![0, o.val, 0, 0, 0] ![1, 1, 1, 80, 80] inb).shape.Idx) :
    shapeCast S1x1x1x80x80 (mulf (multiReduction (F := Ideal) .add [0] S1x80x80 (mulf (shapeCast S64x1x80x80 xb hx) (extractStridedSlice S64x1x80x80 off sv hs)) 0x00000000#32 hr (.inl rfl) rfl) (broadcast S1x80x80 sc)) hc x
      = blockVal xb sv ((Rect.unit (s := S1x27x1x80x80) ![0, o.val, 0, 0, 0] ![1, 1, 1, 80, 80] inb).emb x) := by
  subst hoff hsc
  refine (corrTerm_apply _ hs hr hc _ sv _ x).trans ?_
  unfold blockVal
  have ho : o.val < 27 := o.isLt
  have hx1 : (x 1).val < 1 := (x 1).isLt
  have hx3 : (x 3).val < 80 := (x 3).isLt
  have hx4 : (x 4).val < 80 := (x 4).isLt
  have e1 : (((Rect.unit (s := S1x27x1x80x80) ![0, o.val, 0, 0, 0] ![1, 1, 1, 80, 80] inb).emb x) 1).val = o.val + 1 * (x 1).val := rfl
  have e3 : (((Rect.unit (s := S1x27x1x80x80) ![0, o.val, 0, 0, 0] ![1, 1, 1, 80, 80] inb).emb x) 3).val = 0 + 1 * (x 3).val := rfl
  have e4 : (((Rect.unit (s := S1x27x1x80x80) ![0, o.val, 0, 0, 0] ![1, 1, 1, 80, 80] inb).emb x) 4).val = 0 + 1 * (x 4).val := rfl
  refine congrArg (· * _) (Finset.sum_congr rfl fun c _ => ?_)
  refine congr (congrArg _ ?_) ?_
  · refine (shapeCast_dropUnit_apply ![64, 1, 80, 80] xb hx _).trans (congrArg xb (funext fun a => Fin.ext ?_))
    match a with
    | ⟨0, _⟩ => rfl
    | ⟨1, _⟩ => rfl
    | ⟨2, _⟩ => rfl
    | ⟨3, _⟩ => show (x 3).val = _; rw [e3]; omega
    | ⟨4, _⟩ => show (x 4).val = _; rw [e4]; omega
  · refine extractStridedSlice_apply _ sv hs _ _ (fun a => ?_)
    match a with
    | ⟨0, _⟩ => show c.val = 0 + c.val; omega
    | ⟨1, _⟩ => show _ / 9 = o.val / 9 + 0; rw [e1]; omega
    | ⟨2, _⟩ => show _ / 3 % 3 + _ = o.val / 3 % 3 + (x 3).val; rw [e1, e3]; omega
    | ⟨3, _⟩ => show _ % 3 + _ = o.val % 3 + (x 4).val; rw [e1, e4]; omega

/-! ## What the body loads from the slot it waited for -/

/-- A squeezed one-batch slice of a [_, 64, _, _, _] array at offsets off places the index (c, p, r, q) at off + (0, c, p, r, q). -/
theorem emb_pad (off : Fin 5 → Nat) (inb) (y : S64x3x82x128.Idx) (x : S1x64x3x82x128.Idx)
    (hy : ∀ i : Fin 4, (y i).val = (x i.succ).val) (a : Fin 5) :
    ((((Memref.whole main_v0 : Memref sig .tc .hbm S2x64x82x82x128 .f32).slice (Rect.unit (s := S2x64x82x82x128) off S1x64x3x82x128.size inb) (fun _ => rfl)).squeeze S64x3x82x128 squeezes_S1x64x3x82x128_S64x3x82x128).view.emb y a).val
      = off a + (x a).val := by
  show off a + 1 * ((Shape.reshapeEquiv (Shape.Squeezes.numel_eq squeezes_S1x64x3x82x128_S64x3x82x128) y) a).val = _
  rw [Shape.reshapeEquiv_cons_one (n := 4) (d := ![64, 3, 82, 128])]
  refine Fin.cases ?_ (fun i => ?_) a
  · have hx : (x 0).val < 1 := (x 0).isLt
    show off 0 + 1 * 0 = off 0 + (x 0).val
    omega
  · have := hy i
    show off i.succ + 1 * (y i).val = _
    omega
theorem emb_ring (off : Fin 5 → Nat) (inb) (y : S64x3x82x128.Idx) (x : S1x64x3x82x128.Idx)
    (hy : ∀ i : Fin 4, (y i).val = (x i.succ).val) (a : Fin 5) :
    ((((Memref.whole cc0_scratch0 : Memref sig .tc .vmem S2x64x3x82x128 .f32).slice (Rect.unit (s := S2x64x3x82x128) off S1x64x3x82x128.size inb) (fun _ => rfl)).squeeze S64x3x82x128 squeezes_S1x64x3x82x128_S64x3x82x128).view.emb y a).val
      = off a + (x a).val := by
  show off a + 1 * ((Shape.reshapeEquiv (Shape.Squeezes.numel_eq squeezes_S1x64x3x82x128_S64x3x82x128) y) a).val = _
  rw [Shape.reshapeEquiv_cons_one (n := 4) (d := ![64, 3, 82, 128])]
  refine Fin.cases ?_ (fun i => ?_) a
  · have hx : (x 0).val < 1 := (x 0).isLt
    show off 0 + 1 * 0 = off 0 + (x 0).val
    omega
  · have := hy i
    show off i.succ + 1 * (y i).val = _
    omega

/-- A load of slot s's row through the whole buffer, of contents a transfer left listed on the slot's view, is the
    listed payload at the index behind the unit axis. -/
theorem slot_read (s : Fin 2) (xw : S64x3x82x128.Idx → Elt Ideal .f32) (off : Fin 5 → Nat) (inb) (hoff : off = ![s.val, 0, 0, 0, 0]) (y : S1x64x3x82x128.Idx) :
    (View.whole cc0_scratch0).readAt (Elt Ideal) (Rect.unit (s := S2x64x3x82x128) off S1x64x3x82x128.size inb).toLoadRect
        ((rslot s).view.writes (Elt Ideal) (rslot s).view.junk [⟨Rect.whole S64x3x82x128, xw⟩]) y
      = xw (fun i => (y i.succ).cast rfl) := by
  subst hoff
  simp only [View.readAt, View.read_whole]
  have e : (Rect.unit (s := S2x64x3x82x128) ![s.val, 0, 0, 0, 0] S1x64x3x82x128.size inb).toLoadRect.idx y
      = (rslot s).view.emb (fun i => (y i.succ).cast rfl) := by
    funext a
    apply Fin.ext
    rw [show ((rslot s).view.emb (fun i => (y i.succ).cast rfl) a).val = (![s.val, 0, 0, 0, 0] : Fin 5 → Nat) a + (y a).val from
      emb_ring _ _ _ y (fun _ => rfl) a]
    show (![s.val, 0, 0, 0, 0] : Fin 5 → Nat) a + 1 * (y a).val = _
    omega
  rw [e]
  exact congrFun (View.read_writes_whole (rslot s).view ((rslot s).view.junk (Val := Elt Ideal)) xw) _

/-- The first operand's block as the body loads it. -/
theorem xraw_eq (a2 : Memref sig .tc .vmem S1x64x1x80x80 .f32) (h2 : a2.IsWhole) (x0 : Vec Ideal S1x64x1x80x80 .f32) :
    View.readAt (Elt Ideal) a2.view (Rect.unit (s := S1x64x1x80x80) ![0, 0, 0, 0, 0] S1x64x1x80x80.size inb_S1x64x1x80x80_S1x64x1x80x80_0_0_0_0_0).toLoadRect (h2.unread x0) = x0 := by
  simp only [View.readAt_eq_ld, h2.read_unread, View.ld_unit_zero (S := S1x64x1x80x80) hz]

/-- What the body loads from the buffer at point t: the slot of the point's parity, holding the window the point waited
    for landed whole. -/
def slotRaw (c : Dev nD) (t : Fin cfg0.N) (W : HbBuf (F := Ideal) c padM) : Vec Ideal S1x64x3x82x128 .f32 :=
  View.readAt (Elt Ideal) ringM.view (Rect.unit (s := S2x64x3x82x128) (k0_off8 (grid0.coords t)) S1x64x3x82x128.size (k0_off8_inb (grid0.coords t))).toLoadRect
    ((rslot (Ring.sl 2 t.val)).view.writes (Elt Ideal) (rslot (Ring.sl 2 t.val)).view.junk
      [⟨Rect.whole S64x3x82x128, ReadAs.same.apply ((srcB (Ring.bk 160 t.val)).view.read (Elt Ideal) W)⟩])

/-- The window of point t = 80·b + d read off the padded array: (c, p, r, q) is the array at (b, c, d + p, r, q). -/
def winVal (c : Dev nD) (t : Fin cfg0.N) (W : S2x64x82x82x128.Idx → EReal) : FVec Ideal S64x3x82x128 .f32 := fun y =>
  W (ix5 ⟨t.val / 80, by have := t.isLt; have e : cfg0.N = 160 := N_0; omega⟩ (y 0)
      ⟨t.val % 80 + (y 1).val, by have h : (y 1).val < 3 := (y 1).isLt; omega⟩ (y 2) (y 3))

theorem sv_eq (c : Dev nD) (t : Fin cfg0.N) (W : HbBuf (F := Ideal) c padM) : k0_pay3 (slotRaw c t W) = winVal c t W := by
  funext y
  have ht : t.val < 160 := lt_of_lt_of_eq t.isLt (show cfg0.N = 160 from N_0)
  refine (shapeCast_dropUnit_apply ![64, 3, 82, 128] (slotRaw c t W) shapeCasts_S1x64x3x82x128_S64x3x82x128 y).trans ?_
  unfold slotRaw
  refine (slot_read (Ring.sl 2 t.val) _ _ _ (off_load t) _).trans ?_
  show W ((srcB (Ring.bk 160 t.val)).view.emb _) = W _
  refine congrArg W (funext fun a => Fin.ext ?_)
  unfold srcB
  refine (emb_pad _ _ _ (Fin.cons (0 : Fin 1) y) (fun _ => rfl) a).trans ?_
  have hb : (Ring.bk 160 t.val).val = t.val := Ring.bk_val ht
  match a with
  | ⟨0, _⟩ => show (Ring.bk 160 t.val).val / 80 + 0 = t.val / 80; rw [hb]; omega
  | ⟨1, _⟩ => show 0 + (y 0).val = (y 0).val; omega
  | ⟨2, _⟩ => show (Ring.bk 160 t.val).val % 80 + (y 1).val = t.val % 80 + (y 1).val; rw [hb]
  | ⟨3, _⟩ => show 0 + (y 2).val = (y 2).val; omega
  | ⟨4, _⟩ => show 0 + (y 3).val = (y 3).val; omega

/-! ## The 27 stores of a point are the block function, whatever the point's case -/

section Cases
variable (c : Dev nD) (t : Fin cfg0.N) (a2 : Memref sig .tc .vmem S1x64x1x80x80 .f32) (h2 : a2.IsWhole)
  (a4 : Memref sig .tc .vmem S1x27x1x80x80 .f32) (h4 : a4.IsWhole) (x0 : Vec Ideal S1x64x1x80x80 .f32) (W : HbBuf (F := Ideal) c padM)

set_option maxHeartbeats 4000000 in
theorem out_eq_first (hc0 : isFirst (grid0.coords t)) (hc1 : hasNext (grid0.coords t)) :
    outFirst c t a2 h2 a4 h4 hc0 hc1 x0 W = blockVal x0 (k0_pay3 (slotRaw c t W)) := by
  unfold outFirst
  rw [View.read_writes_eq_canon _ _ _ (coverFirst c t a2 h2 a4 h4 hc0 hc1 x0 W)]
  funext y
  refine View.canon_apply_of_pieces (blockVal x0 (k0_pay3 (slotRaw c t W))) _ ?_ y (coverFirst c t a2 h2 a4 h4 hc0 hc1 x0 W y)
  unfold runFirst
  dsimp only
  sl_unfold_words
  rw [xraw_eq a2 h2 x0]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact fun x => piece_agree 26 inb_S1x27x1x80x80_S1x1x1x80x80_0_26_0_0_0 ![0, 2, 2, 2] slices_S64x3x82x128_o0_2_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 25 inb_S1x27x1x80x80_S1x1x1x80x80_0_25_0_0_0 ![0, 2, 2, 1] slices_S64x3x82x128_o0_2_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 24 inb_S1x27x1x80x80_S1x1x1x80x80_0_24_0_0_0 ![0, 2, 2, 0] slices_S64x3x82x128_o0_2_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 23 inb_S1x27x1x80x80_S1x1x1x80x80_0_23_0_0_0 ![0, 2, 1, 2] slices_S64x3x82x128_o0_2_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 22 inb_S1x27x1x80x80_S1x1x1x80x80_0_22_0_0_0 ![0, 2, 1, 1] slices_S64x3x82x128_o0_2_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 21 inb_S1x27x1x80x80_S1x1x1x80x80_0_21_0_0_0 ![0, 2, 1, 0] slices_S64x3x82x128_o0_2_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 20 inb_S1x27x1x80x80_S1x1x1x80x80_0_20_0_0_0 ![0, 2, 0, 2] slices_S64x3x82x128_o0_2_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 19 inb_S1x27x1x80x80_S1x1x1x80x80_0_19_0_0_0 ![0, 2, 0, 1] slices_S64x3x82x128_o0_2_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 18 inb_S1x27x1x80x80_S1x1x1x80x80_0_18_0_0_0 ![0, 2, 0, 0] slices_S64x3x82x128_o0_2_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 17 inb_S1x27x1x80x80_S1x1x1x80x80_0_17_0_0_0 ![0, 1, 2, 2] slices_S64x3x82x128_o0_1_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 16 inb_S1x27x1x80x80_S1x1x1x80x80_0_16_0_0_0 ![0, 1, 2, 1] slices_S64x3x82x128_o0_1_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 15 inb_S1x27x1x80x80_S1x1x1x80x80_0_15_0_0_0 ![0, 1, 2, 0] slices_S64x3x82x128_o0_1_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 14 inb_S1x27x1x80x80_S1x1x1x80x80_0_14_0_0_0 ![0, 1, 1, 2] slices_S64x3x82x128_o0_1_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 13 inb_S1x27x1x80x80_S1x1x1x80x80_0_13_0_0_0 ![0, 1, 1, 1] slices_S64x3x82x128_o0_1_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 12 inb_S1x27x1x80x80_S1x1x1x80x80_0_12_0_0_0 ![0, 1, 1, 0] slices_S64x3x82x128_o0_1_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 11 inb_S1x27x1x80x80_S1x1x1x80x80_0_11_0_0_0 ![0, 1, 0, 2] slices_S64x3x82x128_o0_1_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 10 inb_S1x27x1x80x80_S1x1x1x80x80_0_10_0_0_0 ![0, 1, 0, 1] slices_S64x3x82x128_o0_1_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 9 inb_S1x27x1x80x80_S1x1x1x80x80_0_9_0_0_0 ![0, 1, 0, 0] slices_S64x3x82x128_o0_1_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 8 inb_S1x27x1x80x80_S1x1x1x80x80_0_8_0_0_0 ![0, 0, 2, 2] slices_S64x3x82x128_o0_0_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 7 inb_S1x27x1x80x80_S1x1x1x80x80_0_7_0_0_0 ![0, 0, 2, 1] slices_S64x3x82x128_o0_0_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 6 inb_S1x27x1x80x80_S1x1x1x80x80_0_6_0_0_0 ![0, 0, 2, 0] slices_S64x3x82x128_o0_0_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 5 inb_S1x27x1x80x80_S1x1x1x80x80_0_5_0_0_0 ![0, 0, 1, 2] slices_S64x3x82x128_o0_0_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 4 inb_S1x27x1x80x80_S1x1x1x80x80_0_4_0_0_0 ![0, 0, 1, 1] slices_S64x3x82x128_o0_0_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 3 inb_S1x27x1x80x80_S1x1x1x80x80_0_3_0_0_0 ![0, 0, 1, 0] slices_S64x3x82x128_o0_0_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 2 inb_S1x27x1x80x80_S1x1x1x80x80_0_2_0_0_0 ![0, 0, 0, 2] slices_S64x3x82x128_o0_0_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 1 inb_S1x27x1x80x80_S1x1x1x80x80_0_1_0_0_0 ![0, 0, 0, 1] slices_S64x3x82x128_o0_0_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 0 inb_S1x27x1x80x80_S1x1x1x80x80_0_0_0_0_0 ![0, 0, 0, 0] slices_S64x3x82x128_o0_0_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
set_option maxHeartbeats 4000000 in
theorem out_eq_inner (hc0 : ¬isFirst (grid0.coords t)) (hc1 : hasNext (grid0.coords t)) :
    outInner c t a2 h2 a4 h4 hc0 hc1 x0 W = blockVal x0 (k0_pay3 (slotRaw c t W)) := by
  unfold outInner
  rw [View.read_writes_eq_canon _ _ _ (coverInner c t a2 h2 a4 h4 hc0 hc1 x0 W)]
  funext y
  refine View.canon_apply_of_pieces (blockVal x0 (k0_pay3 (slotRaw c t W))) _ ?_ y (coverInner c t a2 h2 a4 h4 hc0 hc1 x0 W y)
  unfold runInner
  dsimp only
  sl_unfold_words
  rw [xraw_eq a2 h2 x0]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact fun x => piece_agree 26 inb_S1x27x1x80x80_S1x1x1x80x80_0_26_0_0_0 ![0, 2, 2, 2] slices_S64x3x82x128_o0_2_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 25 inb_S1x27x1x80x80_S1x1x1x80x80_0_25_0_0_0 ![0, 2, 2, 1] slices_S64x3x82x128_o0_2_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 24 inb_S1x27x1x80x80_S1x1x1x80x80_0_24_0_0_0 ![0, 2, 2, 0] slices_S64x3x82x128_o0_2_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 23 inb_S1x27x1x80x80_S1x1x1x80x80_0_23_0_0_0 ![0, 2, 1, 2] slices_S64x3x82x128_o0_2_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 22 inb_S1x27x1x80x80_S1x1x1x80x80_0_22_0_0_0 ![0, 2, 1, 1] slices_S64x3x82x128_o0_2_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 21 inb_S1x27x1x80x80_S1x1x1x80x80_0_21_0_0_0 ![0, 2, 1, 0] slices_S64x3x82x128_o0_2_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 20 inb_S1x27x1x80x80_S1x1x1x80x80_0_20_0_0_0 ![0, 2, 0, 2] slices_S64x3x82x128_o0_2_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 19 inb_S1x27x1x80x80_S1x1x1x80x80_0_19_0_0_0 ![0, 2, 0, 1] slices_S64x3x82x128_o0_2_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 18 inb_S1x27x1x80x80_S1x1x1x80x80_0_18_0_0_0 ![0, 2, 0, 0] slices_S64x3x82x128_o0_2_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 17 inb_S1x27x1x80x80_S1x1x1x80x80_0_17_0_0_0 ![0, 1, 2, 2] slices_S64x3x82x128_o0_1_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 16 inb_S1x27x1x80x80_S1x1x1x80x80_0_16_0_0_0 ![0, 1, 2, 1] slices_S64x3x82x128_o0_1_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 15 inb_S1x27x1x80x80_S1x1x1x80x80_0_15_0_0_0 ![0, 1, 2, 0] slices_S64x3x82x128_o0_1_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 14 inb_S1x27x1x80x80_S1x1x1x80x80_0_14_0_0_0 ![0, 1, 1, 2] slices_S64x3x82x128_o0_1_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 13 inb_S1x27x1x80x80_S1x1x1x80x80_0_13_0_0_0 ![0, 1, 1, 1] slices_S64x3x82x128_o0_1_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 12 inb_S1x27x1x80x80_S1x1x1x80x80_0_12_0_0_0 ![0, 1, 1, 0] slices_S64x3x82x128_o0_1_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 11 inb_S1x27x1x80x80_S1x1x1x80x80_0_11_0_0_0 ![0, 1, 0, 2] slices_S64x3x82x128_o0_1_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 10 inb_S1x27x1x80x80_S1x1x1x80x80_0_10_0_0_0 ![0, 1, 0, 1] slices_S64x3x82x128_o0_1_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 9 inb_S1x27x1x80x80_S1x1x1x80x80_0_9_0_0_0 ![0, 1, 0, 0] slices_S64x3x82x128_o0_1_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 8 inb_S1x27x1x80x80_S1x1x1x80x80_0_8_0_0_0 ![0, 0, 2, 2] slices_S64x3x82x128_o0_0_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 7 inb_S1x27x1x80x80_S1x1x1x80x80_0_7_0_0_0 ![0, 0, 2, 1] slices_S64x3x82x128_o0_0_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 6 inb_S1x27x1x80x80_S1x1x1x80x80_0_6_0_0_0 ![0, 0, 2, 0] slices_S64x3x82x128_o0_0_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 5 inb_S1x27x1x80x80_S1x1x1x80x80_0_5_0_0_0 ![0, 0, 1, 2] slices_S64x3x82x128_o0_0_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 4 inb_S1x27x1x80x80_S1x1x1x80x80_0_4_0_0_0 ![0, 0, 1, 1] slices_S64x3x82x128_o0_0_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 3 inb_S1x27x1x80x80_S1x1x1x80x80_0_3_0_0_0 ![0, 0, 1, 0] slices_S64x3x82x128_o0_0_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 2 inb_S1x27x1x80x80_S1x1x1x80x80_0_2_0_0_0 ![0, 0, 0, 2] slices_S64x3x82x128_o0_0_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 1 inb_S1x27x1x80x80_S1x1x1x80x80_0_1_0_0_0 ![0, 0, 0, 1] slices_S64x3x82x128_o0_0_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 0 inb_S1x27x1x80x80_S1x1x1x80x80_0_0_0_0_0 ![0, 0, 0, 0] slices_S64x3x82x128_o0_0_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
set_option maxHeartbeats 4000000 in
theorem out_eq_last (hc0 : ¬isFirst (grid0.coords t)) (hc1 : ¬hasNext (grid0.coords t)) :
    outLast c t a2 h2 a4 h4 hc0 hc1 x0 W = blockVal x0 (k0_pay3 (slotRaw c t W)) := by
  unfold outLast
  rw [View.read_writes_eq_canon _ _ _ (coverLast c t a2 h2 a4 h4 hc0 hc1 x0 W)]
  funext y
  refine View.canon_apply_of_pieces (blockVal x0 (k0_pay3 (slotRaw c t W))) _ ?_ y (coverLast c t a2 h2 a4 h4 hc0 hc1 x0 W y)
  unfold runLast
  dsimp only
  sl_unfold_words
  rw [xraw_eq a2 h2 x0]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact fun x => piece_agree 26 inb_S1x27x1x80x80_S1x1x1x80x80_0_26_0_0_0 ![0, 2, 2, 2] slices_S64x3x82x128_o0_2_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 25 inb_S1x27x1x80x80_S1x1x1x80x80_0_25_0_0_0 ![0, 2, 2, 1] slices_S64x3x82x128_o0_2_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 24 inb_S1x27x1x80x80_S1x1x1x80x80_0_24_0_0_0 ![0, 2, 2, 0] slices_S64x3x82x128_o0_2_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 23 inb_S1x27x1x80x80_S1x1x1x80x80_0_23_0_0_0 ![0, 2, 1, 2] slices_S64x3x82x128_o0_2_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 22 inb_S1x27x1x80x80_S1x1x1x80x80_0_22_0_0_0 ![0, 2, 1, 1] slices_S64x3x82x128_o0_2_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 21 inb_S1x27x1x80x80_S1x1x1x80x80_0_21_0_0_0 ![0, 2, 1, 0] slices_S64x3x82x128_o0_2_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 20 inb_S1x27x1x80x80_S1x1x1x80x80_0_20_0_0_0 ![0, 2, 0, 2] slices_S64x3x82x128_o0_2_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 19 inb_S1x27x1x80x80_S1x1x1x80x80_0_19_0_0_0 ![0, 2, 0, 1] slices_S64x3x82x128_o0_2_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 18 inb_S1x27x1x80x80_S1x1x1x80x80_0_18_0_0_0 ![0, 2, 0, 0] slices_S64x3x82x128_o0_2_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 17 inb_S1x27x1x80x80_S1x1x1x80x80_0_17_0_0_0 ![0, 1, 2, 2] slices_S64x3x82x128_o0_1_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 16 inb_S1x27x1x80x80_S1x1x1x80x80_0_16_0_0_0 ![0, 1, 2, 1] slices_S64x3x82x128_o0_1_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 15 inb_S1x27x1x80x80_S1x1x1x80x80_0_15_0_0_0 ![0, 1, 2, 0] slices_S64x3x82x128_o0_1_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 14 inb_S1x27x1x80x80_S1x1x1x80x80_0_14_0_0_0 ![0, 1, 1, 2] slices_S64x3x82x128_o0_1_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 13 inb_S1x27x1x80x80_S1x1x1x80x80_0_13_0_0_0 ![0, 1, 1, 1] slices_S64x3x82x128_o0_1_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 12 inb_S1x27x1x80x80_S1x1x1x80x80_0_12_0_0_0 ![0, 1, 1, 0] slices_S64x3x82x128_o0_1_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 11 inb_S1x27x1x80x80_S1x1x1x80x80_0_11_0_0_0 ![0, 1, 0, 2] slices_S64x3x82x128_o0_1_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 10 inb_S1x27x1x80x80_S1x1x1x80x80_0_10_0_0_0 ![0, 1, 0, 1] slices_S64x3x82x128_o0_1_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 9 inb_S1x27x1x80x80_S1x1x1x80x80_0_9_0_0_0 ![0, 1, 0, 0] slices_S64x3x82x128_o0_1_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 8 inb_S1x27x1x80x80_S1x1x1x80x80_0_8_0_0_0 ![0, 0, 2, 2] slices_S64x3x82x128_o0_0_2_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 7 inb_S1x27x1x80x80_S1x1x1x80x80_0_7_0_0_0 ![0, 0, 2, 1] slices_S64x3x82x128_o0_0_2_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 6 inb_S1x27x1x80x80_S1x1x1x80x80_0_6_0_0_0 ![0, 0, 2, 0] slices_S64x3x82x128_o0_0_2_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 5 inb_S1x27x1x80x80_S1x1x1x80x80_0_5_0_0_0 ![0, 0, 1, 2] slices_S64x3x82x128_o0_0_1_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 4 inb_S1x27x1x80x80_S1x1x1x80x80_0_4_0_0_0 ![0, 0, 1, 1] slices_S64x3x82x128_o0_0_1_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 3 inb_S1x27x1x80x80_S1x1x1x80x80_0_3_0_0_0 ![0, 0, 1, 0] slices_S64x3x82x128_o0_0_1_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 2 inb_S1x27x1x80x80_S1x1x1x80x80_0_2_0_0_0 ![0, 0, 0, 2] slices_S64x3x82x128_o0_0_0_2_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 1 inb_S1x27x1x80x80_S1x1x1x80x80_0_1_0_0_0 ![0, 0, 0, 1] slices_S64x3x82x128_o0_0_0_1_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
  · exact fun x => piece_agree 0 inb_S1x27x1x80x80_S1x1x1x80x80_0_0_0_0_0 ![0, 0, 0, 0] slices_S64x3x82x128_o0_0_0_0_S64x1x80x80 reduces_S64x1x80x80_S1x80x80 shapeCasts_S1x80x80_S1x1x1x80x80 shapeCasts_S1x64x1x80x80_S64x1x80x80 x0 (k0_pay3 (slotRaw c t W)) (Ideal.ofBits .f32 0x3E000000#32) rfl rfl x
end Cases

/-! ## The padded array, the blocks' places, and the output array -/

variable (m : (ℓ : Loc nD τ sig) → Buf (Elt Ideal) ℓ)

/-- What the output array is shown to hold. -/
abbrev kval (c : Dev nD) : S2x27x80x80x80.Idx → EReal :=
  corr (m ((c : Thread nD τ).loc main_arg0)) (m ((c : Thread nD τ).loc main_arg1)) zPad scale

/-- The array the transfers read is the host's padding of the second argument. -/
theorem V_pad (c : Dev nD) : (V m c main_v0 : S2x64x82x82x128.Idx → EReal)
    = pad S2x64x82x82x128 ![0, 0, 1, 1, 1] ![0, 0, 1, 1, 47] ![0, 0, 0, 0, 0] (m ((c : Thread nD τ).loc main_arg1))
        (sitofp (F := Ideal) .f32 (constantI S_ 32 0#32)) pads_S2x64x80x80x80_S2x64x82x82x128_000_000_110_110_1470 h_S_ := by
  dsimp only [V]
  simp only [hostOps0, hostOps0_1, List.flatten_cons, List.flatten_nil, List.append_nil, List.cons_append, List.nil_append]
  after_results
  rfl

theorem V_pad_apply (c : Dev nD) (j : S2x64x82x82x128.Idx) :
    (V m c main_v0 : S2x64x82x82x128.Idx → EReal) j = ypad (m ((c : Thread nD τ).loc main_arg1)) zPad (j 0) (j 1) (j 2).val (j 3).val (j 4).val := by
  rw [V_pad]
  exact pad128_apply _ _ _ _ j

/-- Where the two windows' blocks sit: batch t / 80, depth t % 80. -/
theorem place0 : ∀ t : Fin grid0.N, ∀ a : Fin 5, win0_0.index t a * win0_0.size a = (![t.val / 80, 0, t.val % 80, 0, 0] : Fin 5 → ℕ) a := by decide +kernel
theorem place1 : ∀ t : Fin grid0.N, ∀ a : Fin 5, win0_1.index t a * win0_1.size a = (![t.val / 80, 0, t.val % 80, 0, 0] : Fin 5 → ℕ) a := by decide +kernel
theorem extent1 : ∀ t : Fin grid0.N, ∀ a : Fin 5, win0_1.xsize (grid0.coords t) a = (![1, 27, 1, 80, 80] : Fin 5 → ℕ) a := by decide +kernel

theorem emb0_eq (t : Fin cfg0.N) (x : ((cfg0.win 0).xblock (cfg0.grid.coords t)).Idx) (a : Fin 5) :
    (((cfg0.win 0).blk t).view.emb x a).val = (![t.val / 80, 0, t.val % 80, 0, 0] : Fin 5 → Nat) a + (x a).val := by
  show (cfg0.win 0).index t a * (cfg0.win 0).size a + 1 * (x a).val = _
  rw [show (cfg0.win 0).index t a * (cfg0.win 0).size a = _ from place0 t a]; omega
theorem emb1_eq (t : Fin cfg0.N) (x : ((cfg0.win 1).xblock (cfg0.grid.coords t)).Idx) (a : Fin 5) :
    (((cfg0.win 1).blk t).view.emb x a).val = (![t.val / 80, 0, t.val % 80, 0, 0] : Fin 5 → Nat) a + (x a).val := by
  show (cfg0.win 1).index t a * (cfg0.win 1).size a + 1 * (x a).val = _
  rw [show (cfg0.win 1).index t a * (cfg0.win 1).size a = _ from place1 t a]; omega

/-- The output block after point t, whatever its case. -/
theorem outsAt_eq (c : Dev nD) (t : Fin cfg0.N) :
    outsAt m c t.val t.isLt = blockVal (iblk m c 0 t) (winVal c t (V m c main_v0)) := by
  rw [← sv_eq c t (V m c main_v0)]
  by_cases h0 : t.val % 80 = 0
  · have h1 : t.val % 80 < 79 := by omega
    rw [outsAt_first m c t h0 h1]; exact out_eq_first c t _ _ _ _ _ _ _ _
  · by_cases h1 : t.val % 80 < 79
    · rw [outsAt_inner m c t h0 h1]; exact out_eq_inner c t _ _ _ _ _ _ _ _
    · rw [outsAt_last m c t h0 h1]; exact out_eq_last c t _ _ _ _ _ _ _ _

/-- What point t writes back is the correlation volume read through the point's block of the output array. -/
theorem flushed_eq (c : Dev nD) (t : Fin cfg0.N) :
    (dats m 0 c).flushed 1 t = ((cfg0.win 1).blk t).view.read (Elt Ideal) (kval m c) := by
  show (cfg0.win 1).cut (grid0.coords t) ((dats m 0 c).after 1 t) = _
  rw [after_o, outsAt_eq]
  funext x
  have ht : t.val < 160 := lt_of_lt_of_eq t.isLt (show cfg0.N = 160 from N_0)
  have hx0 : (x 0).val < 1 := (x 0).isLt
  have hx1 : (x 1).val < 27 := (x 1).isLt
  have hx2 : (x 2).val < 1 := (x 2).isLt
  have hx3 : (x 3).val < 80 := (x 3).isLt
  have hx4 : (x 4).val < 80 := (x 4).isLt
  have e1 := emb1_eq t x
  show blockVal (iblk m c 0 t) (winVal c t (V m c main_v0)) x = kval m c (((cfg0.win 1).blk t).view.emb x)
  unfold blockVal kval corr
  refine congrArg (· * _) (Finset.sum_congr rfl fun ch _ => ?_)
  refine congr (congrArg _ ?_) ?_
  · show V m c (Pipeline.arrRef spec0 0) (((cfg0.win 0).blk t).view.emb (ix5 0 ch 0 (x 3) (x 4))) = _
    refine (congrFun (V_main_arg0 m c) _).trans (congrArg _ (funext fun a => Fin.ext ?_))
    rw [emb0_eq]
    match a with
    | ⟨0, _⟩ => show t.val / 80 + 0 = _; rw [e1 0]; show _ = t.val / 80 + (x 0).val; omega
    | ⟨1, _⟩ => show 0 + ch.val = ch.val; omega
    | ⟨2, _⟩ => show t.val % 80 + 0 = _; rw [e1 2]; show _ = t.val % 80 + (x 2).val; omega
    | ⟨3, _⟩ => show 0 + (x 3).val = _; rw [e1 3]; show _ = 0 + (x 3).val; rfl
    | ⟨4, _⟩ => show 0 + (x 4).val = _; rw [e1 4]; show _ = 0 + (x 4).val; rfl
  · unfold winVal
    rw [V_pad_apply]
    have h0 : ((((cfg0.win 1).blk t).view.emb x) 0).val = t.val / 80 + (x 0).val := e1 0
    have h1 : ((((cfg0.win 1).blk t).view.emb x) 1).val = 0 + (x 1).val := e1 1
    have h2 : ((((cfg0.win 1).blk t).view.emb x) 2).val = t.val % 80 + (x 2).val := e1 2
    have h3 : ((((cfg0.win 1).blk t).view.emb x) 3).val = 0 + (x 3).val := e1 3
    have h4 : ((((cfg0.win 1).blk t).view.emb x) 4).val = 0 + (x 4).val := e1 4
    refine ypad_congr _ _ (Fin.ext ?_) rfl ?_ ?_ ?_
    · show t.val / 80 = _; rw [h0]; omega
    · show t.val % 80 + (x 1).val / 9 = _; rw [h2, h1]; omega
    · show (x 1).val / 3 % 3 + (x 3).val = _; rw [h3, h1]; omega
    · show (x 1).val % 3 + (x 4).val = _; rw [h4, h1]; omega

/-! ## The blocks cover the output array -/

theorem mem_blk (t : Fin cfg0.N) (i : S2x27x80x80x80.Idx) :
    i ∈ ((cfg0.win 1).blk t).view.set ↔ (i 0 : Nat) = t.val / 80 ∧ (i 2 : Nat) = t.val % 80 := by
  show i ∈ ((View.whole main_v1).slice (win0_1.rect t)).set ↔ _
  rw [View.set_slice_whole, Rect.mem_set_unit]
  have h1 : (i 1 : Nat) < 27 := (i 1).isLt
  have h3 : (i 3 : Nat) < 80 := (i 3).isLt
  have h4 : (i 4 : Nat) < 80 := (i 4).isLt
  have p := place1 t
  have e := extent1 t
  refine ⟨fun h => ?_, fun h a => ?_⟩
  · have a0 := h 0; have a2 := h 2
    rw [show win0_1.index t 0 * win0_1.size 0 = _ from p 0, show win0_1.xsize (grid0.coords t) 0 = _ from e 0] at a0
    rw [show win0_1.index t 2 * win0_1.size 2 = _ from p 2, show win0_1.xsize (grid0.coords t) 2 = _ from e 2] at a2
    have b0 : t.val / 80 ≤ (i 0 : Nat) ∧ (i 0 : Nat) < t.val / 80 + 1 := a0
    have b2 : t.val % 80 ≤ (i 2 : Nat) ∧ (i 2 : Nat) < t.val % 80 + 1 := a2
    omega
  · show win0_1.index t a * win0_1.size a ≤ (i a : Nat) ∧ (i a : Nat) < win0_1.index t a * win0_1.size a + win0_1.xsize (grid0.coords t) a
    rw [p a, e a]
    match a with
    | ⟨0, _⟩ => show t.val / 80 ≤ (i 0 : Nat) ∧ (i 0 : Nat) < t.val / 80 + 1; omega
    | ⟨1, _⟩ => show 0 ≤ (i 1 : Nat) ∧ (i 1 : Nat) < 0 + 27; omega
    | ⟨2, _⟩ => show t.val % 80 ≤ (i 2 : Nat) ∧ (i 2 : Nat) < t.val % 80 + 1; omega
    | ⟨3, _⟩ => show 0 ≤ (i 3 : Nat) ∧ (i 3 : Nat) < 0 + 80; omega
    | ⟨4, _⟩ => show 0 ≤ (i 4 : Nat) ∧ (i 4 : Nat) < 0 + 80; omega

theorem cover (i : S2x27x80x80x80.Idx) :
    ∃ t : Fin cfg0.N, (cfg0.win 1).flush t = true ∧ i ∈ ((cfg0.win 1).blk t).view.set := by
  have h0 : (i 0 : Nat) < 2 := (i 0).isLt
  have h2 : (i 2 : Nat) < 80 := (i 2).isLt
  have hN : cfg0.N = 160 := N_0
  refine ⟨⟨80 * (i 0 : Nat) + (i 2 : Nat), by omega⟩, flush0_1 _, ?_⟩
  rw [mem_blk]
  show (i 0 : Nat) = (80 * (i 0 : Nat) + (i 2 : Nat)) / 80 ∧ (i 2 : Nat) = (80 * (i 0 : Nat) + (i 2 : Nat)) % 80
  omega

/-- The output array after the run is the correlation volume of the two arguments. -/
theorem final_out (c : Dev nD) : (dats m 0 c).arrAt 1 cfg0.N = kval m c :=
  (dats m 0 c).arrAt_eq_of_cover 1 (kval m c) (fun t _ => flushed_eq m c t) cover

/-- The kernel's run with its result named. -/
theorem run_value (ρ : Dev nD → PrngReg) :
    θ_run defs (onTc (τ := τ) (main (F := Ideal))) ⟨m, fun _ => 0, ρ⟩ (fun r => ∀ c : Dev nD,
      r.2.mem ((c.tc : Thread nD τ).loc main_v1) = kval m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.CorrValue

end
-- ==== Proof.RefRun.lean ====
/-
  The reference program as the list of its operations, in order, and what its buffers hold once they have run.

  The program pads the second argument by one on the three spatial axes; for each of the 27 offsets (dz, dy, dx) it
  slices the padded array at the offset, multiplies by the first argument, and sums over the channel axis; it gives
  each of the 27 sums a unit axis, joins them along that axis (16 members, then 11, then the two joins), and multiplies
  by the scale. The list is cut into three windows where the printed program is cut, so that the program is the
  windows run one after the other; for reading it is cut into the padding, the 27 sums (in two stretches), the
  27 unit-axis casts (in two stretches) and the join. Each stretch is read from ANY contents it starts at: what it
  leaves in a buffer it writes, as a function of the contents of the buffers it reads; and that it leaves the
  arguments (and, for the sums, the padded array) alone.
-/
import proofs.«155575_j81647328297400_2_alg».proof.Proof.Gen.ReferenceIdeal
import Idealize.ShloMosaic.Lib.StableHlo.Run

set_option maxRecDepth 16384

noncomputable section

namespace Cert.ReferenceIdeal.CorrRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The padding: the integer zero, its conversion to a float, the pad. -/
abbrev opsPre : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S2x64x80x80x80, .f32⟩) main_call0.v0 main_call0.v1 (fun x v => pad S2x64x82x82x82 ![0, 0, 1, 1, 1] ![0, 0, 1, 1, 1] ![0, 0, 0, 0, 0] x v pads_S2x64x80x80x80_S2x64x82x82x82_000_000_110_110_110 h_S_) ]
/-- The sums of offsets 0 … 13 and the slice and product of offset 14. -/
abbrev midA : List (HloOp τ sig (Elt F)) :=
  [ StableHlo.unary main_v0 main_v1 ((extractStridedSlice S2x64x80x80x80 ![0, 0, 0, 0, 0] · slices_S2x64x82x82x82_S2x64x80x80x80_0_0_0_0_0) : (⟨S2x64x82x82x82, .f32⟩ : BufTy).Contents (Elt F) → (⟨S2x64x80x80x80, .f32⟩ : BufTy).Contents (Elt F)),
    StableHlo.binary main_arg0 main_v1 main_v2 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst (constant S_ .f32 0x00000000#32),
    StableHlo.binary main_v2 main_cst main_v3 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v4 ((extractStridedSlice S2x64x80x80x80 ![0, 0, 0, 0, 1] · slices_S2x64x82x82x82_S2x64x80x80x80_0_0_0_0_1) : (⟨S2x64x82x82x82, .f32⟩ : BufTy).Contents (Elt F) → (⟨S2x64x80x80x80, .f32⟩ : BufTy).Contents (Elt F)),
    StableHlo.binary main_arg0 main_v4 main_v5 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_0 (constant S_ .f32 0x00000000#32),
    StableHlo.binary main_v5 main_cst_0 main_v6 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v7 ((extractStridedSlice S2x64x80x80x80 ![0, 0, 0, 0, 2] · slices_S2x64x82x82x82_S2x64x80x80x80_0_0_0_0_2) : (⟨S2x64x82x82x82, .f32⟩ : BufTy).Contents (Elt F) → (⟨S2x64x80x80x80, .f32⟩ : BufTy).Contents (Elt F)),
    StableHlo.binary main_arg0 main_v7 main_v8 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_1 (constant S_ .f32 0x00000000#32),
    StableHlo.binary main_v8 main_cst_1 main_v9 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v10 ((extractStridedSlice S2x64x80x80x80 ![0, 0, 0, 1, 0] · slices_S2x64x82x82x82_S2x64x80x80x80_0_0_0_1_0) : (⟨S2x64x82x82x82, .f32⟩ : BufTy).Contents (Elt F) → (⟨S2x64x80x80x80, .f32⟩ : BufTy).Contents (Elt F)),
    StableHlo.binary main_arg0 main_v10 main_v11 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_2 (constant S_ .f32 0x00000000#32),
    StableHlo.binary main_v11 main_cst_2 main_v12 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v13 ((extractStridedSlice S2x64x80x80x80 ![0, 0, 0, 1, 1] · slices_S2x64x82x82x82_S2x64x80x80x80_0_0_0_1_1) : (⟨S2x64x82x82x82, .f32⟩ : BufTy).Contents (Elt F) → (⟨S2x64x80x80x80, .f32⟩ : BufTy).Contents (Elt F)),
    StableHlo.binary main_arg0 main_v13 main_v14 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_3 (constant S_ .f32 0x00000000#32),
    StableHlo.binary main_v14 main_cst_3 main_v15 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v16 ((extractStridedSlice S2x64x80x80x80 ![0, 0, 0, 1, 2] · slices_S2x64x82x82x82_S2x64x80x80x80_0_0_0_1_2) : (⟨S2x64x82x82x82, .f32⟩ : BufTy).Contents (Elt F) → (⟨S2x64x80x80x80, .f32⟩ : BufTy).Contents (Elt F)),
    StableHlo.binary main_arg0 main_v16 main_v17 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_4 (constant S_ .f32 0x00000000#32),
    StableHlo.binary main_v17 main_cst_4 main_v18 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v19 ((extractStridedSlice S2x64x80x80x80 ![0, 0, 0, 2, 0] · slices_S2x64x82x82x82_S2x64x80x80x80_0_0_0_2_0) : (⟨S2x64x82x82x82, .f32⟩ : BufTy).Contents (Elt F) → (⟨S2x64x80x80x80, .f32⟩ : BufTy).Contents (Elt F)),
    StableHlo.binary main_arg0 main_v19 main_v20 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_5 (constant S_ .f32 0x00000000#32),
    StableHlo.binary main_v20 main_cst_5 main_v21 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v22 ((extractStridedSlice S2x64x80x80x80 ![0, 0, 0, 2, 1] · slices_S2x64x82x82x82_S2x64x80x80x80_0_0_0_2_1) : (⟨S2x64x82x82x82, .f32⟩ : BufTy).Contents (Elt F) → (⟨S2x64x80x80x80, .f32⟩ : BufTy).Contents (Elt F)),
    StableHlo.binary main_arg0 main_v22 main_v23 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_6 (constant S_ .f32 0x00000000#32),
    StableHlo.binary main_v23 main_cst_6 main_v24 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v25 ((extractStridedSlice S2x64x80x80x80 ![0, 0, 0, 2, 2] · slices_S2x64x82x82x82_S2x64x80x80x80_0_0_0_2_2) : (⟨S2x64x82x82x82, .f32⟩ : BufTy).Contents (Elt F) → (⟨S2x64x80x80x80, .f32⟩ : BufTy).Contents (Elt F)),
    StableHlo.binary main_arg0 main_v25 main_v26 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_7 (constant S_ .f32 0x00000000#32),
    StableHlo.binary main_v26 main_cst_7 main_v27 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v28 ((extractStridedSlice S2x64x80x80x80 ![0, 0, 1, 0, 0] · slices_S2x64x82x82x82_S2x64x80x80x80_0_0_1_0_0) : (⟨S2x64x82x82x82, .f32⟩ : BufTy).Contents (Elt F) → (⟨S2x64x80x80x80, .f32⟩ : BufTy).Contents (Elt F)),
    StableHlo.binary main_arg0 main_v28 main_v29 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_8 (constant S_ .f32 0x00000000#32),
    StableHlo.binary main_v29 main_cst_8 main_v30 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v31 ((extractStridedSlice S2x64x80x80x80 ![0, 0, 1, 0, 1] · slices_S2x64x82x82x82_S2x64x80x80x80_0_0_1_0_1) : (⟨S2x64x82x82x82, .f32⟩ : BufTy).Contents (Elt F) → (⟨S2x64x80x80x80, .f32⟩ : BufTy).Contents (Elt F)),
    StableHlo.binary main_arg0 main_v31 main_v32 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_9 (constant S_ .f32 0x00000000#32),
    StableHlo.binary main_v32 main_cst_9 main_v33 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v34 ((extractStridedSlice S2x64x80x80x80 ![0, 0, 1, 0, 2] · slices_S2x64x82x82x82_S2x64x80x80x80_0_0_1_0_2) : (⟨S2x64x82x82x82, .f32⟩ : BufTy).Contents (Elt F) → (⟨S2x64x80x80x80, .f32⟩ : BufTy).Contents (Elt F)),
    StableHlo.binary main_arg0 main_v34 main_v35 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_10 (constant S_ .f32 0x00000000#32),
    StableHlo.binary main_v35 main_cst_10 main_v36 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v37 ((extractStridedSlice S2x64x80x80x80 ![0, 0, 1, 1, 0] · slices_S2x64x82x82x82_S2x64x80x80x80_0_0_1_1_0) : (⟨S2x64x82x82x82, .f32⟩ : BufTy).Contents (Elt F) → (⟨S2x64x80x80x80, .f32⟩ : BufTy).Contents (Elt F)),
    StableHlo.binary main_arg0 main_v37 main_v38 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_11 (constant S_ .f32 0x00000000#32),
    StableHlo.binary main_v38 main_cst_11 main_v39 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v40 ((extractStridedSlice S2x64x80x80x80 ![0, 0, 1, 1, 1] · slices_S2x64x82x82x82_S2x64x80x80x80_0_0_1_1_1) : (⟨S2x64x82x82x82, .f32⟩ : BufTy).Contents (Elt F) → (⟨S2x64x80x80x80, .f32⟩ : BufTy).Contents (Elt F)),
    StableHlo.binary main_arg0 main_v40 main_v41 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_12 (constant S_ .f32 0x00000000#32),
    StableHlo.binary main_v41 main_cst_12 main_v42 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v43 ((extractStridedSlice S2x64x80x80x80 ![0, 0, 1, 1, 2] · slices_S2x64x82x82x82_S2x64x80x80x80_0_0_1_1_2) : (⟨S2x64x82x82x82, .f32⟩ : BufTy).Contents (Elt F) → (⟨S2x64x80x80x80, .f32⟩ : BufTy).Contents (Elt F)),
    StableHlo.binary main_arg0 main_v43 main_v44 (mulf : (⟨S2x64x80x80x80, .f32⟩ : BufTy).Contents (Elt F) → (⟨S2x64x80x80x80, .f32⟩ : BufTy).Contents (Elt F) → (⟨S2x64x80x80x80, .f32⟩ : BufTy).Contents (Elt F)) ]
/-- The sum of offset 14 and the sums of offsets 15 … 26. -/
abbrev midB : List (HloOp τ sig (Elt F)) :=
  [ StableHlo.nullary main_cst_13 (constant S_ .f32 0x00000000#32),
    StableHlo.binary main_v44 main_cst_13 main_v45 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v46 ((extractStridedSlice S2x64x80x80x80 ![0, 0, 1, 2, 0] · slices_S2x64x82x82x82_S2x64x80x80x80_0_0_1_2_0) : (⟨S2x64x82x82x82, .f32⟩ : BufTy).Contents (Elt F) → (⟨S2x64x80x80x80, .f32⟩ : BufTy).Contents (Elt F)),
    StableHlo.binary main_arg0 main_v46 main_v47 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_14 (constant S_ .f32 0x00000000#32),
    StableHlo.binary main_v47 main_cst_14 main_v48 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v49 ((extractStridedSlice S2x64x80x80x80 ![0, 0, 1, 2, 1] · slices_S2x64x82x82x82_S2x64x80x80x80_0_0_1_2_1) : (⟨S2x64x82x82x82, .f32⟩ : BufTy).Contents (Elt F) → (⟨S2x64x80x80x80, .f32⟩ : BufTy).Contents (Elt F)),
    StableHlo.binary main_arg0 main_v49 main_v50 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_15 (constant S_ .f32 0x00000000#32),
    StableHlo.binary main_v50 main_cst_15 main_v51 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v52 ((extractStridedSlice S2x64x80x80x80 ![0, 0, 1, 2, 2] · slices_S2x64x82x82x82_S2x64x80x80x80_0_0_1_2_2) : (⟨S2x64x82x82x82, .f32⟩ : BufTy).Contents (Elt F) → (⟨S2x64x80x80x80, .f32⟩ : BufTy).Contents (Elt F)),
    StableHlo.binary main_arg0 main_v52 main_v53 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_16 (constant S_ .f32 0x00000000#32),
    StableHlo.binary main_v53 main_cst_16 main_v54 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v55 ((extractStridedSlice S2x64x80x80x80 ![0, 0, 2, 0, 0] · slices_S2x64x82x82x82_S2x64x80x80x80_0_0_2_0_0) : (⟨S2x64x82x82x82, .f32⟩ : BufTy).Contents (Elt F) → (⟨S2x64x80x80x80, .f32⟩ : BufTy).Contents (Elt F)),
    StableHlo.binary main_arg0 main_v55 main_v56 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_17 (constant S_ .f32 0x00000000#32),
    StableHlo.binary main_v56 main_cst_17 main_v57 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v58 ((extractStridedSlice S2x64x80x80x80 ![0, 0, 2, 0, 1] · slices_S2x64x82x82x82_S2x64x80x80x80_0_0_2_0_1) : (⟨S2x64x82x82x82, .f32⟩ : BufTy).Contents (Elt F) → (⟨S2x64x80x80x80, .f32⟩ : BufTy).Contents (Elt F)),
    StableHlo.binary main_arg0 main_v58 main_v59 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_18 (constant S_ .f32 0x00000000#32),
    StableHlo.binary main_v59 main_cst_18 main_v60 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v61 ((extractStridedSlice S2x64x80x80x80 ![0, 0, 2, 0, 2] · slices_S2x64x82x82x82_S2x64x80x80x80_0_0_2_0_2) : (⟨S2x64x82x82x82, .f32⟩ : BufTy).Contents (Elt F) → (⟨S2x64x80x80x80, .f32⟩ : BufTy).Contents (Elt F)),
    StableHlo.binary main_arg0 main_v61 main_v62 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_19 (constant S_ .f32 0x00000000#32),
    StableHlo.binary main_v62 main_cst_19 main_v63 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v64 ((extractStridedSlice S2x64x80x80x80 ![0, 0, 2, 1, 0] · slices_S2x64x82x82x82_S2x64x80x80x80_0_0_2_1_0) : (⟨S2x64x82x82x82, .f32⟩ : BufTy).Contents (Elt F) → (⟨S2x64x80x80x80, .f32⟩ : BufTy).Contents (Elt F)),
    StableHlo.binary main_arg0 main_v64 main_v65 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_20 (constant S_ .f32 0x00000000#32),
    StableHlo.binary main_v65 main_cst_20 main_v66 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v67 ((extractStridedSlice S2x64x80x80x80 ![0, 0, 2, 1, 1] · slices_S2x64x82x82x82_S2x64x80x80x80_0_0_2_1_1) : (⟨S2x64x82x82x82, .f32⟩ : BufTy).Contents (Elt F) → (⟨S2x64x80x80x80, .f32⟩ : BufTy).Contents (Elt F)),
    StableHlo.binary main_arg0 main_v67 main_v68 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_21 (constant S_ .f32 0x00000000#32),
    StableHlo.binary main_v68 main_cst_21 main_v69 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v70 ((extractStridedSlice S2x64x80x80x80 ![0, 0, 2, 1, 2] · slices_S2x64x82x82x82_S2x64x80x80x80_0_0_2_1_2) : (⟨S2x64x82x82x82, .f32⟩ : BufTy).Contents (Elt F) → (⟨S2x64x80x80x80, .f32⟩ : BufTy).Contents (Elt F)),
    StableHlo.binary main_arg0 main_v70 main_v71 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_22 (constant S_ .f32 0x00000000#32),
    StableHlo.binary main_v71 main_cst_22 main_v72 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v73 ((extractStridedSlice S2x64x80x80x80 ![0, 0, 2, 2, 0] · slices_S2x64x82x82x82_S2x64x80x80x80_0_0_2_2_0) : (⟨S2x64x82x82x82, .f32⟩ : BufTy).Contents (Elt F) → (⟨S2x64x80x80x80, .f32⟩ : BufTy).Contents (Elt F)),
    StableHlo.binary main_arg0 main_v73 main_v74 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_23 (constant S_ .f32 0x00000000#32),
    StableHlo.binary main_v74 main_cst_23 main_v75 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v76 ((extractStridedSlice S2x64x80x80x80 ![0, 0, 2, 2, 1] · slices_S2x64x82x82x82_S2x64x80x80x80_0_0_2_2_1) : (⟨S2x64x82x82x82, .f32⟩ : BufTy).Contents (Elt F) → (⟨S2x64x80x80x80, .f32⟩ : BufTy).Contents (Elt F)),
    StableHlo.binary main_arg0 main_v76 main_v77 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_24 (constant S_ .f32 0x00000000#32),
    StableHlo.binary main_v77 main_cst_24 main_v78 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v79 ((extractStridedSlice S2x64x80x80x80 ![0, 0, 2, 2, 2] · slices_S2x64x82x82x82_S2x64x80x80x80_0_0_2_2_2) : (⟨S2x64x82x82x82, .f32⟩ : BufTy).Contents (Elt F) → (⟨S2x64x80x80x80, .f32⟩ : BufTy).Contents (Elt F)),
    StableHlo.binary main_arg0 main_v79 main_v80 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_25 (constant S_ .f32 0x00000000#32),
    StableHlo.binary main_v80 main_cst_25 main_v81 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)) ]
/-- The unit-axis casts of sums 0 … 9, and of sums 10 … 26. -/
abbrev castA : List (HloOp τ sig (Elt F)) :=
  [ StableHlo.unary main_v3 main_v82 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v6 main_v83 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v9 main_v84 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v12 main_v85 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v15 main_v86 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v18 main_v87 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v21 main_v88 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v24 main_v89 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v27 main_v90 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v30 main_v91 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)) ]
abbrev castB : List (HloOp τ sig (Elt F)) :=
  [ StableHlo.unary main_v33 main_v92 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v36 main_v93 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v39 main_v94 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v42 main_v95 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v45 main_v96 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v48 main_v97 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v51 main_v98 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v54 main_v99 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v57 main_v100 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v60 main_v101 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v63 main_v102 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v66 main_v103 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v69 main_v104 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v72 main_v105 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v75 main_v106 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v78 main_v107 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v81 main_v108 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)) ]
/-- The joins and the scaling. -/
abbrev opsTail : List (HloOp τ sig (Elt F)) :=
  [ StableHlo.nary ![main_v82, main_v83, main_v84, main_v85, main_v86, main_v87, main_v88, main_v89, main_v90, main_v91, main_v92, main_v93, main_v94, main_v95, main_v96, main_v97] main_v109 (fun u => concatenate S2x16x80x80x80 1 [⟨S2x1x80x80x80, u 0⟩, ⟨S2x1x80x80x80, u 1⟩, ⟨S2x1x80x80x80, u 2⟩, ⟨S2x1x80x80x80, u 3⟩, ⟨S2x1x80x80x80, u 4⟩, ⟨S2x1x80x80x80, u 5⟩, ⟨S2x1x80x80x80, u 6⟩, ⟨S2x1x80x80x80, u 7⟩, ⟨S2x1x80x80x80, u 8⟩, ⟨S2x1x80x80x80, u 9⟩, ⟨S2x1x80x80x80, u 10⟩, ⟨S2x1x80x80x80, u 11⟩, ⟨S2x1x80x80x80, u 12⟩, ⟨S2x1x80x80x80, u 13⟩, ⟨S2x1x80x80x80, u 14⟩, ⟨S2x1x80x80x80, u 15⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x16x80x80x80_d1),
    StableHlo.nary ![main_v98, main_v99, main_v100, main_v101, main_v102, main_v103, main_v104, main_v105, main_v106, main_v107, main_v108] main_v110 (fun u => concatenate S2x11x80x80x80 1 [⟨S2x1x80x80x80, u 0⟩, ⟨S2x1x80x80x80, u 1⟩, ⟨S2x1x80x80x80, u 2⟩, ⟨S2x1x80x80x80, u 3⟩, ⟨S2x1x80x80x80, u 4⟩, ⟨S2x1x80x80x80, u 5⟩, ⟨S2x1x80x80x80, u 6⟩, ⟨S2x1x80x80x80, u 7⟩, ⟨S2x1x80x80x80, u 8⟩, ⟨S2x1x80x80x80, u 9⟩, ⟨S2x1x80x80x80, u 10⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x11x80x80x80_d1),
    StableHlo.binary main_v109 main_v110 main_v111 ((fun a b => concatenate S2x27x80x80x80 1 [⟨S2x16x80x80x80, a⟩, ⟨S2x11x80x80x80, b⟩] concatenates_S2x16x80x80x80_S2x11x80x80x80_S2x27x80x80x80_d1) : (⟨S2x16x80x80x80, .f32⟩ : BufTy).Contents (Elt F) → (⟨S2x11x80x80x80, .f32⟩ : BufTy).Contents (Elt F) → (⟨S2x27x80x80x80, .f32⟩ : BufTy).Contents (Elt F)),
    StableHlo.nullary main_cst_26 (constant S_ .f32 0x3E000000#32),
    StableHlo.unary main_cst_26 main_v112 (broadcastInDim S2x27x80x80x80 ![] bcast_S_S2x27x80x80x80 : (⟨S_, .f32⟩ : BufTy).Contents (Elt F) → (⟨S2x27x80x80x80, .f32⟩ : BufTy).Contents (Elt F)),
    StableHlo.binary main_v111 main_v112 main_v113 (mulf : (⟨S2x27x80x80x80, .f32⟩ : BufTy).Contents (Elt F) → (⟨S2x27x80x80x80, .f32⟩ : BufTy).Contents (Elt F) → (⟨S2x27x80x80x80, .f32⟩ : BufTy).Contents (Elt F)) ]
/-- The three windows of the printed program. -/
abbrev W0 : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S2x64x80x80x80, .f32⟩) main_call0.v0 main_call0.v1 (fun x v => pad S2x64x82x82x82 ![0, 0, 1, 1, 1] ![0, 0, 1, 1, 1] ![0, 0, 0, 0, 0] x v pads_S2x64x80x80x80_S2x64x82x82x82_000_000_110_110_110 h_S_),
    StableHlo.unary main_v0 main_v1 ((extractStridedSlice S2x64x80x80x80 ![0, 0, 0, 0, 0] · slices_S2x64x82x82x82_S2x64x80x80x80_0_0_0_0_0) : (⟨S2x64x82x82x82, .f32⟩ : BufTy).Contents (Elt F) → (⟨S2x64x80x80x80, .f32⟩ : BufTy).Contents (Elt F)),
    StableHlo.binary main_arg0 main_v1 main_v2 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst (constant S_ .f32 0x00000000#32),
    StableHlo.binary main_v2 main_cst main_v3 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v4 ((extractStridedSlice S2x64x80x80x80 ![0, 0, 0, 0, 1] · slices_S2x64x82x82x82_S2x64x80x80x80_0_0_0_0_1) : (⟨S2x64x82x82x82, .f32⟩ : BufTy).Contents (Elt F) → (⟨S2x64x80x80x80, .f32⟩ : BufTy).Contents (Elt F)),
    StableHlo.binary main_arg0 main_v4 main_v5 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_0 (constant S_ .f32 0x00000000#32),
    StableHlo.binary main_v5 main_cst_0 main_v6 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v7 ((extractStridedSlice S2x64x80x80x80 ![0, 0, 0, 0, 2] · slices_S2x64x82x82x82_S2x64x80x80x80_0_0_0_0_2) : (⟨S2x64x82x82x82, .f32⟩ : BufTy).Contents (Elt F) → (⟨S2x64x80x80x80, .f32⟩ : BufTy).Contents (Elt F)),
    StableHlo.binary main_arg0 main_v7 main_v8 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_1 (constant S_ .f32 0x00000000#32),
    StableHlo.binary main_v8 main_cst_1 main_v9 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v10 ((extractStridedSlice S2x64x80x80x80 ![0, 0, 0, 1, 0] · slices_S2x64x82x82x82_S2x64x80x80x80_0_0_0_1_0) : (⟨S2x64x82x82x82, .f32⟩ : BufTy).Contents (Elt F) → (⟨S2x64x80x80x80, .f32⟩ : BufTy).Contents (Elt F)),
    StableHlo.binary main_arg0 main_v10 main_v11 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_2 (constant S_ .f32 0x00000000#32),
    StableHlo.binary main_v11 main_cst_2 main_v12 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v13 ((extractStridedSlice S2x64x80x80x80 ![0, 0, 0, 1, 1] · slices_S2x64x82x82x82_S2x64x80x80x80_0_0_0_1_1) : (⟨S2x64x82x82x82, .f32⟩ : BufTy).Contents (Elt F) → (⟨S2x64x80x80x80, .f32⟩ : BufTy).Contents (Elt F)),
    StableHlo.binary main_arg0 main_v13 main_v14 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_3 (constant S_ .f32 0x00000000#32),
    StableHlo.binary main_v14 main_cst_3 main_v15 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v16 ((extractStridedSlice S2x64x80x80x80 ![0, 0, 0, 1, 2] · slices_S2x64x82x82x82_S2x64x80x80x80_0_0_0_1_2) : (⟨S2x64x82x82x82, .f32⟩ : BufTy).Contents (Elt F) → (⟨S2x64x80x80x80, .f32⟩ : BufTy).Contents (Elt F)),
    StableHlo.binary main_arg0 main_v16 main_v17 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_4 (constant S_ .f32 0x00000000#32),
    StableHlo.binary main_v17 main_cst_4 main_v18 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v19 ((extractStridedSlice S2x64x80x80x80 ![0, 0, 0, 2, 0] · slices_S2x64x82x82x82_S2x64x80x80x80_0_0_0_2_0) : (⟨S2x64x82x82x82, .f32⟩ : BufTy).Contents (Elt F) → (⟨S2x64x80x80x80, .f32⟩ : BufTy).Contents (Elt F)),
    StableHlo.binary main_arg0 main_v19 main_v20 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_5 (constant S_ .f32 0x00000000#32),
    StableHlo.binary main_v20 main_cst_5 main_v21 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v22 ((extractStridedSlice S2x64x80x80x80 ![0, 0, 0, 2, 1] · slices_S2x64x82x82x82_S2x64x80x80x80_0_0_0_2_1) : (⟨S2x64x82x82x82, .f32⟩ : BufTy).Contents (Elt F) → (⟨S2x64x80x80x80, .f32⟩ : BufTy).Contents (Elt F)),
    StableHlo.binary main_arg0 main_v22 main_v23 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_6 (constant S_ .f32 0x00000000#32),
    StableHlo.binary main_v23 main_cst_6 main_v24 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v25 ((extractStridedSlice S2x64x80x80x80 ![0, 0, 0, 2, 2] · slices_S2x64x82x82x82_S2x64x80x80x80_0_0_0_2_2) : (⟨S2x64x82x82x82, .f32⟩ : BufTy).Contents (Elt F) → (⟨S2x64x80x80x80, .f32⟩ : BufTy).Contents (Elt F)),
    StableHlo.binary main_arg0 main_v25 main_v26 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_7 (constant S_ .f32 0x00000000#32),
    StableHlo.binary main_v26 main_cst_7 main_v27 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v28 ((extractStridedSlice S2x64x80x80x80 ![0, 0, 1, 0, 0] · slices_S2x64x82x82x82_S2x64x80x80x80_0_0_1_0_0) : (⟨S2x64x82x82x82, .f32⟩ : BufTy).Contents (Elt F) → (⟨S2x64x80x80x80, .f32⟩ : BufTy).Contents (Elt F)),
    StableHlo.binary main_arg0 main_v28 main_v29 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_8 (constant S_ .f32 0x00000000#32),
    StableHlo.binary main_v29 main_cst_8 main_v30 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v31 ((extractStridedSlice S2x64x80x80x80 ![0, 0, 1, 0, 1] · slices_S2x64x82x82x82_S2x64x80x80x80_0_0_1_0_1) : (⟨S2x64x82x82x82, .f32⟩ : BufTy).Contents (Elt F) → (⟨S2x64x80x80x80, .f32⟩ : BufTy).Contents (Elt F)),
    StableHlo.binary main_arg0 main_v31 main_v32 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_9 (constant S_ .f32 0x00000000#32),
    StableHlo.binary main_v32 main_cst_9 main_v33 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v34 ((extractStridedSlice S2x64x80x80x80 ![0, 0, 1, 0, 2] · slices_S2x64x82x82x82_S2x64x80x80x80_0_0_1_0_2) : (⟨S2x64x82x82x82, .f32⟩ : BufTy).Contents (Elt F) → (⟨S2x64x80x80x80, .f32⟩ : BufTy).Contents (Elt F)),
    StableHlo.binary main_arg0 main_v34 main_v35 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_10 (constant S_ .f32 0x00000000#32),
    StableHlo.binary main_v35 main_cst_10 main_v36 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v37 ((extractStridedSlice S2x64x80x80x80 ![0, 0, 1, 1, 0] · slices_S2x64x82x82x82_S2x64x80x80x80_0_0_1_1_0) : (⟨S2x64x82x82x82, .f32⟩ : BufTy).Contents (Elt F) → (⟨S2x64x80x80x80, .f32⟩ : BufTy).Contents (Elt F)),
    StableHlo.binary main_arg0 main_v37 main_v38 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_11 (constant S_ .f32 0x00000000#32),
    StableHlo.binary main_v38 main_cst_11 main_v39 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v40 ((extractStridedSlice S2x64x80x80x80 ![0, 0, 1, 1, 1] · slices_S2x64x82x82x82_S2x64x80x80x80_0_0_1_1_1) : (⟨S2x64x82x82x82, .f32⟩ : BufTy).Contents (Elt F) → (⟨S2x64x80x80x80, .f32⟩ : BufTy).Contents (Elt F)),
    StableHlo.binary main_arg0 main_v40 main_v41 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_12 (constant S_ .f32 0x00000000#32),
    StableHlo.binary main_v41 main_cst_12 main_v42 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v43 ((extractStridedSlice S2x64x80x80x80 ![0, 0, 1, 1, 2] · slices_S2x64x82x82x82_S2x64x80x80x80_0_0_1_1_2) : (⟨S2x64x82x82x82, .f32⟩ : BufTy).Contents (Elt F) → (⟨S2x64x80x80x80, .f32⟩ : BufTy).Contents (Elt F)),
    StableHlo.binary main_arg0 main_v43 main_v44 (mulf : (⟨S2x64x80x80x80, .f32⟩ : BufTy).Contents (Elt F) → (⟨S2x64x80x80x80, .f32⟩ : BufTy).Contents (Elt F) → (⟨S2x64x80x80x80, .f32⟩ : BufTy).Contents (Elt F)) ]
abbrev W1 : List (HloOp τ sig (Elt F)) :=
  [ StableHlo.nullary main_cst_13 (constant S_ .f32 0x00000000#32),
    StableHlo.binary main_v44 main_cst_13 main_v45 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v46 ((extractStridedSlice S2x64x80x80x80 ![0, 0, 1, 2, 0] · slices_S2x64x82x82x82_S2x64x80x80x80_0_0_1_2_0) : (⟨S2x64x82x82x82, .f32⟩ : BufTy).Contents (Elt F) → (⟨S2x64x80x80x80, .f32⟩ : BufTy).Contents (Elt F)),
    StableHlo.binary main_arg0 main_v46 main_v47 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_14 (constant S_ .f32 0x00000000#32),
    StableHlo.binary main_v47 main_cst_14 main_v48 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v49 ((extractStridedSlice S2x64x80x80x80 ![0, 0, 1, 2, 1] · slices_S2x64x82x82x82_S2x64x80x80x80_0_0_1_2_1) : (⟨S2x64x82x82x82, .f32⟩ : BufTy).Contents (Elt F) → (⟨S2x64x80x80x80, .f32⟩ : BufTy).Contents (Elt F)),
    StableHlo.binary main_arg0 main_v49 main_v50 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_15 (constant S_ .f32 0x00000000#32),
    StableHlo.binary main_v50 main_cst_15 main_v51 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v52 ((extractStridedSlice S2x64x80x80x80 ![0, 0, 1, 2, 2] · slices_S2x64x82x82x82_S2x64x80x80x80_0_0_1_2_2) : (⟨S2x64x82x82x82, .f32⟩ : BufTy).Contents (Elt F) → (⟨S2x64x80x80x80, .f32⟩ : BufTy).Contents (Elt F)),
    StableHlo.binary main_arg0 main_v52 main_v53 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_16 (constant S_ .f32 0x00000000#32),
    StableHlo.binary main_v53 main_cst_16 main_v54 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v55 ((extractStridedSlice S2x64x80x80x80 ![0, 0, 2, 0, 0] · slices_S2x64x82x82x82_S2x64x80x80x80_0_0_2_0_0) : (⟨S2x64x82x82x82, .f32⟩ : BufTy).Contents (Elt F) → (⟨S2x64x80x80x80, .f32⟩ : BufTy).Contents (Elt F)),
    StableHlo.binary main_arg0 main_v55 main_v56 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_17 (constant S_ .f32 0x00000000#32),
    StableHlo.binary main_v56 main_cst_17 main_v57 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v58 ((extractStridedSlice S2x64x80x80x80 ![0, 0, 2, 0, 1] · slices_S2x64x82x82x82_S2x64x80x80x80_0_0_2_0_1) : (⟨S2x64x82x82x82, .f32⟩ : BufTy).Contents (Elt F) → (⟨S2x64x80x80x80, .f32⟩ : BufTy).Contents (Elt F)),
    StableHlo.binary main_arg0 main_v58 main_v59 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_18 (constant S_ .f32 0x00000000#32),
    StableHlo.binary main_v59 main_cst_18 main_v60 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v61 ((extractStridedSlice S2x64x80x80x80 ![0, 0, 2, 0, 2] · slices_S2x64x82x82x82_S2x64x80x80x80_0_0_2_0_2) : (⟨S2x64x82x82x82, .f32⟩ : BufTy).Contents (Elt F) → (⟨S2x64x80x80x80, .f32⟩ : BufTy).Contents (Elt F)),
    StableHlo.binary main_arg0 main_v61 main_v62 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_19 (constant S_ .f32 0x00000000#32),
    StableHlo.binary main_v62 main_cst_19 main_v63 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v64 ((extractStridedSlice S2x64x80x80x80 ![0, 0, 2, 1, 0] · slices_S2x64x82x82x82_S2x64x80x80x80_0_0_2_1_0) : (⟨S2x64x82x82x82, .f32⟩ : BufTy).Contents (Elt F) → (⟨S2x64x80x80x80, .f32⟩ : BufTy).Contents (Elt F)),
    StableHlo.binary main_arg0 main_v64 main_v65 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_20 (constant S_ .f32 0x00000000#32),
    StableHlo.binary main_v65 main_cst_20 main_v66 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v67 ((extractStridedSlice S2x64x80x80x80 ![0, 0, 2, 1, 1] · slices_S2x64x82x82x82_S2x64x80x80x80_0_0_2_1_1) : (⟨S2x64x82x82x82, .f32⟩ : BufTy).Contents (Elt F) → (⟨S2x64x80x80x80, .f32⟩ : BufTy).Contents (Elt F)),
    StableHlo.binary main_arg0 main_v67 main_v68 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_21 (constant S_ .f32 0x00000000#32),
    StableHlo.binary main_v68 main_cst_21 main_v69 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v70 ((extractStridedSlice S2x64x80x80x80 ![0, 0, 2, 1, 2] · slices_S2x64x82x82x82_S2x64x80x80x80_0_0_2_1_2) : (⟨S2x64x82x82x82, .f32⟩ : BufTy).Contents (Elt F) → (⟨S2x64x80x80x80, .f32⟩ : BufTy).Contents (Elt F)),
    StableHlo.binary main_arg0 main_v70 main_v71 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_22 (constant S_ .f32 0x00000000#32),
    StableHlo.binary main_v71 main_cst_22 main_v72 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v73 ((extractStridedSlice S2x64x80x80x80 ![0, 0, 2, 2, 0] · slices_S2x64x82x82x82_S2x64x80x80x80_0_0_2_2_0) : (⟨S2x64x82x82x82, .f32⟩ : BufTy).Contents (Elt F) → (⟨S2x64x80x80x80, .f32⟩ : BufTy).Contents (Elt F)),
    StableHlo.binary main_arg0 main_v73 main_v74 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_23 (constant S_ .f32 0x00000000#32),
    StableHlo.binary main_v74 main_cst_23 main_v75 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v76 ((extractStridedSlice S2x64x80x80x80 ![0, 0, 2, 2, 1] · slices_S2x64x82x82x82_S2x64x80x80x80_0_0_2_2_1) : (⟨S2x64x82x82x82, .f32⟩ : BufTy).Contents (Elt F) → (⟨S2x64x80x80x80, .f32⟩ : BufTy).Contents (Elt F)),
    StableHlo.binary main_arg0 main_v76 main_v77 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_24 (constant S_ .f32 0x00000000#32),
    StableHlo.binary main_v77 main_cst_24 main_v78 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v0 main_v79 ((extractStridedSlice S2x64x80x80x80 ![0, 0, 2, 2, 2] · slices_S2x64x82x82x82_S2x64x80x80x80_0_0_2_2_2) : (⟨S2x64x82x82x82, .f32⟩ : BufTy).Contents (Elt F) → (⟨S2x64x80x80x80, .f32⟩ : BufTy).Contents (Elt F)),
    StableHlo.binary main_arg0 main_v79 main_v80 (mulf : (⟨S2x64x80x80x80, .f32⟩ : BufTy).Contents (Elt F) → (⟨S2x64x80x80x80, .f32⟩ : BufTy).Contents (Elt F) → (⟨S2x64x80x80x80, .f32⟩ : BufTy).Contents (Elt F)),
    StableHlo.nullary main_cst_25 (constant S_ .f32 0x00000000#32),
    StableHlo.binary main_v80 main_cst_25 main_v81 ((fun x v => Host.reduceAdd x v reducesTo_S2x64x80x80x80_S2x80x80x80_d1 h_S_) : (⟨S2x64x80x80x80, .f32⟩ : BufTy).Contents (Elt F) → (⟨S_, .f32⟩ : BufTy).Contents (Elt F) → (⟨S2x80x80x80, .f32⟩ : BufTy).Contents (Elt F)),
    StableHlo.unary main_v3 main_v82 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v6 main_v83 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v9 main_v84 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v12 main_v85 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v15 main_v86 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v18 main_v87 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v21 main_v88 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v24 main_v89 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v27 main_v90 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v30 main_v91 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)) ]
abbrev W2 : List (HloOp τ sig (Elt F)) :=
  [ StableHlo.unary main_v33 main_v92 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v36 main_v93 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v39 main_v94 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v42 main_v95 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v45 main_v96 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v48 main_v97 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v51 main_v98 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v54 main_v99 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v57 main_v100 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v60 main_v101 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v63 main_v102 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v66 main_v103 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v69 main_v104 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v72 main_v105 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v75 main_v106 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v78 main_v107 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.unary main_v81 main_v108 (broadcastInDim S2x1x80x80x80 ![0, 2, 3, 4] bcast_S2x80x80x80_S2x1x80x80x80_0_2_3_4 : (⟨S2x80x80x80, .f32⟩ : BufTy).Contents (Elt F) → (⟨S2x1x80x80x80, .f32⟩ : BufTy).Contents (Elt F)),
    StableHlo.nary ![main_v82, main_v83, main_v84, main_v85, main_v86, main_v87, main_v88, main_v89, main_v90, main_v91, main_v92, main_v93, main_v94, main_v95, main_v96, main_v97] main_v109 (fun u => concatenate S2x16x80x80x80 1 [⟨S2x1x80x80x80, u 0⟩, ⟨S2x1x80x80x80, u 1⟩, ⟨S2x1x80x80x80, u 2⟩, ⟨S2x1x80x80x80, u 3⟩, ⟨S2x1x80x80x80, u 4⟩, ⟨S2x1x80x80x80, u 5⟩, ⟨S2x1x80x80x80, u 6⟩, ⟨S2x1x80x80x80, u 7⟩, ⟨S2x1x80x80x80, u 8⟩, ⟨S2x1x80x80x80, u 9⟩, ⟨S2x1x80x80x80, u 10⟩, ⟨S2x1x80x80x80, u 11⟩, ⟨S2x1x80x80x80, u 12⟩, ⟨S2x1x80x80x80, u 13⟩, ⟨S2x1x80x80x80, u 14⟩, ⟨S2x1x80x80x80, u 15⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x16x80x80x80_d1),
    StableHlo.nary ![main_v98, main_v99, main_v100, main_v101, main_v102, main_v103, main_v104, main_v105, main_v106, main_v107, main_v108] main_v110 (fun u => concatenate S2x11x80x80x80 1 [⟨S2x1x80x80x80, u 0⟩, ⟨S2x1x80x80x80, u 1⟩, ⟨S2x1x80x80x80, u 2⟩, ⟨S2x1x80x80x80, u 3⟩, ⟨S2x1x80x80x80, u 4⟩, ⟨S2x1x80x80x80, u 5⟩, ⟨S2x1x80x80x80, u 6⟩, ⟨S2x1x80x80x80, u 7⟩, ⟨S2x1x80x80x80, u 8⟩, ⟨S2x1x80x80x80, u 9⟩, ⟨S2x1x80x80x80, u 10⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x11x80x80x80_d1),
    StableHlo.binary main_v109 main_v110 main_v111 ((fun a b => concatenate S2x27x80x80x80 1 [⟨S2x16x80x80x80, a⟩, ⟨S2x11x80x80x80, b⟩] concatenates_S2x16x80x80x80_S2x11x80x80x80_S2x27x80x80x80_d1) : (⟨S2x16x80x80x80, .f32⟩ : BufTy).Contents (Elt F) → (⟨S2x11x80x80x80, .f32⟩ : BufTy).Contents (Elt F) → (⟨S2x27x80x80x80, .f32⟩ : BufTy).Contents (Elt F)),
    StableHlo.nullary main_cst_26 (constant S_ .f32 0x3E000000#32),
    StableHlo.unary main_cst_26 main_v112 (broadcastInDim S2x27x80x80x80 ![] bcast_S_S2x27x80x80x80 : (⟨S_, .f32⟩ : BufTy).Contents (Elt F) → (⟨S2x27x80x80x80, .f32⟩ : BufTy).Contents (Elt F)),
    StableHlo.binary main_v111 main_v112 main_v113 (mulf : (⟨S2x27x80x80x80, .f32⟩ : BufTy).Contents (Elt F) → (⟨S2x27x80x80x80, .f32⟩ : BufTy).Contents (Elt F) → (⟨S2x27x80x80x80, .f32⟩ : BufTy).Contents (Elt F)) ]
abbrev ops : List (HloOp τ sig (Elt F)) := W0 ++ (W1 ++ W2)

theorem W0_split : (W0 : List (HloOp τ sig (Elt F))) = opsPre ++ midA := rfl
theorem W1_split : (W1 : List (HloOp τ sig (Elt F))) = midB ++ castA := rfl
theorem W2_split : (W2 : List (HloOp τ sig (Elt F))) = castB ++ opsTail := rfl

/-! ## The program is the windows in order -/

set_option maxHeartbeats 4000000 in
theorem part0_eq (c : Dev nD) : main_part0 (F := F) c = seq W0 := rfl
set_option maxHeartbeats 4000000 in
theorem part1_eq (c : Dev nD) : main_part1 (F := F) c = seq W1 := rfl
set_option maxHeartbeats 4000000 in
theorem part2_eq (c : Dev nD) : main_part2 (F := F) c = seq W2 := rfl

theorem main_eq (c : Dev nD) : main (F := F) c = seq ops := by
  have h : main (F := F) c = (main_part0 c >>= fun _ => (main_part1 c >>= fun _ => main_part2 c)) := rfl
  rw [h, part0_eq, part1_eq, part2_eq]
  exact ((seq_append _ _).trans (congrArg _ (funext fun _ => seq_append _ _))).symm

theorem scopedRefs_eq : (Finset.univ.filter fun b : Ref sig .tc => b.isScoped) = ∅ := by decide
theorem scopedSems_eq : (Finset.univ.filter fun sm : SemLoc sig => sm.isScoped .tc) = ∅ := by decide

theorem forall_append {α : Type _} {p : α → Prop} {l₁ l₂ : List α} (h₁ : l₁.Forall p) (h₂ : l₂.Forall p) : (l₁ ++ l₂).Forall p :=
  List.forall_iff_forall_mem.mpr fun a ha => by
    rcases List.mem_append.mp ha with h | h
    · exact List.forall_iff_forall_mem.mp h₁ a h
    · exact List.forall_iff_forall_mem.mp h₂ a h

theorem W0_sub : (W0 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub ..⟩
theorem W1_sub : (W1 : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem W2_sub : (W2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., nullary_bufs_sub .., unary_bufs_sub .., binary_bufs_sub ..⟩
theorem ops_sub : (ops : List (HloOp τ sig (Elt F))).Forall fun op => op.bufs ⊆ tcRefs τ sig :=
  forall_append W0_sub (forall_append W1_sub W2_sub)

theorem W0_fresh : ∀ op ∈ (W0 : List (HloOp τ sig (Elt F))), op.fresh = ∅ := by
  intro _ h; (repeat (cases h with | head => rfl | tail _ h => ?_)); exact nomatch h
theorem W1_fresh : ∀ op ∈ (W1 : List (HloOp τ sig (Elt F))), op.fresh = ∅ := by
  intro _ h; (repeat (cases h with | head => rfl | tail _ h => ?_)); exact nomatch h
theorem W2_fresh : ∀ op ∈ (W2 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h => by
  rcases List.mem_append.mp h with h | h
  · exact W0_fresh op h
  · rcases List.mem_append.mp h with h | h
    · exact W1_fresh op h
    · exact W2_fresh op h

/-! ## Reading a line stretch by stretch -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) :
    after ops V = after opsTail (after castB (after castA (after midB (after midA (after opsPre V))))) := by
  show after (W0 ++ (W1 ++ W2)) V = _
  rw [W0_split, W1_split, W2_split]
  simp only [after_append]

/-- One offset's sum: the first argument times the padded array's slice at the offset, summed over channels from zero. -/
def rowSum (off : Fin 5 → ℕ) (hs : S2x64x82x82x82.Slices off S2x64x80x80x80)
    (X : (⟨S2x64x80x80x80, .f32⟩ : BufTy).Contents (Elt F)) (P : (⟨S2x64x82x82x82, .f32⟩ : BufTy).Contents (Elt F)) :
    (⟨S2x80x80x80, .f32⟩ : BufTy).Contents (Elt F) :=
  Host.reduceAdd (mulf X (extractStridedSlice S2x64x80x80x80 off P hs)) (constant S_ .f32 0x00000000#32) reducesTo_S2x64x80x80x80_S2x80x80x80_d1 h_S_

theorem pad_result (V : Valuation τ sig (Elt F)) :
    after opsPre V (Proc.devRef .tc main_v0) = pad S2x64x82x82x82 ![0, 0, 1, 1, 1] ![0, 0, 1, 1, 1] ![0, 0, 0, 0, 0] (V (Proc.devRef .tc main_arg1)) (sitofp .f32 (constantI S_ 32 0#32)) pads_S2x64x80x80x80_S2x64x82x82x82_000_000_110_110_110 h_S_ := by
  after_results_simp
  rfl

theorem keep_opsPre_main_arg0 (V : Valuation τ sig (Elt F)) : after opsPre V (Proc.devRef .tc main_arg0) = V (Proc.devRef .tc main_arg0) := by after_results_simp
theorem keep_opsPre_main_arg1 (V : Valuation τ sig (Elt F)) : after opsPre V (Proc.devRef .tc main_arg1) = V (Proc.devRef .tc main_arg1) := by after_results_simp
theorem keep_midA_main_arg0 (V : Valuation τ sig (Elt F)) : after midA V (Proc.devRef .tc main_arg0) = V (Proc.devRef .tc main_arg0) := by after_results_simp
theorem keep_midA_main_arg1 (V : Valuation τ sig (Elt F)) : after midA V (Proc.devRef .tc main_arg1) = V (Proc.devRef .tc main_arg1) := by after_results_simp
theorem keep_midB_main_arg0 (V : Valuation τ sig (Elt F)) : after midB V (Proc.devRef .tc main_arg0) = V (Proc.devRef .tc main_arg0) := by after_results_simp
theorem keep_midB_main_arg1 (V : Valuation τ sig (Elt F)) : after midB V (Proc.devRef .tc main_arg1) = V (Proc.devRef .tc main_arg1) := by after_results_simp
theorem keep_castA_main_arg0 (V : Valuation τ sig (Elt F)) : after castA V (Proc.devRef .tc main_arg0) = V (Proc.devRef .tc main_arg0) := by after_results_simp
theorem keep_castA_main_arg1 (V : Valuation τ sig (Elt F)) : after castA V (Proc.devRef .tc main_arg1) = V (Proc.devRef .tc main_arg1) := by after_results_simp
theorem keep_castB_main_arg0 (V : Valuation τ sig (Elt F)) : after castB V (Proc.devRef .tc main_arg0) = V (Proc.devRef .tc main_arg0) := by after_results_simp
theorem keep_castB_main_arg1 (V : Valuation τ sig (Elt F)) : after castB V (Proc.devRef .tc main_arg1) = V (Proc.devRef .tc main_arg1) := by after_results_simp
theorem keep_opsTail_main_arg0 (V : Valuation τ sig (Elt F)) : after opsTail V (Proc.devRef .tc main_arg0) = V (Proc.devRef .tc main_arg0) := by after_results_simp
theorem keep_opsTail_main_arg1 (V : Valuation τ sig (Elt F)) : after opsTail V (Proc.devRef .tc main_arg1) = V (Proc.devRef .tc main_arg1) := by after_results_simp
theorem keep_midA_v0 (V : Valuation τ sig (Elt F)) : after midA V (Proc.devRef .tc main_v0) = V (Proc.devRef .tc main_v0) := by after_results_simp
theorem keep_midB_v0 (V : Valuation τ sig (Elt F)) : after midB V (Proc.devRef .tc main_v0) = V (Proc.devRef .tc main_v0) := by after_results_simp

theorem sum_row0 (K : Valuation τ sig (Elt F)) :
    after midB (after midA K) (Proc.devRef .tc main_v3) = rowSum ![0, 0, 0, 0, 0] slices_S2x64x82x82x82_S2x64x80x80x80_0_0_0_0_0 (K (Proc.devRef .tc main_arg0)) (K (Proc.devRef .tc main_v0)) := by
  unfold rowSum; after_results_simp
theorem cast_row0 (H : Valuation τ sig (Elt F)) :
    after castB (after castA H) (Proc.devRef .tc main_v82) = broadcastInDim S2x1x80x80x80 ![0, 2, 3, 4] bcast_S2x80x80x80_S2x1x80x80x80_0_2_3_4 (H (Proc.devRef .tc main_v3)) := by
  after_results_simp

theorem sum_row1 (K : Valuation τ sig (Elt F)) :
    after midB (after midA K) (Proc.devRef .tc main_v6) = rowSum ![0, 0, 0, 0, 1] slices_S2x64x82x82x82_S2x64x80x80x80_0_0_0_0_1 (K (Proc.devRef .tc main_arg0)) (K (Proc.devRef .tc main_v0)) := by
  unfold rowSum; after_results_simp
theorem cast_row1 (H : Valuation τ sig (Elt F)) :
    after castB (after castA H) (Proc.devRef .tc main_v83) = broadcastInDim S2x1x80x80x80 ![0, 2, 3, 4] bcast_S2x80x80x80_S2x1x80x80x80_0_2_3_4 (H (Proc.devRef .tc main_v6)) := by
  after_results_simp

theorem sum_row2 (K : Valuation τ sig (Elt F)) :
    after midB (after midA K) (Proc.devRef .tc main_v9) = rowSum ![0, 0, 0, 0, 2] slices_S2x64x82x82x82_S2x64x80x80x80_0_0_0_0_2 (K (Proc.devRef .tc main_arg0)) (K (Proc.devRef .tc main_v0)) := by
  unfold rowSum; after_results_simp
theorem cast_row2 (H : Valuation τ sig (Elt F)) :
    after castB (after castA H) (Proc.devRef .tc main_v84) = broadcastInDim S2x1x80x80x80 ![0, 2, 3, 4] bcast_S2x80x80x80_S2x1x80x80x80_0_2_3_4 (H (Proc.devRef .tc main_v9)) := by
  after_results_simp

theorem sum_row3 (K : Valuation τ sig (Elt F)) :
    after midB (after midA K) (Proc.devRef .tc main_v12) = rowSum ![0, 0, 0, 1, 0] slices_S2x64x82x82x82_S2x64x80x80x80_0_0_0_1_0 (K (Proc.devRef .tc main_arg0)) (K (Proc.devRef .tc main_v0)) := by
  unfold rowSum; after_results_simp
theorem cast_row3 (H : Valuation τ sig (Elt F)) :
    after castB (after castA H) (Proc.devRef .tc main_v85) = broadcastInDim S2x1x80x80x80 ![0, 2, 3, 4] bcast_S2x80x80x80_S2x1x80x80x80_0_2_3_4 (H (Proc.devRef .tc main_v12)) := by
  after_results_simp

theorem sum_row4 (K : Valuation τ sig (Elt F)) :
    after midB (after midA K) (Proc.devRef .tc main_v15) = rowSum ![0, 0, 0, 1, 1] slices_S2x64x82x82x82_S2x64x80x80x80_0_0_0_1_1 (K (Proc.devRef .tc main_arg0)) (K (Proc.devRef .tc main_v0)) := by
  unfold rowSum; after_results_simp
theorem cast_row4 (H : Valuation τ sig (Elt F)) :
    after castB (after castA H) (Proc.devRef .tc main_v86) = broadcastInDim S2x1x80x80x80 ![0, 2, 3, 4] bcast_S2x80x80x80_S2x1x80x80x80_0_2_3_4 (H (Proc.devRef .tc main_v15)) := by
  after_results_simp

theorem sum_row5 (K : Valuation τ sig (Elt F)) :
    after midB (after midA K) (Proc.devRef .tc main_v18) = rowSum ![0, 0, 0, 1, 2] slices_S2x64x82x82x82_S2x64x80x80x80_0_0_0_1_2 (K (Proc.devRef .tc main_arg0)) (K (Proc.devRef .tc main_v0)) := by
  unfold rowSum; after_results_simp
theorem cast_row5 (H : Valuation τ sig (Elt F)) :
    after castB (after castA H) (Proc.devRef .tc main_v87) = broadcastInDim S2x1x80x80x80 ![0, 2, 3, 4] bcast_S2x80x80x80_S2x1x80x80x80_0_2_3_4 (H (Proc.devRef .tc main_v18)) := by
  after_results_simp

theorem sum_row6 (K : Valuation τ sig (Elt F)) :
    after midB (after midA K) (Proc.devRef .tc main_v21) = rowSum ![0, 0, 0, 2, 0] slices_S2x64x82x82x82_S2x64x80x80x80_0_0_0_2_0 (K (Proc.devRef .tc main_arg0)) (K (Proc.devRef .tc main_v0)) := by
  unfold rowSum; after_results_simp
theorem cast_row6 (H : Valuation τ sig (Elt F)) :
    after castB (after castA H) (Proc.devRef .tc main_v88) = broadcastInDim S2x1x80x80x80 ![0, 2, 3, 4] bcast_S2x80x80x80_S2x1x80x80x80_0_2_3_4 (H (Proc.devRef .tc main_v21)) := by
  after_results_simp

theorem sum_row7 (K : Valuation τ sig (Elt F)) :
    after midB (after midA K) (Proc.devRef .tc main_v24) = rowSum ![0, 0, 0, 2, 1] slices_S2x64x82x82x82_S2x64x80x80x80_0_0_0_2_1 (K (Proc.devRef .tc main_arg0)) (K (Proc.devRef .tc main_v0)) := by
  unfold rowSum; after_results_simp
theorem cast_row7 (H : Valuation τ sig (Elt F)) :
    after castB (after castA H) (Proc.devRef .tc main_v89) = broadcastInDim S2x1x80x80x80 ![0, 2, 3, 4] bcast_S2x80x80x80_S2x1x80x80x80_0_2_3_4 (H (Proc.devRef .tc main_v24)) := by
  after_results_simp

theorem sum_row8 (K : Valuation τ sig (Elt F)) :
    after midB (after midA K) (Proc.devRef .tc main_v27) = rowSum ![0, 0, 0, 2, 2] slices_S2x64x82x82x82_S2x64x80x80x80_0_0_0_2_2 (K (Proc.devRef .tc main_arg0)) (K (Proc.devRef .tc main_v0)) := by
  unfold rowSum; after_results_simp
theorem cast_row8 (H : Valuation τ sig (Elt F)) :
    after castB (after castA H) (Proc.devRef .tc main_v90) = broadcastInDim S2x1x80x80x80 ![0, 2, 3, 4] bcast_S2x80x80x80_S2x1x80x80x80_0_2_3_4 (H (Proc.devRef .tc main_v27)) := by
  after_results_simp

theorem sum_row9 (K : Valuation τ sig (Elt F)) :
    after midB (after midA K) (Proc.devRef .tc main_v30) = rowSum ![0, 0, 1, 0, 0] slices_S2x64x82x82x82_S2x64x80x80x80_0_0_1_0_0 (K (Proc.devRef .tc main_arg0)) (K (Proc.devRef .tc main_v0)) := by
  unfold rowSum; after_results_simp
theorem cast_row9 (H : Valuation τ sig (Elt F)) :
    after castB (after castA H) (Proc.devRef .tc main_v91) = broadcastInDim S2x1x80x80x80 ![0, 2, 3, 4] bcast_S2x80x80x80_S2x1x80x80x80_0_2_3_4 (H (Proc.devRef .tc main_v30)) := by
  after_results_simp

theorem sum_row10 (K : Valuation τ sig (Elt F)) :
    after midB (after midA K) (Proc.devRef .tc main_v33) = rowSum ![0, 0, 1, 0, 1] slices_S2x64x82x82x82_S2x64x80x80x80_0_0_1_0_1 (K (Proc.devRef .tc main_arg0)) (K (Proc.devRef .tc main_v0)) := by
  unfold rowSum; after_results_simp
theorem cast_row10 (H : Valuation τ sig (Elt F)) :
    after castB (after castA H) (Proc.devRef .tc main_v92) = broadcastInDim S2x1x80x80x80 ![0, 2, 3, 4] bcast_S2x80x80x80_S2x1x80x80x80_0_2_3_4 (H (Proc.devRef .tc main_v33)) := by
  after_results_simp

theorem sum_row11 (K : Valuation τ sig (Elt F)) :
    after midB (after midA K) (Proc.devRef .tc main_v36) = rowSum ![0, 0, 1, 0, 2] slices_S2x64x82x82x82_S2x64x80x80x80_0_0_1_0_2 (K (Proc.devRef .tc main_arg0)) (K (Proc.devRef .tc main_v0)) := by
  unfold rowSum; after_results_simp
theorem cast_row11 (H : Valuation τ sig (Elt F)) :
    after castB (after castA H) (Proc.devRef .tc main_v93) = broadcastInDim S2x1x80x80x80 ![0, 2, 3, 4] bcast_S2x80x80x80_S2x1x80x80x80_0_2_3_4 (H (Proc.devRef .tc main_v36)) := by
  after_results_simp

theorem sum_row12 (K : Valuation τ sig (Elt F)) :
    after midB (after midA K) (Proc.devRef .tc main_v39) = rowSum ![0, 0, 1, 1, 0] slices_S2x64x82x82x82_S2x64x80x80x80_0_0_1_1_0 (K (Proc.devRef .tc main_arg0)) (K (Proc.devRef .tc main_v0)) := by
  unfold rowSum; after_results_simp
theorem cast_row12 (H : Valuation τ sig (Elt F)) :
    after castB (after castA H) (Proc.devRef .tc main_v94) = broadcastInDim S2x1x80x80x80 ![0, 2, 3, 4] bcast_S2x80x80x80_S2x1x80x80x80_0_2_3_4 (H (Proc.devRef .tc main_v39)) := by
  after_results_simp

theorem sum_row13 (K : Valuation τ sig (Elt F)) :
    after midB (after midA K) (Proc.devRef .tc main_v42) = rowSum ![0, 0, 1, 1, 1] slices_S2x64x82x82x82_S2x64x80x80x80_0_0_1_1_1 (K (Proc.devRef .tc main_arg0)) (K (Proc.devRef .tc main_v0)) := by
  unfold rowSum; after_results_simp
theorem cast_row13 (H : Valuation τ sig (Elt F)) :
    after castB (after castA H) (Proc.devRef .tc main_v95) = broadcastInDim S2x1x80x80x80 ![0, 2, 3, 4] bcast_S2x80x80x80_S2x1x80x80x80_0_2_3_4 (H (Proc.devRef .tc main_v42)) := by
  after_results_simp

theorem sum_row14 (K : Valuation τ sig (Elt F)) :
    after midB (after midA K) (Proc.devRef .tc main_v45) = rowSum ![0, 0, 1, 1, 2] slices_S2x64x82x82x82_S2x64x80x80x80_0_0_1_1_2 (K (Proc.devRef .tc main_arg0)) (K (Proc.devRef .tc main_v0)) := by
  unfold rowSum; after_results_simp
theorem cast_row14 (H : Valuation τ sig (Elt F)) :
    after castB (after castA H) (Proc.devRef .tc main_v96) = broadcastInDim S2x1x80x80x80 ![0, 2, 3, 4] bcast_S2x80x80x80_S2x1x80x80x80_0_2_3_4 (H (Proc.devRef .tc main_v45)) := by
  after_results_simp

theorem sum_row15 (K : Valuation τ sig (Elt F)) :
    after midB (after midA K) (Proc.devRef .tc main_v48) = rowSum ![0, 0, 1, 2, 0] slices_S2x64x82x82x82_S2x64x80x80x80_0_0_1_2_0 (K (Proc.devRef .tc main_arg0)) (K (Proc.devRef .tc main_v0)) := by
  unfold rowSum; after_results_simp
theorem cast_row15 (H : Valuation τ sig (Elt F)) :
    after castB (after castA H) (Proc.devRef .tc main_v97) = broadcastInDim S2x1x80x80x80 ![0, 2, 3, 4] bcast_S2x80x80x80_S2x1x80x80x80_0_2_3_4 (H (Proc.devRef .tc main_v48)) := by
  after_results_simp

theorem sum_row16 (K : Valuation τ sig (Elt F)) :
    after midB (after midA K) (Proc.devRef .tc main_v51) = rowSum ![0, 0, 1, 2, 1] slices_S2x64x82x82x82_S2x64x80x80x80_0_0_1_2_1 (K (Proc.devRef .tc main_arg0)) (K (Proc.devRef .tc main_v0)) := by
  unfold rowSum; after_results_simp
theorem cast_row16 (H : Valuation τ sig (Elt F)) :
    after castB (after castA H) (Proc.devRef .tc main_v98) = broadcastInDim S2x1x80x80x80 ![0, 2, 3, 4] bcast_S2x80x80x80_S2x1x80x80x80_0_2_3_4 (H (Proc.devRef .tc main_v51)) := by
  after_results_simp

theorem sum_row17 (K : Valuation τ sig (Elt F)) :
    after midB (after midA K) (Proc.devRef .tc main_v54) = rowSum ![0, 0, 1, 2, 2] slices_S2x64x82x82x82_S2x64x80x80x80_0_0_1_2_2 (K (Proc.devRef .tc main_arg0)) (K (Proc.devRef .tc main_v0)) := by
  unfold rowSum; after_results_simp
theorem cast_row17 (H : Valuation τ sig (Elt F)) :
    after castB (after castA H) (Proc.devRef .tc main_v99) = broadcastInDim S2x1x80x80x80 ![0, 2, 3, 4] bcast_S2x80x80x80_S2x1x80x80x80_0_2_3_4 (H (Proc.devRef .tc main_v54)) := by
  after_results_simp

theorem sum_row18 (K : Valuation τ sig (Elt F)) :
    after midB (after midA K) (Proc.devRef .tc main_v57) = rowSum ![0, 0, 2, 0, 0] slices_S2x64x82x82x82_S2x64x80x80x80_0_0_2_0_0 (K (Proc.devRef .tc main_arg0)) (K (Proc.devRef .tc main_v0)) := by
  unfold rowSum; after_results_simp
theorem cast_row18 (H : Valuation τ sig (Elt F)) :
    after castB (after castA H) (Proc.devRef .tc main_v100) = broadcastInDim S2x1x80x80x80 ![0, 2, 3, 4] bcast_S2x80x80x80_S2x1x80x80x80_0_2_3_4 (H (Proc.devRef .tc main_v57)) := by
  after_results_simp

theorem sum_row19 (K : Valuation τ sig (Elt F)) :
    after midB (after midA K) (Proc.devRef .tc main_v60) = rowSum ![0, 0, 2, 0, 1] slices_S2x64x82x82x82_S2x64x80x80x80_0_0_2_0_1 (K (Proc.devRef .tc main_arg0)) (K (Proc.devRef .tc main_v0)) := by
  unfold rowSum; after_results_simp
theorem cast_row19 (H : Valuation τ sig (Elt F)) :
    after castB (after castA H) (Proc.devRef .tc main_v101) = broadcastInDim S2x1x80x80x80 ![0, 2, 3, 4] bcast_S2x80x80x80_S2x1x80x80x80_0_2_3_4 (H (Proc.devRef .tc main_v60)) := by
  after_results_simp

theorem sum_row20 (K : Valuation τ sig (Elt F)) :
    after midB (after midA K) (Proc.devRef .tc main_v63) = rowSum ![0, 0, 2, 0, 2] slices_S2x64x82x82x82_S2x64x80x80x80_0_0_2_0_2 (K (Proc.devRef .tc main_arg0)) (K (Proc.devRef .tc main_v0)) := by
  unfold rowSum; after_results_simp
theorem cast_row20 (H : Valuation τ sig (Elt F)) :
    after castB (after castA H) (Proc.devRef .tc main_v102) = broadcastInDim S2x1x80x80x80 ![0, 2, 3, 4] bcast_S2x80x80x80_S2x1x80x80x80_0_2_3_4 (H (Proc.devRef .tc main_v63)) := by
  after_results_simp

theorem sum_row21 (K : Valuation τ sig (Elt F)) :
    after midB (after midA K) (Proc.devRef .tc main_v66) = rowSum ![0, 0, 2, 1, 0] slices_S2x64x82x82x82_S2x64x80x80x80_0_0_2_1_0 (K (Proc.devRef .tc main_arg0)) (K (Proc.devRef .tc main_v0)) := by
  unfold rowSum; after_results_simp
theorem cast_row21 (H : Valuation τ sig (Elt F)) :
    after castB (after castA H) (Proc.devRef .tc main_v103) = broadcastInDim S2x1x80x80x80 ![0, 2, 3, 4] bcast_S2x80x80x80_S2x1x80x80x80_0_2_3_4 (H (Proc.devRef .tc main_v66)) := by
  after_results_simp

theorem sum_row22 (K : Valuation τ sig (Elt F)) :
    after midB (after midA K) (Proc.devRef .tc main_v69) = rowSum ![0, 0, 2, 1, 1] slices_S2x64x82x82x82_S2x64x80x80x80_0_0_2_1_1 (K (Proc.devRef .tc main_arg0)) (K (Proc.devRef .tc main_v0)) := by
  unfold rowSum; after_results_simp
theorem cast_row22 (H : Valuation τ sig (Elt F)) :
    after castB (after castA H) (Proc.devRef .tc main_v104) = broadcastInDim S2x1x80x80x80 ![0, 2, 3, 4] bcast_S2x80x80x80_S2x1x80x80x80_0_2_3_4 (H (Proc.devRef .tc main_v69)) := by
  after_results_simp

theorem sum_row23 (K : Valuation τ sig (Elt F)) :
    after midB (after midA K) (Proc.devRef .tc main_v72) = rowSum ![0, 0, 2, 1, 2] slices_S2x64x82x82x82_S2x64x80x80x80_0_0_2_1_2 (K (Proc.devRef .tc main_arg0)) (K (Proc.devRef .tc main_v0)) := by
  unfold rowSum; after_results_simp
theorem cast_row23 (H : Valuation τ sig (Elt F)) :
    after castB (after castA H) (Proc.devRef .tc main_v105) = broadcastInDim S2x1x80x80x80 ![0, 2, 3, 4] bcast_S2x80x80x80_S2x1x80x80x80_0_2_3_4 (H (Proc.devRef .tc main_v72)) := by
  after_results_simp

theorem sum_row24 (K : Valuation τ sig (Elt F)) :
    after midB (after midA K) (Proc.devRef .tc main_v75) = rowSum ![0, 0, 2, 2, 0] slices_S2x64x82x82x82_S2x64x80x80x80_0_0_2_2_0 (K (Proc.devRef .tc main_arg0)) (K (Proc.devRef .tc main_v0)) := by
  unfold rowSum; after_results_simp
theorem cast_row24 (H : Valuation τ sig (Elt F)) :
    after castB (after castA H) (Proc.devRef .tc main_v106) = broadcastInDim S2x1x80x80x80 ![0, 2, 3, 4] bcast_S2x80x80x80_S2x1x80x80x80_0_2_3_4 (H (Proc.devRef .tc main_v75)) := by
  after_results_simp

theorem sum_row25 (K : Valuation τ sig (Elt F)) :
    after midB (after midA K) (Proc.devRef .tc main_v78) = rowSum ![0, 0, 2, 2, 1] slices_S2x64x82x82x82_S2x64x80x80x80_0_0_2_2_1 (K (Proc.devRef .tc main_arg0)) (K (Proc.devRef .tc main_v0)) := by
  unfold rowSum; after_results_simp
theorem cast_row25 (H : Valuation τ sig (Elt F)) :
    after castB (after castA H) (Proc.devRef .tc main_v107) = broadcastInDim S2x1x80x80x80 ![0, 2, 3, 4] bcast_S2x80x80x80_S2x1x80x80x80_0_2_3_4 (H (Proc.devRef .tc main_v78)) := by
  after_results_simp

theorem sum_row26 (K : Valuation τ sig (Elt F)) :
    after midB (after midA K) (Proc.devRef .tc main_v81) = rowSum ![0, 0, 2, 2, 2] slices_S2x64x82x82x82_S2x64x80x80x80_0_0_2_2_2 (K (Proc.devRef .tc main_arg0)) (K (Proc.devRef .tc main_v0)) := by
  unfold rowSum; after_results_simp
theorem cast_row26 (H : Valuation τ sig (Elt F)) :
    after castB (after castA H) (Proc.devRef .tc main_v108) = broadcastInDim S2x1x80x80x80 ![0, 2, 3, 4] bcast_S2x80x80x80_S2x1x80x80x80_0_2_3_4 (H (Proc.devRef .tc main_v81)) := by
  after_results_simp

theorem join_result (G : Valuation τ sig (Elt F)) :
    after opsTail G (Proc.devRef .tc main_v113)
      = mulf (concatenate S2x27x80x80x80 1 [⟨S2x16x80x80x80, concatenate S2x16x80x80x80 1 [⟨S2x1x80x80x80, G (Proc.devRef .tc main_v82)⟩, ⟨S2x1x80x80x80, G (Proc.devRef .tc main_v83)⟩, ⟨S2x1x80x80x80, G (Proc.devRef .tc main_v84)⟩, ⟨S2x1x80x80x80, G (Proc.devRef .tc main_v85)⟩, ⟨S2x1x80x80x80, G (Proc.devRef .tc main_v86)⟩, ⟨S2x1x80x80x80, G (Proc.devRef .tc main_v87)⟩, ⟨S2x1x80x80x80, G (Proc.devRef .tc main_v88)⟩, ⟨S2x1x80x80x80, G (Proc.devRef .tc main_v89)⟩, ⟨S2x1x80x80x80, G (Proc.devRef .tc main_v90)⟩, ⟨S2x1x80x80x80, G (Proc.devRef .tc main_v91)⟩, ⟨S2x1x80x80x80, G (Proc.devRef .tc main_v92)⟩, ⟨S2x1x80x80x80, G (Proc.devRef .tc main_v93)⟩, ⟨S2x1x80x80x80, G (Proc.devRef .tc main_v94)⟩, ⟨S2x1x80x80x80, G (Proc.devRef .tc main_v95)⟩, ⟨S2x1x80x80x80, G (Proc.devRef .tc main_v96)⟩, ⟨S2x1x80x80x80, G (Proc.devRef .tc main_v97)⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x16x80x80x80_d1⟩,
          ⟨S2x11x80x80x80, concatenate S2x11x80x80x80 1 [⟨S2x1x80x80x80, G (Proc.devRef .tc main_v98)⟩, ⟨S2x1x80x80x80, G (Proc.devRef .tc main_v99)⟩, ⟨S2x1x80x80x80, G (Proc.devRef .tc main_v100)⟩, ⟨S2x1x80x80x80, G (Proc.devRef .tc main_v101)⟩, ⟨S2x1x80x80x80, G (Proc.devRef .tc main_v102)⟩, ⟨S2x1x80x80x80, G (Proc.devRef .tc main_v103)⟩, ⟨S2x1x80x80x80, G (Proc.devRef .tc main_v104)⟩, ⟨S2x1x80x80x80, G (Proc.devRef .tc main_v105)⟩, ⟨S2x1x80x80x80, G (Proc.devRef .tc main_v106)⟩, ⟨S2x1x80x80x80, G (Proc.devRef .tc main_v107)⟩, ⟨S2x1x80x80x80, G (Proc.devRef .tc main_v108)⟩] concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x11x80x80x80_d1⟩] concatenates_S2x16x80x80x80_S2x11x80x80x80_S2x27x80x80x80_d1)
        (broadcastInDim S2x27x80x80x80 ![] bcast_S_S2x27x80x80x80 (constant S_ .f32 0x3E000000#32)) := by
  after_results
  rfl

end Cert.ReferenceIdeal.CorrRun

end
-- ==== Proof.RefValue.lean ====
/-
  What the reference's result array holds, at the ideal instance: at every index the windowed channel correlation
  of the two arguments.

  At (b, o, d, h, w) the result is the join's member o — the 27 sums stacked along a unit axis — times the scale;
  member o is the sum of offset (dz, dy, dx) = (o / 9, o / 3 % 3, o % 3) at (b, d, h, w): the sum over channels of the
  first argument at (b, c, d, h, w) times the padded second argument at (b, c, d + dz, h + dy, w + dx), from the
  zero the sum starts at, which adds nothing.
-/
import proofs.«155575_j81647328297400_2_alg».proof.Proof.RefRun
import proofs.«155575_j81647328297400_2_alg».proof.Proof.CorrSpec
import Idealize.ShloMosaic.Lib.Pipeline.Value

set_option maxRecDepth 16384

noncomputable section

namespace Cert.ReferenceIdeal.CorrValue

open Cert.ReferenceIdeal Cert.ReferenceIdeal.Gen Cert.ReferenceIdeal.CorrRun Cert.Corr
open Idealize.ShloMosaic Idealize.ShloMosaic.TcCoe Idealize.SL.Sem Idealize.ShloMosaic.StableHlo Idealize.ShloMosaic.ValueIdx

/-- The joined array times the scale, at an index. -/
theorem scaled_apply (A : (⟨S2x27x80x80x80, .f32⟩ : BufTy).Contents (Elt Ideal)) (i : S2x27x80x80x80.Idx) :
    mulf A (broadcastInDim S2x27x80x80x80 ![] bcast_S_S2x27x80x80x80 (constant (F := Ideal) S_ .f32 0x3E000000#32)) i = A i * scale := by
  show A i * (broadcastInDim S2x27x80x80x80 ![] bcast_S_S2x27x80x80x80 (constant (F := Ideal) S_ .f32 0x3E000000#32) i) = _
  rw [broadcastInDim_apply _ bcast_S_S2x27x80x80x80 _ i (fun a => a.elim0) (fun a => a.elim0)]
  rfl

/-- One offset's sum with its unit axis, at an index: the channel sum of the first argument times the second
    argument with its border, at the offset. -/
theorem row_value (dz dy dx : Fin 3) (hs : S2x64x82x82x82.Slices ![0, 0, dz.val, dy.val, dx.val] S2x64x80x80x80)
    (X Y : SX.Idx → EReal) {u : Shape} (v : u.Idx → EReal)
    (hp : SX.Pads ![0, 0, 1, 1, 1] ![0, 0, 1, 1, 1] ![0, 0, 0, 0, 0] SP82) (hu : 0 < u.numel) (i' : S2x1x80x80x80.Idx) :
    broadcastInDim S2x1x80x80x80 ![0, 2, 3, 4] bcast_S2x80x80x80_S2x1x80x80x80_0_2_3_4
        (rowSum (F := Ideal) ![0, 0, dz.val, dy.val, dx.val] hs X (pad S2x64x82x82x82 ![0, 0, 1, 1, 1] ![0, 0, 1, 1, 1] ![0, 0, 0, 0, 0] Y v hp hu)) i'
      = ∑ c : Fin 64, X (ix5 (i' 0) c (i' 2) (i' 3) (i' 4))
          * ypad Y (v (Shape.Idx.first hu)) (i' 0) c (dz.val + (i' 2).val) (dy.val + (i' 3).val) (dx.val + (i' 4).val) := by
  have hd2 : (i' 2).val < 80 := (i' 2).isLt
  have hd3 : (i' 3).val < 80 := (i' 3).isLt
  have hd4 : (i' 4).val < 80 := (i' 4).isLt
  have hz : dz.val < 3 := dz.isLt
  have hy : dy.val < 3 := dy.isLt
  have hx : dx.val < 3 := dx.isLt
  rw [broadcastInDim_apply _ bcast_S2x80x80x80_S2x1x80x80x80_0_2_3_4 _ i' (ix4 (i' 0) (i' 2) (i' 3) (i' 4)) (fun a => match a with
    | ⟨0, _⟩ => by show (i' 0).val = if (2 : Nat) = 1 then 0 else (i' 0).val; rw [if_neg (by decide)]
    | ⟨1, _⟩ => by show (i' 2).val = if (80 : Nat) = 1 then 0 else (i' 2).val; rw [if_neg (by decide)]
    | ⟨2, _⟩ => by show (i' 3).val = if (80 : Nat) = 1 then 0 else (i' 3).val; rw [if_neg (by decide)]
    | ⟨3, _⟩ => by show (i' 4).val = if (80 : Nat) = 1 then 0 else (i' 4).val; rw [if_neg (by decide)])]
  unfold rowSum
  simp only [Host.reduceAdd, Ideal.hostReduceAdd_def]
  refine (Ideal.hostReduceAdd_single reducesTo_S2x64x80x80x80_S2x80x80x80_d1 (by decide) _ _ _).trans ?_
  have e0 : (constant (F := Ideal) S_ .f32 0x00000000#32) (Shape.Idx.first h_S_) = 0 := Ideal.ofBits_zero_f32
  rw [e0, zero_add]
  refine Finset.sum_congr rfl fun c _ => ?_
  show X _ * extractStridedSlice S2x64x80x80x80 ![0, 0, dz.val, dy.val, dx.val] (pad S2x64x82x82x82 ![0, 0, 1, 1, 1] ![0, 0, 1, 1, 1] ![0, 0, 0, 0, 0] Y v hp hu) hs _ = _
  refine congr (congrArg _ (congrArg X (funext fun a => Fin.ext (by match a with | ⟨0, _⟩ => rfl | ⟨1, _⟩ => rfl | ⟨2, _⟩ => rfl | ⟨3, _⟩ => rfl | ⟨4, _⟩ => rfl)))) ?_
  refine (extractStridedSlice_apply _ _ hs _ (ix5 (i' 0) c ⟨dz.val + (i' 2).val, by omega⟩ ⟨dy.val + (i' 3).val, by omega⟩ ⟨dx.val + (i' 4).val, by omega⟩) (fun a => match a with
    | ⟨0, _⟩ => by show (i' 0).val = 0 + (i' 0).val; omega
    | ⟨1, _⟩ => by show c.val = 0 + c.val; omega
    | ⟨2, _⟩ => rfl
    | ⟨3, _⟩ => rfl
    | ⟨4, _⟩ => rfl)).trans ?_
  exact pad82_apply Y v hp hu _

/-- That sum, scaled, is the correlation volume at an index whose row is the offset's number. -/
theorem row_to_corr (dz dy dx : Fin 3) (X Y : SX.Idx → EReal) (i : S2x27x80x80x80.Idx)
    (h9 : (i 1).val / 9 = dz.val) (h3 : (i 1).val / 3 % 3 = dy.val) (h1 : (i 1).val % 3 = dx.val) :
    (∑ c : Fin 64, X (ix5 ((ix5 (i 0) (0 : Fin 1) (i 2) (i 3) (i 4)) 0) c ((ix5 (i 0) (0 : Fin 1) (i 2) (i 3) (i 4)) 2) ((ix5 (i 0) (0 : Fin 1) (i 2) (i 3) (i 4)) 3) ((ix5 (i 0) (0 : Fin 1) (i 2) (i 3) (i 4)) 4))
        * ypad Y ((sitofp (F := Ideal) .f32 (constantI S_ 32 0#32)) (Shape.Idx.first h_S_)) ((ix5 (i 0) (0 : Fin 1) (i 2) (i 3) (i 4)) 0) c (dz.val + (i 2).val) (dy.val + (i 3).val) (dx.val + (i 4).val)) * scale
      = corr X Y zPad scale i := by
  unfold corr
  refine congrArg (· * scale) (Finset.sum_congr rfl fun c _ => ?_)
  refine congr (congrArg _ rfl) ?_
  refine ypad_congr Y _ rfl rfl ?_ ?_ ?_
  · rw [h9]; omega
  · rw [h3]; omega
  · rw [h1]; omega

/-! ## Row by row -/

set_option maxHeartbeats 2000000 in
theorem ref_row0 (V : Valuation τ sig (Elt Ideal)) (i : S2x27x80x80x80.Idx) (hn : (i 1).val = 0) :
    after ops V (Proc.devRef .tc main_v113) i = corr (V (Proc.devRef .tc main_arg0)) (V (Proc.devRef .tc main_arg1)) zPad scale i := by
  have hM := (cast_row0 (after midB (after midA (after opsPre V)))).trans
    (congrArg _ ((sum_row0 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 0 0 (V (Proc.devRef .tc main_arg0)) (V (Proc.devRef .tc main_arg1)) i (by show (i 1).val / 9 = 0; omega) (by show (i 1).val / 3 % 3 = 0; omega) (by show (i 1).val % 3 = 0; omega))
  refine (concatenate_apply_piece 1 _ _ i 0 ?_ S2x16x80x80x80 _ rfl rfl 0 rfl (ix5 (i 0) (⟨0, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 0 = (i 1).val; rw [hn]
  refine (concatenate_apply_piece 1 _ _ (ix5 (i 0) (⟨0, by decide⟩ : Fin 16) (i 2) (i 3) (i 4) : S2x16x80x80x80.Idx) 0 ?_ S2x1x80x80x80 _ rfl rfl 0 rfl (ix5 (i 0) (0 : Fin 1) (i 2) (i 3) (i 4) : S2x1x80x80x80.Idx) ?_ ?_).trans ?_
  · show 0 < 16; decide
  · intro b hb
    match b with
    | ⟨0, _⟩ => rfl
    | ⟨1, _⟩ => exact absurd rfl hb
    | ⟨2, _⟩ => rfl
    | ⟨3, _⟩ => rfl
    | ⟨4, _⟩ => rfl
  · show 0 + 0 = 0; rfl
  rw [hM]
  exact row_value 0 0 0 slices_S2x64x82x82x82_S2x64x80x80x80_0_0_0_0_0 (V (Proc.devRef .tc main_arg0)) (V (Proc.devRef .tc main_arg1)) _ _ _ (ix5 (i 0) 0 (i 2) (i 3) (i 4))

set_option maxHeartbeats 2000000 in
theorem ref_row1 (V : Valuation τ sig (Elt Ideal)) (i : S2x27x80x80x80.Idx) (hn : (i 1).val = 1) :
    after ops V (Proc.devRef .tc main_v113) i = corr (V (Proc.devRef .tc main_arg0)) (V (Proc.devRef .tc main_arg1)) zPad scale i := by
  have hM := (cast_row1 (after midB (after midA (after opsPre V)))).trans
    (congrArg _ ((sum_row1 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 0 1 (V (Proc.devRef .tc main_arg0)) (V (Proc.devRef .tc main_arg1)) i (by show (i 1).val / 9 = 0; omega) (by show (i 1).val / 3 % 3 = 0; omega) (by show (i 1).val % 3 = 1; omega))
  refine (concatenate_apply_piece 1 _ _ i 0 ?_ S2x16x80x80x80 _ rfl rfl 0 rfl (ix5 (i 0) (⟨1, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 1 = (i 1).val; rw [hn]
  refine (concatenate_apply_piece 1 _ _ (ix5 (i 0) (⟨1, by decide⟩ : Fin 16) (i 2) (i 3) (i 4) : S2x16x80x80x80.Idx) 1 ?_ S2x1x80x80x80 _ rfl rfl 1 rfl (ix5 (i 0) (0 : Fin 1) (i 2) (i 3) (i 4) : S2x1x80x80x80.Idx) ?_ ?_).trans ?_
  · show 1 < 16; decide
  · intro b hb
    match b with
    | ⟨0, _⟩ => rfl
    | ⟨1, _⟩ => exact absurd rfl hb
    | ⟨2, _⟩ => rfl
    | ⟨3, _⟩ => rfl
    | ⟨4, _⟩ => rfl
  · show 1 + 0 = 1; rfl
  rw [hM]
  exact row_value 0 0 1 slices_S2x64x82x82x82_S2x64x80x80x80_0_0_0_0_1 (V (Proc.devRef .tc main_arg0)) (V (Proc.devRef .tc main_arg1)) _ _ _ (ix5 (i 0) 0 (i 2) (i 3) (i 4))

set_option maxHeartbeats 2000000 in
theorem ref_row2 (V : Valuation τ sig (Elt Ideal)) (i : S2x27x80x80x80.Idx) (hn : (i 1).val = 2) :
    after ops V (Proc.devRef .tc main_v113) i = corr (V (Proc.devRef .tc main_arg0)) (V (Proc.devRef .tc main_arg1)) zPad scale i := by
  have hM := (cast_row2 (after midB (after midA (after opsPre V)))).trans
    (congrArg _ ((sum_row2 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 0 2 (V (Proc.devRef .tc main_arg0)) (V (Proc.devRef .tc main_arg1)) i (by show (i 1).val / 9 = 0; omega) (by show (i 1).val / 3 % 3 = 0; omega) (by show (i 1).val % 3 = 2; omega))
  refine (concatenate_apply_piece 1 _ _ i 0 ?_ S2x16x80x80x80 _ rfl rfl 0 rfl (ix5 (i 0) (⟨2, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 2 = (i 1).val; rw [hn]
  refine (concatenate_apply_piece 1 _ _ (ix5 (i 0) (⟨2, by decide⟩ : Fin 16) (i 2) (i 3) (i 4) : S2x16x80x80x80.Idx) 2 ?_ S2x1x80x80x80 _ rfl rfl 2 rfl (ix5 (i 0) (0 : Fin 1) (i 2) (i 3) (i 4) : S2x1x80x80x80.Idx) ?_ ?_).trans ?_
  · show 2 < 16; decide
  · intro b hb
    match b with
    | ⟨0, _⟩ => rfl
    | ⟨1, _⟩ => exact absurd rfl hb
    | ⟨2, _⟩ => rfl
    | ⟨3, _⟩ => rfl
    | ⟨4, _⟩ => rfl
  · show 2 + 0 = 2; rfl
  rw [hM]
  exact row_value 0 0 2 slices_S2x64x82x82x82_S2x64x80x80x80_0_0_0_0_2 (V (Proc.devRef .tc main_arg0)) (V (Proc.devRef .tc main_arg1)) _ _ _ (ix5 (i 0) 0 (i 2) (i 3) (i 4))

set_option maxHeartbeats 2000000 in
theorem ref_row3 (V : Valuation τ sig (Elt Ideal)) (i : S2x27x80x80x80.Idx) (hn : (i 1).val = 3) :
    after ops V (Proc.devRef .tc main_v113) i = corr (V (Proc.devRef .tc main_arg0)) (V (Proc.devRef .tc main_arg1)) zPad scale i := by
  have hM := (cast_row3 (after midB (after midA (after opsPre V)))).trans
    (congrArg _ ((sum_row3 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 1 0 (V (Proc.devRef .tc main_arg0)) (V (Proc.devRef .tc main_arg1)) i (by show (i 1).val / 9 = 0; omega) (by show (i 1).val / 3 % 3 = 1; omega) (by show (i 1).val % 3 = 0; omega))
  refine (concatenate_apply_piece 1 _ _ i 0 ?_ S2x16x80x80x80 _ rfl rfl 0 rfl (ix5 (i 0) (⟨3, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 3 = (i 1).val; rw [hn]
  refine (concatenate_apply_piece 1 _ _ (ix5 (i 0) (⟨3, by decide⟩ : Fin 16) (i 2) (i 3) (i 4) : S2x16x80x80x80.Idx) 3 ?_ S2x1x80x80x80 _ rfl rfl 3 rfl (ix5 (i 0) (0 : Fin 1) (i 2) (i 3) (i 4) : S2x1x80x80x80.Idx) ?_ ?_).trans ?_
  · show 3 < 16; decide
  · intro b hb
    match b with
    | ⟨0, _⟩ => rfl
    | ⟨1, _⟩ => exact absurd rfl hb
    | ⟨2, _⟩ => rfl
    | ⟨3, _⟩ => rfl
    | ⟨4, _⟩ => rfl
  · show 3 + 0 = 3; rfl
  rw [hM]
  exact row_value 0 1 0 slices_S2x64x82x82x82_S2x64x80x80x80_0_0_0_1_0 (V (Proc.devRef .tc main_arg0)) (V (Proc.devRef .tc main_arg1)) _ _ _ (ix5 (i 0) 0 (i 2) (i 3) (i 4))

set_option maxHeartbeats 2000000 in
theorem ref_row4 (V : Valuation τ sig (Elt Ideal)) (i : S2x27x80x80x80.Idx) (hn : (i 1).val = 4) :
    after ops V (Proc.devRef .tc main_v113) i = corr (V (Proc.devRef .tc main_arg0)) (V (Proc.devRef .tc main_arg1)) zPad scale i := by
  have hM := (cast_row4 (after midB (after midA (after opsPre V)))).trans
    (congrArg _ ((sum_row4 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 1 1 (V (Proc.devRef .tc main_arg0)) (V (Proc.devRef .tc main_arg1)) i (by show (i 1).val / 9 = 0; omega) (by show (i 1).val / 3 % 3 = 1; omega) (by show (i 1).val % 3 = 1; omega))
  refine (concatenate_apply_piece 1 _ _ i 0 ?_ S2x16x80x80x80 _ rfl rfl 0 rfl (ix5 (i 0) (⟨4, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 4 = (i 1).val; rw [hn]
  refine (concatenate_apply_piece 1 _ _ (ix5 (i 0) (⟨4, by decide⟩ : Fin 16) (i 2) (i 3) (i 4) : S2x16x80x80x80.Idx) 4 ?_ S2x1x80x80x80 _ rfl rfl 4 rfl (ix5 (i 0) (0 : Fin 1) (i 2) (i 3) (i 4) : S2x1x80x80x80.Idx) ?_ ?_).trans ?_
  · show 4 < 16; decide
  · intro b hb
    match b with
    | ⟨0, _⟩ => rfl
    | ⟨1, _⟩ => exact absurd rfl hb
    | ⟨2, _⟩ => rfl
    | ⟨3, _⟩ => rfl
    | ⟨4, _⟩ => rfl
  · show 4 + 0 = 4; rfl
  rw [hM]
  exact row_value 0 1 1 slices_S2x64x82x82x82_S2x64x80x80x80_0_0_0_1_1 (V (Proc.devRef .tc main_arg0)) (V (Proc.devRef .tc main_arg1)) _ _ _ (ix5 (i 0) 0 (i 2) (i 3) (i 4))

set_option maxHeartbeats 2000000 in
theorem ref_row5 (V : Valuation τ sig (Elt Ideal)) (i : S2x27x80x80x80.Idx) (hn : (i 1).val = 5) :
    after ops V (Proc.devRef .tc main_v113) i = corr (V (Proc.devRef .tc main_arg0)) (V (Proc.devRef .tc main_arg1)) zPad scale i := by
  have hM := (cast_row5 (after midB (after midA (after opsPre V)))).trans
    (congrArg _ ((sum_row5 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 1 2 (V (Proc.devRef .tc main_arg0)) (V (Proc.devRef .tc main_arg1)) i (by show (i 1).val / 9 = 0; omega) (by show (i 1).val / 3 % 3 = 1; omega) (by show (i 1).val % 3 = 2; omega))
  refine (concatenate_apply_piece 1 _ _ i 0 ?_ S2x16x80x80x80 _ rfl rfl 0 rfl (ix5 (i 0) (⟨5, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 5 = (i 1).val; rw [hn]
  refine (concatenate_apply_piece 1 _ _ (ix5 (i 0) (⟨5, by decide⟩ : Fin 16) (i 2) (i 3) (i 4) : S2x16x80x80x80.Idx) 5 ?_ S2x1x80x80x80 _ rfl rfl 5 rfl (ix5 (i 0) (0 : Fin 1) (i 2) (i 3) (i 4) : S2x1x80x80x80.Idx) ?_ ?_).trans ?_
  · show 5 < 16; decide
  · intro b hb
    match b with
    | ⟨0, _⟩ => rfl
    | ⟨1, _⟩ => exact absurd rfl hb
    | ⟨2, _⟩ => rfl
    | ⟨3, _⟩ => rfl
    | ⟨4, _⟩ => rfl
  · show 5 + 0 = 5; rfl
  rw [hM]
  exact row_value 0 1 2 slices_S2x64x82x82x82_S2x64x80x80x80_0_0_0_1_2 (V (Proc.devRef .tc main_arg0)) (V (Proc.devRef .tc main_arg1)) _ _ _ (ix5 (i 0) 0 (i 2) (i 3) (i 4))

set_option maxHeartbeats 2000000 in
theorem ref_row6 (V : Valuation τ sig (Elt Ideal)) (i : S2x27x80x80x80.Idx) (hn : (i 1).val = 6) :
    after ops V (Proc.devRef .tc main_v113) i = corr (V (Proc.devRef .tc main_arg0)) (V (Proc.devRef .tc main_arg1)) zPad scale i := by
  have hM := (cast_row6 (after midB (after midA (after opsPre V)))).trans
    (congrArg _ ((sum_row6 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 2 0 (V (Proc.devRef .tc main_arg0)) (V (Proc.devRef .tc main_arg1)) i (by show (i 1).val / 9 = 0; omega) (by show (i 1).val / 3 % 3 = 2; omega) (by show (i 1).val % 3 = 0; omega))
  refine (concatenate_apply_piece 1 _ _ i 0 ?_ S2x16x80x80x80 _ rfl rfl 0 rfl (ix5 (i 0) (⟨6, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 6 = (i 1).val; rw [hn]
  refine (concatenate_apply_piece 1 _ _ (ix5 (i 0) (⟨6, by decide⟩ : Fin 16) (i 2) (i 3) (i 4) : S2x16x80x80x80.Idx) 6 ?_ S2x1x80x80x80 _ rfl rfl 6 rfl (ix5 (i 0) (0 : Fin 1) (i 2) (i 3) (i 4) : S2x1x80x80x80.Idx) ?_ ?_).trans ?_
  · show 6 < 16; decide
  · intro b hb
    match b with
    | ⟨0, _⟩ => rfl
    | ⟨1, _⟩ => exact absurd rfl hb
    | ⟨2, _⟩ => rfl
    | ⟨3, _⟩ => rfl
    | ⟨4, _⟩ => rfl
  · show 6 + 0 = 6; rfl
  rw [hM]
  exact row_value 0 2 0 slices_S2x64x82x82x82_S2x64x80x80x80_0_0_0_2_0 (V (Proc.devRef .tc main_arg0)) (V (Proc.devRef .tc main_arg1)) _ _ _ (ix5 (i 0) 0 (i 2) (i 3) (i 4))

set_option maxHeartbeats 2000000 in
theorem ref_row7 (V : Valuation τ sig (Elt Ideal)) (i : S2x27x80x80x80.Idx) (hn : (i 1).val = 7) :
    after ops V (Proc.devRef .tc main_v113) i = corr (V (Proc.devRef .tc main_arg0)) (V (Proc.devRef .tc main_arg1)) zPad scale i := by
  have hM := (cast_row7 (after midB (after midA (after opsPre V)))).trans
    (congrArg _ ((sum_row7 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 2 1 (V (Proc.devRef .tc main_arg0)) (V (Proc.devRef .tc main_arg1)) i (by show (i 1).val / 9 = 0; omega) (by show (i 1).val / 3 % 3 = 2; omega) (by show (i 1).val % 3 = 1; omega))
  refine (concatenate_apply_piece 1 _ _ i 0 ?_ S2x16x80x80x80 _ rfl rfl 0 rfl (ix5 (i 0) (⟨7, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 7 = (i 1).val; rw [hn]
  refine (concatenate_apply_piece 1 _ _ (ix5 (i 0) (⟨7, by decide⟩ : Fin 16) (i 2) (i 3) (i 4) : S2x16x80x80x80.Idx) 7 ?_ S2x1x80x80x80 _ rfl rfl 7 rfl (ix5 (i 0) (0 : Fin 1) (i 2) (i 3) (i 4) : S2x1x80x80x80.Idx) ?_ ?_).trans ?_
  · show 7 < 16; decide
  · intro b hb
    match b with
    | ⟨0, _⟩ => rfl
    | ⟨1, _⟩ => exact absurd rfl hb
    | ⟨2, _⟩ => rfl
    | ⟨3, _⟩ => rfl
    | ⟨4, _⟩ => rfl
  · show 7 + 0 = 7; rfl
  rw [hM]
  exact row_value 0 2 1 slices_S2x64x82x82x82_S2x64x80x80x80_0_0_0_2_1 (V (Proc.devRef .tc main_arg0)) (V (Proc.devRef .tc main_arg1)) _ _ _ (ix5 (i 0) 0 (i 2) (i 3) (i 4))

set_option maxHeartbeats 2000000 in
theorem ref_row8 (V : Valuation τ sig (Elt Ideal)) (i : S2x27x80x80x80.Idx) (hn : (i 1).val = 8) :
    after ops V (Proc.devRef .tc main_v113) i = corr (V (Proc.devRef .tc main_arg0)) (V (Proc.devRef .tc main_arg1)) zPad scale i := by
  have hM := (cast_row8 (after midB (after midA (after opsPre V)))).trans
    (congrArg _ ((sum_row8 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 0 2 2 (V (Proc.devRef .tc main_arg0)) (V (Proc.devRef .tc main_arg1)) i (by show (i 1).val / 9 = 0; omega) (by show (i 1).val / 3 % 3 = 2; omega) (by show (i 1).val % 3 = 2; omega))
  refine (concatenate_apply_piece 1 _ _ i 0 ?_ S2x16x80x80x80 _ rfl rfl 0 rfl (ix5 (i 0) (⟨8, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 8 = (i 1).val; rw [hn]
  refine (concatenate_apply_piece 1 _ _ (ix5 (i 0) (⟨8, by decide⟩ : Fin 16) (i 2) (i 3) (i 4) : S2x16x80x80x80.Idx) 8 ?_ S2x1x80x80x80 _ rfl rfl 8 rfl (ix5 (i 0) (0 : Fin 1) (i 2) (i 3) (i 4) : S2x1x80x80x80.Idx) ?_ ?_).trans ?_
  · show 8 < 16; decide
  · intro b hb
    match b with
    | ⟨0, _⟩ => rfl
    | ⟨1, _⟩ => exact absurd rfl hb
    | ⟨2, _⟩ => rfl
    | ⟨3, _⟩ => rfl
    | ⟨4, _⟩ => rfl
  · show 8 + 0 = 8; rfl
  rw [hM]
  exact row_value 0 2 2 slices_S2x64x82x82x82_S2x64x80x80x80_0_0_0_2_2 (V (Proc.devRef .tc main_arg0)) (V (Proc.devRef .tc main_arg1)) _ _ _ (ix5 (i 0) 0 (i 2) (i 3) (i 4))

set_option maxHeartbeats 2000000 in
theorem ref_row9 (V : Valuation τ sig (Elt Ideal)) (i : S2x27x80x80x80.Idx) (hn : (i 1).val = 9) :
    after ops V (Proc.devRef .tc main_v113) i = corr (V (Proc.devRef .tc main_arg0)) (V (Proc.devRef .tc main_arg1)) zPad scale i := by
  have hM := (cast_row9 (after midB (after midA (after opsPre V)))).trans
    (congrArg _ ((sum_row9 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 0 0 (V (Proc.devRef .tc main_arg0)) (V (Proc.devRef .tc main_arg1)) i (by show (i 1).val / 9 = 1; omega) (by show (i 1).val / 3 % 3 = 0; omega) (by show (i 1).val % 3 = 0; omega))
  refine (concatenate_apply_piece 1 _ _ i 0 ?_ S2x16x80x80x80 _ rfl rfl 0 rfl (ix5 (i 0) (⟨9, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 9 = (i 1).val; rw [hn]
  refine (concatenate_apply_piece 1 _ _ (ix5 (i 0) (⟨9, by decide⟩ : Fin 16) (i 2) (i 3) (i 4) : S2x16x80x80x80.Idx) 9 ?_ S2x1x80x80x80 _ rfl rfl 9 rfl (ix5 (i 0) (0 : Fin 1) (i 2) (i 3) (i 4) : S2x1x80x80x80.Idx) ?_ ?_).trans ?_
  · show 9 < 16; decide
  · intro b hb
    match b with
    | ⟨0, _⟩ => rfl
    | ⟨1, _⟩ => exact absurd rfl hb
    | ⟨2, _⟩ => rfl
    | ⟨3, _⟩ => rfl
    | ⟨4, _⟩ => rfl
  · show 9 + 0 = 9; rfl
  rw [hM]
  exact row_value 1 0 0 slices_S2x64x82x82x82_S2x64x80x80x80_0_0_1_0_0 (V (Proc.devRef .tc main_arg0)) (V (Proc.devRef .tc main_arg1)) _ _ _ (ix5 (i 0) 0 (i 2) (i 3) (i 4))

set_option maxHeartbeats 2000000 in
theorem ref_row10 (V : Valuation τ sig (Elt Ideal)) (i : S2x27x80x80x80.Idx) (hn : (i 1).val = 10) :
    after ops V (Proc.devRef .tc main_v113) i = corr (V (Proc.devRef .tc main_arg0)) (V (Proc.devRef .tc main_arg1)) zPad scale i := by
  have hM := (cast_row10 (after midB (after midA (after opsPre V)))).trans
    (congrArg _ ((sum_row10 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 0 1 (V (Proc.devRef .tc main_arg0)) (V (Proc.devRef .tc main_arg1)) i (by show (i 1).val / 9 = 1; omega) (by show (i 1).val / 3 % 3 = 0; omega) (by show (i 1).val % 3 = 1; omega))
  refine (concatenate_apply_piece 1 _ _ i 0 ?_ S2x16x80x80x80 _ rfl rfl 0 rfl (ix5 (i 0) (⟨10, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 10 = (i 1).val; rw [hn]
  refine (concatenate_apply_piece 1 _ _ (ix5 (i 0) (⟨10, by decide⟩ : Fin 16) (i 2) (i 3) (i 4) : S2x16x80x80x80.Idx) 10 ?_ S2x1x80x80x80 _ rfl rfl 10 rfl (ix5 (i 0) (0 : Fin 1) (i 2) (i 3) (i 4) : S2x1x80x80x80.Idx) ?_ ?_).trans ?_
  · show 10 < 16; decide
  · intro b hb
    match b with
    | ⟨0, _⟩ => rfl
    | ⟨1, _⟩ => exact absurd rfl hb
    | ⟨2, _⟩ => rfl
    | ⟨3, _⟩ => rfl
    | ⟨4, _⟩ => rfl
  · show 10 + 0 = 10; rfl
  rw [hM]
  exact row_value 1 0 1 slices_S2x64x82x82x82_S2x64x80x80x80_0_0_1_0_1 (V (Proc.devRef .tc main_arg0)) (V (Proc.devRef .tc main_arg1)) _ _ _ (ix5 (i 0) 0 (i 2) (i 3) (i 4))

set_option maxHeartbeats 2000000 in
theorem ref_row11 (V : Valuation τ sig (Elt Ideal)) (i : S2x27x80x80x80.Idx) (hn : (i 1).val = 11) :
    after ops V (Proc.devRef .tc main_v113) i = corr (V (Proc.devRef .tc main_arg0)) (V (Proc.devRef .tc main_arg1)) zPad scale i := by
  have hM := (cast_row11 (after midB (after midA (after opsPre V)))).trans
    (congrArg _ ((sum_row11 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 0 2 (V (Proc.devRef .tc main_arg0)) (V (Proc.devRef .tc main_arg1)) i (by show (i 1).val / 9 = 1; omega) (by show (i 1).val / 3 % 3 = 0; omega) (by show (i 1).val % 3 = 2; omega))
  refine (concatenate_apply_piece 1 _ _ i 0 ?_ S2x16x80x80x80 _ rfl rfl 0 rfl (ix5 (i 0) (⟨11, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 11 = (i 1).val; rw [hn]
  refine (concatenate_apply_piece 1 _ _ (ix5 (i 0) (⟨11, by decide⟩ : Fin 16) (i 2) (i 3) (i 4) : S2x16x80x80x80.Idx) 11 ?_ S2x1x80x80x80 _ rfl rfl 11 rfl (ix5 (i 0) (0 : Fin 1) (i 2) (i 3) (i 4) : S2x1x80x80x80.Idx) ?_ ?_).trans ?_
  · show 11 < 16; decide
  · intro b hb
    match b with
    | ⟨0, _⟩ => rfl
    | ⟨1, _⟩ => exact absurd rfl hb
    | ⟨2, _⟩ => rfl
    | ⟨3, _⟩ => rfl
    | ⟨4, _⟩ => rfl
  · show 11 + 0 = 11; rfl
  rw [hM]
  exact row_value 1 0 2 slices_S2x64x82x82x82_S2x64x80x80x80_0_0_1_0_2 (V (Proc.devRef .tc main_arg0)) (V (Proc.devRef .tc main_arg1)) _ _ _ (ix5 (i 0) 0 (i 2) (i 3) (i 4))

set_option maxHeartbeats 2000000 in
theorem ref_row12 (V : Valuation τ sig (Elt Ideal)) (i : S2x27x80x80x80.Idx) (hn : (i 1).val = 12) :
    after ops V (Proc.devRef .tc main_v113) i = corr (V (Proc.devRef .tc main_arg0)) (V (Proc.devRef .tc main_arg1)) zPad scale i := by
  have hM := (cast_row12 (after midB (after midA (after opsPre V)))).trans
    (congrArg _ ((sum_row12 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 1 0 (V (Proc.devRef .tc main_arg0)) (V (Proc.devRef .tc main_arg1)) i (by show (i 1).val / 9 = 1; omega) (by show (i 1).val / 3 % 3 = 1; omega) (by show (i 1).val % 3 = 0; omega))
  refine (concatenate_apply_piece 1 _ _ i 0 ?_ S2x16x80x80x80 _ rfl rfl 0 rfl (ix5 (i 0) (⟨12, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 12 = (i 1).val; rw [hn]
  refine (concatenate_apply_piece 1 _ _ (ix5 (i 0) (⟨12, by decide⟩ : Fin 16) (i 2) (i 3) (i 4) : S2x16x80x80x80.Idx) 12 ?_ S2x1x80x80x80 _ rfl rfl 12 rfl (ix5 (i 0) (0 : Fin 1) (i 2) (i 3) (i 4) : S2x1x80x80x80.Idx) ?_ ?_).trans ?_
  · show 12 < 16; decide
  · intro b hb
    match b with
    | ⟨0, _⟩ => rfl
    | ⟨1, _⟩ => exact absurd rfl hb
    | ⟨2, _⟩ => rfl
    | ⟨3, _⟩ => rfl
    | ⟨4, _⟩ => rfl
  · show 12 + 0 = 12; rfl
  rw [hM]
  exact row_value 1 1 0 slices_S2x64x82x82x82_S2x64x80x80x80_0_0_1_1_0 (V (Proc.devRef .tc main_arg0)) (V (Proc.devRef .tc main_arg1)) _ _ _ (ix5 (i 0) 0 (i 2) (i 3) (i 4))

set_option maxHeartbeats 2000000 in
theorem ref_row13 (V : Valuation τ sig (Elt Ideal)) (i : S2x27x80x80x80.Idx) (hn : (i 1).val = 13) :
    after ops V (Proc.devRef .tc main_v113) i = corr (V (Proc.devRef .tc main_arg0)) (V (Proc.devRef .tc main_arg1)) zPad scale i := by
  have hM := (cast_row13 (after midB (after midA (after opsPre V)))).trans
    (congrArg _ ((sum_row13 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 1 1 (V (Proc.devRef .tc main_arg0)) (V (Proc.devRef .tc main_arg1)) i (by show (i 1).val / 9 = 1; omega) (by show (i 1).val / 3 % 3 = 1; omega) (by show (i 1).val % 3 = 1; omega))
  refine (concatenate_apply_piece 1 _ _ i 0 ?_ S2x16x80x80x80 _ rfl rfl 0 rfl (ix5 (i 0) (⟨13, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 13 = (i 1).val; rw [hn]
  refine (concatenate_apply_piece 1 _ _ (ix5 (i 0) (⟨13, by decide⟩ : Fin 16) (i 2) (i 3) (i 4) : S2x16x80x80x80.Idx) 13 ?_ S2x1x80x80x80 _ rfl rfl 13 rfl (ix5 (i 0) (0 : Fin 1) (i 2) (i 3) (i 4) : S2x1x80x80x80.Idx) ?_ ?_).trans ?_
  · show 13 < 16; decide
  · intro b hb
    match b with
    | ⟨0, _⟩ => rfl
    | ⟨1, _⟩ => exact absurd rfl hb
    | ⟨2, _⟩ => rfl
    | ⟨3, _⟩ => rfl
    | ⟨4, _⟩ => rfl
  · show 13 + 0 = 13; rfl
  rw [hM]
  exact row_value 1 1 1 slices_S2x64x82x82x82_S2x64x80x80x80_0_0_1_1_1 (V (Proc.devRef .tc main_arg0)) (V (Proc.devRef .tc main_arg1)) _ _ _ (ix5 (i 0) 0 (i 2) (i 3) (i 4))

set_option maxHeartbeats 2000000 in
theorem ref_row14 (V : Valuation τ sig (Elt Ideal)) (i : S2x27x80x80x80.Idx) (hn : (i 1).val = 14) :
    after ops V (Proc.devRef .tc main_v113) i = corr (V (Proc.devRef .tc main_arg0)) (V (Proc.devRef .tc main_arg1)) zPad scale i := by
  have hM := (cast_row14 (after midB (after midA (after opsPre V)))).trans
    (congrArg _ ((sum_row14 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 1 2 (V (Proc.devRef .tc main_arg0)) (V (Proc.devRef .tc main_arg1)) i (by show (i 1).val / 9 = 1; omega) (by show (i 1).val / 3 % 3 = 1; omega) (by show (i 1).val % 3 = 2; omega))
  refine (concatenate_apply_piece 1 _ _ i 0 ?_ S2x16x80x80x80 _ rfl rfl 0 rfl (ix5 (i 0) (⟨14, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 14 = (i 1).val; rw [hn]
  refine (concatenate_apply_piece 1 _ _ (ix5 (i 0) (⟨14, by decide⟩ : Fin 16) (i 2) (i 3) (i 4) : S2x16x80x80x80.Idx) 14 ?_ S2x1x80x80x80 _ rfl rfl 14 rfl (ix5 (i 0) (0 : Fin 1) (i 2) (i 3) (i 4) : S2x1x80x80x80.Idx) ?_ ?_).trans ?_
  · show 14 < 16; decide
  · intro b hb
    match b with
    | ⟨0, _⟩ => rfl
    | ⟨1, _⟩ => exact absurd rfl hb
    | ⟨2, _⟩ => rfl
    | ⟨3, _⟩ => rfl
    | ⟨4, _⟩ => rfl
  · show 14 + 0 = 14; rfl
  rw [hM]
  exact row_value 1 1 2 slices_S2x64x82x82x82_S2x64x80x80x80_0_0_1_1_2 (V (Proc.devRef .tc main_arg0)) (V (Proc.devRef .tc main_arg1)) _ _ _ (ix5 (i 0) 0 (i 2) (i 3) (i 4))

set_option maxHeartbeats 2000000 in
theorem ref_row15 (V : Valuation τ sig (Elt Ideal)) (i : S2x27x80x80x80.Idx) (hn : (i 1).val = 15) :
    after ops V (Proc.devRef .tc main_v113) i = corr (V (Proc.devRef .tc main_arg0)) (V (Proc.devRef .tc main_arg1)) zPad scale i := by
  have hM := (cast_row15 (after midB (after midA (after opsPre V)))).trans
    (congrArg _ ((sum_row15 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 2 0 (V (Proc.devRef .tc main_arg0)) (V (Proc.devRef .tc main_arg1)) i (by show (i 1).val / 9 = 1; omega) (by show (i 1).val / 3 % 3 = 2; omega) (by show (i 1).val % 3 = 0; omega))
  refine (concatenate_apply_piece 1 _ _ i 0 ?_ S2x16x80x80x80 _ rfl rfl 0 rfl (ix5 (i 0) (⟨15, by decide⟩ : Fin 16) (i 2) (i 3) (i 4) : S2x16x80x80x80.Idx) ?_ ?_).trans ?_
  · show 0 < 2; decide
  · intro b hb
    match b with
    | ⟨0, _⟩ => rfl
    | ⟨1, _⟩ => exact absurd rfl hb
    | ⟨2, _⟩ => rfl
    | ⟨3, _⟩ => rfl
    | ⟨4, _⟩ => rfl
  · show 0 + 15 = (i 1).val; rw [hn]
  refine (concatenate_apply_piece 1 _ _ (ix5 (i 0) (⟨15, by decide⟩ : Fin 16) (i 2) (i 3) (i 4) : S2x16x80x80x80.Idx) 15 ?_ S2x1x80x80x80 _ rfl rfl 15 rfl (ix5 (i 0) (0 : Fin 1) (i 2) (i 3) (i 4) : S2x1x80x80x80.Idx) ?_ ?_).trans ?_
  · show 15 < 16; decide
  · intro b hb
    match b with
    | ⟨0, _⟩ => rfl
    | ⟨1, _⟩ => exact absurd rfl hb
    | ⟨2, _⟩ => rfl
    | ⟨3, _⟩ => rfl
    | ⟨4, _⟩ => rfl
  · show 15 + 0 = 15; rfl
  rw [hM]
  exact row_value 1 2 0 slices_S2x64x82x82x82_S2x64x80x80x80_0_0_1_2_0 (V (Proc.devRef .tc main_arg0)) (V (Proc.devRef .tc main_arg1)) _ _ _ (ix5 (i 0) 0 (i 2) (i 3) (i 4))

set_option maxHeartbeats 2000000 in
theorem ref_row16 (V : Valuation τ sig (Elt Ideal)) (i : S2x27x80x80x80.Idx) (hn : (i 1).val = 16) :
    after ops V (Proc.devRef .tc main_v113) i = corr (V (Proc.devRef .tc main_arg0)) (V (Proc.devRef .tc main_arg1)) zPad scale i := by
  have hM := (cast_row16 (after midB (after midA (after opsPre V)))).trans
    (congrArg _ ((sum_row16 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 2 1 (V (Proc.devRef .tc main_arg0)) (V (Proc.devRef .tc main_arg1)) i (by show (i 1).val / 9 = 1; omega) (by show (i 1).val / 3 % 3 = 2; omega) (by show (i 1).val % 3 = 1; omega))
  refine (concatenate_apply_piece 1 _ _ i 1 ?_ S2x11x80x80x80 _ rfl rfl 16 rfl (ix5 (i 0) (⟨0, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 0 = (i 1).val; rw [hn]
  refine (concatenate_apply_piece 1 _ _ (ix5 (i 0) (⟨0, by decide⟩ : Fin 11) (i 2) (i 3) (i 4) : S2x11x80x80x80.Idx) 0 ?_ S2x1x80x80x80 _ rfl rfl 0 rfl (ix5 (i 0) (0 : Fin 1) (i 2) (i 3) (i 4) : S2x1x80x80x80.Idx) ?_ ?_).trans ?_
  · show 0 < 11; decide
  · intro b hb
    match b with
    | ⟨0, _⟩ => rfl
    | ⟨1, _⟩ => exact absurd rfl hb
    | ⟨2, _⟩ => rfl
    | ⟨3, _⟩ => rfl
    | ⟨4, _⟩ => rfl
  · show 0 + 0 = 0; rfl
  rw [hM]
  exact row_value 1 2 1 slices_S2x64x82x82x82_S2x64x80x80x80_0_0_1_2_1 (V (Proc.devRef .tc main_arg0)) (V (Proc.devRef .tc main_arg1)) _ _ _ (ix5 (i 0) 0 (i 2) (i 3) (i 4))

set_option maxHeartbeats 2000000 in
theorem ref_row17 (V : Valuation τ sig (Elt Ideal)) (i : S2x27x80x80x80.Idx) (hn : (i 1).val = 17) :
    after ops V (Proc.devRef .tc main_v113) i = corr (V (Proc.devRef .tc main_arg0)) (V (Proc.devRef .tc main_arg1)) zPad scale i := by
  have hM := (cast_row17 (after midB (after midA (after opsPre V)))).trans
    (congrArg _ ((sum_row17 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 1 2 2 (V (Proc.devRef .tc main_arg0)) (V (Proc.devRef .tc main_arg1)) i (by show (i 1).val / 9 = 1; omega) (by show (i 1).val / 3 % 3 = 2; omega) (by show (i 1).val % 3 = 2; omega))
  refine (concatenate_apply_piece 1 _ _ i 1 ?_ S2x11x80x80x80 _ rfl rfl 16 rfl (ix5 (i 0) (⟨1, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 1 = (i 1).val; rw [hn]
  refine (concatenate_apply_piece 1 _ _ (ix5 (i 0) (⟨1, by decide⟩ : Fin 11) (i 2) (i 3) (i 4) : S2x11x80x80x80.Idx) 1 ?_ S2x1x80x80x80 _ rfl rfl 1 rfl (ix5 (i 0) (0 : Fin 1) (i 2) (i 3) (i 4) : S2x1x80x80x80.Idx) ?_ ?_).trans ?_
  · show 1 < 11; decide
  · intro b hb
    match b with
    | ⟨0, _⟩ => rfl
    | ⟨1, _⟩ => exact absurd rfl hb
    | ⟨2, _⟩ => rfl
    | ⟨3, _⟩ => rfl
    | ⟨4, _⟩ => rfl
  · show 1 + 0 = 1; rfl
  rw [hM]
  exact row_value 1 2 2 slices_S2x64x82x82x82_S2x64x80x80x80_0_0_1_2_2 (V (Proc.devRef .tc main_arg0)) (V (Proc.devRef .tc main_arg1)) _ _ _ (ix5 (i 0) 0 (i 2) (i 3) (i 4))

set_option maxHeartbeats 2000000 in
theorem ref_row18 (V : Valuation τ sig (Elt Ideal)) (i : S2x27x80x80x80.Idx) (hn : (i 1).val = 18) :
    after ops V (Proc.devRef .tc main_v113) i = corr (V (Proc.devRef .tc main_arg0)) (V (Proc.devRef .tc main_arg1)) zPad scale i := by
  have hM := (cast_row18 (after midB (after midA (after opsPre V)))).trans
    (congrArg _ ((sum_row18 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 0 0 (V (Proc.devRef .tc main_arg0)) (V (Proc.devRef .tc main_arg1)) i (by show (i 1).val / 9 = 2; omega) (by show (i 1).val / 3 % 3 = 0; omega) (by show (i 1).val % 3 = 0; omega))
  refine (concatenate_apply_piece 1 _ _ i 1 ?_ S2x11x80x80x80 _ rfl rfl 16 rfl (ix5 (i 0) (⟨2, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 2 = (i 1).val; rw [hn]
  refine (concatenate_apply_piece 1 _ _ (ix5 (i 0) (⟨2, by decide⟩ : Fin 11) (i 2) (i 3) (i 4) : S2x11x80x80x80.Idx) 2 ?_ S2x1x80x80x80 _ rfl rfl 2 rfl (ix5 (i 0) (0 : Fin 1) (i 2) (i 3) (i 4) : S2x1x80x80x80.Idx) ?_ ?_).trans ?_
  · show 2 < 11; decide
  · intro b hb
    match b with
    | ⟨0, _⟩ => rfl
    | ⟨1, _⟩ => exact absurd rfl hb
    | ⟨2, _⟩ => rfl
    | ⟨3, _⟩ => rfl
    | ⟨4, _⟩ => rfl
  · show 2 + 0 = 2; rfl
  rw [hM]
  exact row_value 2 0 0 slices_S2x64x82x82x82_S2x64x80x80x80_0_0_2_0_0 (V (Proc.devRef .tc main_arg0)) (V (Proc.devRef .tc main_arg1)) _ _ _ (ix5 (i 0) 0 (i 2) (i 3) (i 4))

set_option maxHeartbeats 2000000 in
theorem ref_row19 (V : Valuation τ sig (Elt Ideal)) (i : S2x27x80x80x80.Idx) (hn : (i 1).val = 19) :
    after ops V (Proc.devRef .tc main_v113) i = corr (V (Proc.devRef .tc main_arg0)) (V (Proc.devRef .tc main_arg1)) zPad scale i := by
  have hM := (cast_row19 (after midB (after midA (after opsPre V)))).trans
    (congrArg _ ((sum_row19 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 0 1 (V (Proc.devRef .tc main_arg0)) (V (Proc.devRef .tc main_arg1)) i (by show (i 1).val / 9 = 2; omega) (by show (i 1).val / 3 % 3 = 0; omega) (by show (i 1).val % 3 = 1; omega))
  refine (concatenate_apply_piece 1 _ _ i 1 ?_ S2x11x80x80x80 _ rfl rfl 16 rfl (ix5 (i 0) (⟨3, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 3 = (i 1).val; rw [hn]
  refine (concatenate_apply_piece 1 _ _ (ix5 (i 0) (⟨3, by decide⟩ : Fin 11) (i 2) (i 3) (i 4) : S2x11x80x80x80.Idx) 3 ?_ S2x1x80x80x80 _ rfl rfl 3 rfl (ix5 (i 0) (0 : Fin 1) (i 2) (i 3) (i 4) : S2x1x80x80x80.Idx) ?_ ?_).trans ?_
  · show 3 < 11; decide
  · intro b hb
    match b with
    | ⟨0, _⟩ => rfl
    | ⟨1, _⟩ => exact absurd rfl hb
    | ⟨2, _⟩ => rfl
    | ⟨3, _⟩ => rfl
    | ⟨4, _⟩ => rfl
  · show 3 + 0 = 3; rfl
  rw [hM]
  exact row_value 2 0 1 slices_S2x64x82x82x82_S2x64x80x80x80_0_0_2_0_1 (V (Proc.devRef .tc main_arg0)) (V (Proc.devRef .tc main_arg1)) _ _ _ (ix5 (i 0) 0 (i 2) (i 3) (i 4))

set_option maxHeartbeats 2000000 in
theorem ref_row20 (V : Valuation τ sig (Elt Ideal)) (i : S2x27x80x80x80.Idx) (hn : (i 1).val = 20) :
    after ops V (Proc.devRef .tc main_v113) i = corr (V (Proc.devRef .tc main_arg0)) (V (Proc.devRef .tc main_arg1)) zPad scale i := by
  have hM := (cast_row20 (after midB (after midA (after opsPre V)))).trans
    (congrArg _ ((sum_row20 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 0 2 (V (Proc.devRef .tc main_arg0)) (V (Proc.devRef .tc main_arg1)) i (by show (i 1).val / 9 = 2; omega) (by show (i 1).val / 3 % 3 = 0; omega) (by show (i 1).val % 3 = 2; omega))
  refine (concatenate_apply_piece 1 _ _ i 1 ?_ S2x11x80x80x80 _ rfl rfl 16 rfl (ix5 (i 0) (⟨4, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 4 = (i 1).val; rw [hn]
  refine (concatenate_apply_piece 1 _ _ (ix5 (i 0) (⟨4, by decide⟩ : Fin 11) (i 2) (i 3) (i 4) : S2x11x80x80x80.Idx) 4 ?_ S2x1x80x80x80 _ rfl rfl 4 rfl (ix5 (i 0) (0 : Fin 1) (i 2) (i 3) (i 4) : S2x1x80x80x80.Idx) ?_ ?_).trans ?_
  · show 4 < 11; decide
  · intro b hb
    match b with
    | ⟨0, _⟩ => rfl
    | ⟨1, _⟩ => exact absurd rfl hb
    | ⟨2, _⟩ => rfl
    | ⟨3, _⟩ => rfl
    | ⟨4, _⟩ => rfl
  · show 4 + 0 = 4; rfl
  rw [hM]
  exact row_value 2 0 2 slices_S2x64x82x82x82_S2x64x80x80x80_0_0_2_0_2 (V (Proc.devRef .tc main_arg0)) (V (Proc.devRef .tc main_arg1)) _ _ _ (ix5 (i 0) 0 (i 2) (i 3) (i 4))

set_option maxHeartbeats 2000000 in
theorem ref_row21 (V : Valuation τ sig (Elt Ideal)) (i : S2x27x80x80x80.Idx) (hn : (i 1).val = 21) :
    after ops V (Proc.devRef .tc main_v113) i = corr (V (Proc.devRef .tc main_arg0)) (V (Proc.devRef .tc main_arg1)) zPad scale i := by
  have hM := (cast_row21 (after midB (after midA (after opsPre V)))).trans
    (congrArg _ ((sum_row21 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 1 0 (V (Proc.devRef .tc main_arg0)) (V (Proc.devRef .tc main_arg1)) i (by show (i 1).val / 9 = 2; omega) (by show (i 1).val / 3 % 3 = 1; omega) (by show (i 1).val % 3 = 0; omega))
  refine (concatenate_apply_piece 1 _ _ i 1 ?_ S2x11x80x80x80 _ rfl rfl 16 rfl (ix5 (i 0) (⟨5, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 5 = (i 1).val; rw [hn]
  refine (concatenate_apply_piece 1 _ _ (ix5 (i 0) (⟨5, by decide⟩ : Fin 11) (i 2) (i 3) (i 4) : S2x11x80x80x80.Idx) 5 ?_ S2x1x80x80x80 _ rfl rfl 5 rfl (ix5 (i 0) (0 : Fin 1) (i 2) (i 3) (i 4) : S2x1x80x80x80.Idx) ?_ ?_).trans ?_
  · show 5 < 11; decide
  · intro b hb
    match b with
    | ⟨0, _⟩ => rfl
    | ⟨1, _⟩ => exact absurd rfl hb
    | ⟨2, _⟩ => rfl
    | ⟨3, _⟩ => rfl
    | ⟨4, _⟩ => rfl
  · show 5 + 0 = 5; rfl
  rw [hM]
  exact row_value 2 1 0 slices_S2x64x82x82x82_S2x64x80x80x80_0_0_2_1_0 (V (Proc.devRef .tc main_arg0)) (V (Proc.devRef .tc main_arg1)) _ _ _ (ix5 (i 0) 0 (i 2) (i 3) (i 4))

set_option maxHeartbeats 2000000 in
theorem ref_row22 (V : Valuation τ sig (Elt Ideal)) (i : S2x27x80x80x80.Idx) (hn : (i 1).val = 22) :
    after ops V (Proc.devRef .tc main_v113) i = corr (V (Proc.devRef .tc main_arg0)) (V (Proc.devRef .tc main_arg1)) zPad scale i := by
  have hM := (cast_row22 (after midB (after midA (after opsPre V)))).trans
    (congrArg _ ((sum_row22 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 1 1 (V (Proc.devRef .tc main_arg0)) (V (Proc.devRef .tc main_arg1)) i (by show (i 1).val / 9 = 2; omega) (by show (i 1).val / 3 % 3 = 1; omega) (by show (i 1).val % 3 = 1; omega))
  refine (concatenate_apply_piece 1 _ _ i 1 ?_ S2x11x80x80x80 _ rfl rfl 16 rfl (ix5 (i 0) (⟨6, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 6 = (i 1).val; rw [hn]
  refine (concatenate_apply_piece 1 _ _ (ix5 (i 0) (⟨6, by decide⟩ : Fin 11) (i 2) (i 3) (i 4) : S2x11x80x80x80.Idx) 6 ?_ S2x1x80x80x80 _ rfl rfl 6 rfl (ix5 (i 0) (0 : Fin 1) (i 2) (i 3) (i 4) : S2x1x80x80x80.Idx) ?_ ?_).trans ?_
  · show 6 < 11; decide
  · intro b hb
    match b with
    | ⟨0, _⟩ => rfl
    | ⟨1, _⟩ => exact absurd rfl hb
    | ⟨2, _⟩ => rfl
    | ⟨3, _⟩ => rfl
    | ⟨4, _⟩ => rfl
  · show 6 + 0 = 6; rfl
  rw [hM]
  exact row_value 2 1 1 slices_S2x64x82x82x82_S2x64x80x80x80_0_0_2_1_1 (V (Proc.devRef .tc main_arg0)) (V (Proc.devRef .tc main_arg1)) _ _ _ (ix5 (i 0) 0 (i 2) (i 3) (i 4))

set_option maxHeartbeats 2000000 in
theorem ref_row23 (V : Valuation τ sig (Elt Ideal)) (i : S2x27x80x80x80.Idx) (hn : (i 1).val = 23) :
    after ops V (Proc.devRef .tc main_v113) i = corr (V (Proc.devRef .tc main_arg0)) (V (Proc.devRef .tc main_arg1)) zPad scale i := by
  have hM := (cast_row23 (after midB (after midA (after opsPre V)))).trans
    (congrArg _ ((sum_row23 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 1 2 (V (Proc.devRef .tc main_arg0)) (V (Proc.devRef .tc main_arg1)) i (by show (i 1).val / 9 = 2; omega) (by show (i 1).val / 3 % 3 = 1; omega) (by show (i 1).val % 3 = 2; omega))
  refine (concatenate_apply_piece 1 _ _ i 1 ?_ S2x11x80x80x80 _ rfl rfl 16 rfl (ix5 (i 0) (⟨7, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 7 = (i 1).val; rw [hn]
  refine (concatenate_apply_piece 1 _ _ (ix5 (i 0) (⟨7, by decide⟩ : Fin 11) (i 2) (i 3) (i 4) : S2x11x80x80x80.Idx) 7 ?_ S2x1x80x80x80 _ rfl rfl 7 rfl (ix5 (i 0) (0 : Fin 1) (i 2) (i 3) (i 4) : S2x1x80x80x80.Idx) ?_ ?_).trans ?_
  · show 7 < 11; decide
  · intro b hb
    match b with
    | ⟨0, _⟩ => rfl
    | ⟨1, _⟩ => exact absurd rfl hb
    | ⟨2, _⟩ => rfl
    | ⟨3, _⟩ => rfl
    | ⟨4, _⟩ => rfl
  · show 7 + 0 = 7; rfl
  rw [hM]
  exact row_value 2 1 2 slices_S2x64x82x82x82_S2x64x80x80x80_0_0_2_1_2 (V (Proc.devRef .tc main_arg0)) (V (Proc.devRef .tc main_arg1)) _ _ _ (ix5 (i 0) 0 (i 2) (i 3) (i 4))

set_option maxHeartbeats 2000000 in
theorem ref_row24 (V : Valuation τ sig (Elt Ideal)) (i : S2x27x80x80x80.Idx) (hn : (i 1).val = 24) :
    after ops V (Proc.devRef .tc main_v113) i = corr (V (Proc.devRef .tc main_arg0)) (V (Proc.devRef .tc main_arg1)) zPad scale i := by
  have hM := (cast_row24 (after midB (after midA (after opsPre V)))).trans
    (congrArg _ ((sum_row24 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 2 0 (V (Proc.devRef .tc main_arg0)) (V (Proc.devRef .tc main_arg1)) i (by show (i 1).val / 9 = 2; omega) (by show (i 1).val / 3 % 3 = 2; omega) (by show (i 1).val % 3 = 0; omega))
  refine (concatenate_apply_piece 1 _ _ i 1 ?_ S2x11x80x80x80 _ rfl rfl 16 rfl (ix5 (i 0) (⟨8, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 8 = (i 1).val; rw [hn]
  refine (concatenate_apply_piece 1 _ _ (ix5 (i 0) (⟨8, by decide⟩ : Fin 11) (i 2) (i 3) (i 4) : S2x11x80x80x80.Idx) 8 ?_ S2x1x80x80x80 _ rfl rfl 8 rfl (ix5 (i 0) (0 : Fin 1) (i 2) (i 3) (i 4) : S2x1x80x80x80.Idx) ?_ ?_).trans ?_
  · show 8 < 11; decide
  · intro b hb
    match b with
    | ⟨0, _⟩ => rfl
    | ⟨1, _⟩ => exact absurd rfl hb
    | ⟨2, _⟩ => rfl
    | ⟨3, _⟩ => rfl
    | ⟨4, _⟩ => rfl
  · show 8 + 0 = 8; rfl
  rw [hM]
  exact row_value 2 2 0 slices_S2x64x82x82x82_S2x64x80x80x80_0_0_2_2_0 (V (Proc.devRef .tc main_arg0)) (V (Proc.devRef .tc main_arg1)) _ _ _ (ix5 (i 0) 0 (i 2) (i 3) (i 4))

set_option maxHeartbeats 2000000 in
theorem ref_row25 (V : Valuation τ sig (Elt Ideal)) (i : S2x27x80x80x80.Idx) (hn : (i 1).val = 25) :
    after ops V (Proc.devRef .tc main_v113) i = corr (V (Proc.devRef .tc main_arg0)) (V (Proc.devRef .tc main_arg1)) zPad scale i := by
  have hM := (cast_row25 (after midB (after midA (after opsPre V)))).trans
    (congrArg _ ((sum_row25 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 2 1 (V (Proc.devRef .tc main_arg0)) (V (Proc.devRef .tc main_arg1)) i (by show (i 1).val / 9 = 2; omega) (by show (i 1).val / 3 % 3 = 2; omega) (by show (i 1).val % 3 = 1; omega))
  refine (concatenate_apply_piece 1 _ _ i 1 ?_ S2x11x80x80x80 _ rfl rfl 16 rfl (ix5 (i 0) (⟨9, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 9 = (i 1).val; rw [hn]
  refine (concatenate_apply_piece 1 _ _ (ix5 (i 0) (⟨9, by decide⟩ : Fin 11) (i 2) (i 3) (i 4) : S2x11x80x80x80.Idx) 9 ?_ S2x1x80x80x80 _ rfl rfl 9 rfl (ix5 (i 0) (0 : Fin 1) (i 2) (i 3) (i 4) : S2x1x80x80x80.Idx) ?_ ?_).trans ?_
  · show 9 < 11; decide
  · intro b hb
    match b with
    | ⟨0, _⟩ => rfl
    | ⟨1, _⟩ => exact absurd rfl hb
    | ⟨2, _⟩ => rfl
    | ⟨3, _⟩ => rfl
    | ⟨4, _⟩ => rfl
  · show 9 + 0 = 9; rfl
  rw [hM]
  exact row_value 2 2 1 slices_S2x64x82x82x82_S2x64x80x80x80_0_0_2_2_1 (V (Proc.devRef .tc main_arg0)) (V (Proc.devRef .tc main_arg1)) _ _ _ (ix5 (i 0) 0 (i 2) (i 3) (i 4))

set_option maxHeartbeats 2000000 in
theorem ref_row26 (V : Valuation τ sig (Elt Ideal)) (i : S2x27x80x80x80.Idx) (hn : (i 1).val = 26) :
    after ops V (Proc.devRef .tc main_v113) i = corr (V (Proc.devRef .tc main_arg0)) (V (Proc.devRef .tc main_arg1)) zPad scale i := by
  have hM := (cast_row26 (after midB (after midA (after opsPre V)))).trans
    (congrArg _ ((sum_row26 (after opsPre V)).trans (by rw [keep_opsPre_main_arg0, pad_result])))
  rw [after_ops, join_result]
  generalize after castB (after castA (after midB (after midA (after opsPre V)))) = G at hM ⊢
  refine (scaled_apply _ i).trans ?_
  refine (congrArg (· * scale) ?_).trans (row_to_corr 2 2 2 (V (Proc.devRef .tc main_arg0)) (V (Proc.devRef .tc main_arg1)) i (by show (i 1).val / 9 = 2; omega) (by show (i 1).val / 3 % 3 = 2; omega) (by show (i 1).val % 3 = 2; omega))
  refine (concatenate_apply_piece 1 _ _ i 1 ?_ S2x11x80x80x80 _ rfl rfl 16 rfl (ix5 (i 0) (⟨10, by decide⟩ : Fin 11) (i 2) (i 3) (i 4) : S2x11x80x80x80.Idx) ?_ ?_).trans ?_
  · show 1 < 2; decide
  · intro b hb
    match b with
    | ⟨0, _⟩ => rfl
    | ⟨1, _⟩ => exact absurd rfl hb
    | ⟨2, _⟩ => rfl
    | ⟨3, _⟩ => rfl
    | ⟨4, _⟩ => rfl
  · show 16 + 10 = (i 1).val; rw [hn]
  refine (concatenate_apply_piece 1 _ _ (ix5 (i 0) (⟨10, by decide⟩ : Fin 11) (i 2) (i 3) (i 4) : S2x11x80x80x80.Idx) 10 ?_ S2x1x80x80x80 _ rfl rfl 10 rfl (ix5 (i 0) (0 : Fin 1) (i 2) (i 3) (i 4) : S2x1x80x80x80.Idx) ?_ ?_).trans ?_
  · show 10 < 11; decide
  · intro b hb
    match b with
    | ⟨0, _⟩ => rfl
    | ⟨1, _⟩ => exact absurd rfl hb
    | ⟨2, _⟩ => rfl
    | ⟨3, _⟩ => rfl
    | ⟨4, _⟩ => rfl
  · show 10 + 0 = 10; rfl
  rw [hM]
  exact row_value 2 2 2 slices_S2x64x82x82x82_S2x64x80x80x80_0_0_2_2_2 (V (Proc.devRef .tc main_arg0)) (V (Proc.devRef .tc main_arg1)) _ _ _ (ix5 (i 0) 0 (i 2) (i 3) (i 4))

/-- The reference's result array is the correlation volume of the two arguments. -/
theorem ref_value (V : Valuation τ sig (Elt Ideal)) :
    after ops V (Proc.devRef .tc main_v113) = corr (V (Proc.devRef .tc main_arg0)) (V (Proc.devRef .tc main_arg1)) zPad scale := by
  funext i
  have h27 : (i 1).val < 27 := (i 1).isLt
  interval_cases h : (i 1).val
  · exact ref_row0 V i h
  · exact ref_row1 V i h
  · exact ref_row2 V i h
  · exact ref_row3 V i h
  · exact ref_row4 V i h
  · exact ref_row5 V i h
  · exact ref_row6 V i h
  · exact ref_row7 V i h
  · exact ref_row8 V i h
  · exact ref_row9 V i h
  · exact ref_row10 V i h
  · exact ref_row11 V i h
  · exact ref_row12 V i h
  · exact ref_row13 V i h
  · exact ref_row14 V i h
  · exact ref_row15 V i h
  · exact ref_row16 V i h
  · exact ref_row17 V i h
  · exact ref_row18 V i h
  · exact ref_row19 V i h
  · exact ref_row20 V i h
  · exact ref_row21 V i h
  · exact ref_row22 V i h
  · exact ref_row23 V i h
  · exact ref_row24 V i h
  · exact ref_row25 V i h
  · exact ref_row26 V i h

/-- No operation writes an argument. -/
theorem kept_arg0 (V : Valuation τ sig (Elt Ideal)) : after ops V (Proc.devRef .tc main_arg0) = V (Proc.devRef .tc main_arg0) := by
  rw [after_ops, keep_opsTail_main_arg0, keep_castB_main_arg0, keep_castA_main_arg0, keep_midB_main_arg0, keep_midA_main_arg0, keep_opsPre_main_arg0]
theorem kept_arg1 (V : Valuation τ sig (Elt Ideal)) : after ops V (Proc.devRef .tc main_arg1) = V (Proc.devRef .tc main_arg1) := by
  rw [after_ops, keep_opsTail_main_arg1, keep_castB_main_arg1, keep_castA_main_arg1, keep_midB_main_arg1, keep_midA_main_arg1, keep_opsPre_main_arg1]

/-- The reference's run: every weakly fair execution terminates with the result array at the correlation volume of
    the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = corr (m ((c.tc : Thread nD τ).loc main_arg0)) (m ((c.tc : Thread nD τ).loc main_arg1)) zPad scale
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v113).trans (ref_value _),
      (h c main_arg0).trans (kept_arg0 _),
      (h c main_arg1).trans (kept_arg1 _)⟩)
    (run_seq scopedRefs_eq scopedSems_eq defs main (fun _ => ops) main_eq (fun _ => ops_sub) m ρ (fun _ => ops_fresh))

end Cert.ReferenceIdeal.CorrValue

end
-- ==== Proof.lean ====
/-
  The certificate: the kernel and its idealization run to the end, fault nowhere and leave their arguments unchanged;
  so does the reference; the idealization rewrote no operation; and at the ideal instance the idealized kernel and the
  idealized reference, run from memories that agree on the arguments, end with the same result array — both hold the
  windowed channel correlation of the two arguments: at (b, 9·dz + 3·dy + dx, d, h, w) the sum over channels of
  x[b, c, d, h, w] · ȳ[b, c, d + dz, h + dy, w + dx], ȳ the second argument with a border of zeros, times 1/8.

  The kernel reads the padded second argument through a two-slot buffer it fills by its own transfers, one depth ahead
  (Proof/IdealRing … IdealFrame, and the same for the word-level program in Proof/Bits…); what it stores is read back
  in Proof/IdealValue; the reference's operations are run and read in Proof/RefRun and Proof/RefValue; the function
  both compute is Proof/CorrSpec.
-/
import proofs.«155575_j81647328297400_2_alg».proof.Defs
import proofs.«155575_j81647328297400_2_alg».proof.Proof.Gen.Kernel
import proofs.«155575_j81647328297400_2_alg».proof.Proof.Gen.KernelIdeal
import proofs.«155575_j81647328297400_2_alg».proof.Proof.Gen.ReferenceIdeal
import proofs.«155575_j81647328297400_2_alg».proof.Proof.Gen.Pre_finite_inputs
import proofs.«155575_j81647328297400_2_alg».proof.Proof.BitsFrame
import proofs.«155575_j81647328297400_2_alg».proof.Proof.IdealValue
import proofs.«155575_j81647328297400_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Corr.frame m ρ
theorem frame_ideal : Cert.frame_KernelIdeal := fun m ρ _ => Cert.KernelIdeal.Corr.frame m ρ
theorem frame_reference : Cert.frame_ReferenceIdeal := fun m ρ _ =>
  (θ_run Cert.ReferenceIdeal.defs _ _).mono (fun _ h c => (h c).2) (Cert.ReferenceIdeal.CorrValue.run m ρ)

/-- Both programs end at the correlation volume of arguments that agree. -/
theorem algebraic : Cert.algebraic_KernelIdeal_ReferenceIdeal := by
  intro m ρ m' ρ' _ hagree
  refine ⟨fun c => Cert.KernelIdeal.CorrValue.kval m c, Cert.KernelIdeal.CorrValue.run_value m ρ, ?_⟩
  refine (θ_run Cert.ReferenceIdeal.defs _ _).mono (fun _ h c => ⟨(h c).1.trans ?_, (h c).2⟩)
    (Cert.ReferenceIdeal.CorrValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
